-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S2 : Shape := ⟨1, ![2]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S2 : S_.BroadcastsInDim S2 (![] : Fin 0 → Fin S2.rank)
  reducesTo_S2_S_d0 : S2.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S2 .f32) (main_arg2 : FVec F S2 .f32) (main_arg3 : FVec F S256 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x256x64x64 : Shape := ⟨4, ![32, 256, 64, 64]⟩
abbrev S2 : Shape := ⟨1, ![2]⟩
abbrev S256 : Shape := ⟨1, ![256]⟩
abbrev S32x256x4096 : Shape := ⟨3, ![32, 256, 4096]⟩
abbrev S16x32x16 : Shape := ⟨3, ![16, 32, 16]⟩
abbrev S16x1x512x512 : Shape := ⟨4, ![16, 1, 512, 512]⟩
abbrev S32x16x4096 : Shape := ⟨3, ![32, 16, 4096]⟩
abbrev S1x32x16 : Shape := ⟨3, ![1, 32, 16]⟩
abbrev S1x1x512x512 : Shape := ⟨4, ![1, 1, 512, 512]⟩
abbrev S32x16 : Shape := ⟨2, ![32, 16]⟩
abbrev S32x16x1 : Shape := ⟨3, ![32, 16, 1]⟩
abbrev S512x4096 : Shape := ⟨2, ![512, 4096]⟩
abbrev S512x512 : Shape := ⟨2, ![512, 512]⟩
abbrev S_ : Shape := ⟨0, ![]⟩
abbrev S16x512x512 : Shape := ⟨3, ![16, 512, 512]⟩
abbrev S16x32x16x32x16 : Shape := ⟨5, ![16, 32, 16, 32, 16]⟩
abbrev S16x16x16x32x32 : Shape := ⟨5, ![16, 16, 16, 32, 32]⟩
abbrev S32 : Shape := ⟨1, ![32]⟩
abbrev S32x1 : Shape := ⟨2, ![32, 1]⟩
abbrev S32x2 : Shape := ⟨2, ![32, 2]⟩
abbrev S16x16x16x32 : Shape := ⟨4, ![16, 16, 16, 32]⟩
abbrev S16x32x16x16 : Shape := ⟨4, ![16, 32, 16, 16]⟩
abbrev S16x16 : Shape := ⟨2, ![16, 16]⟩
abbrev S16x1x16 : Shape := ⟨3, ![16, 1, 16]⟩
abbrev S16x16x16 : Shape := ⟨3, ![16, 16, 16]⟩
abbrev S16x1x16x16 : Shape := ⟨4, ![16, 1, 16, 16]⟩
abbrev S1 : Shape := ⟨1, ![1]⟩
abbrev S1x1x16x16 : Shape := ⟨4, ![1, 1, 16, 16]⟩
abbrev S16x32 : Shape := ⟨2, ![16, 32]⟩
abbrev S16x32x1x1 : Shape := ⟨4, ![16, 32, 1, 1]⟩
abbrev S16x2x16x16x16 : Shape := ⟨5, ![16, 2, 16, 16, 16]⟩
abbrev S16x2x16x16x1x16 : Shape := ⟨6, ![16, 2, 16, 16, 1, 16]⟩
abbrev S1x1x16x1x16x1 : Shape := ⟨6, ![1, 1, 16, 1, 16, 1]⟩
abbrev S16x2x16x16x16x16 : Shape := ⟨6, ![16, 2, 16, 16, 16, 16]⟩
abbrev S16x2x256x256 : Shape := ⟨4, ![16, 2, 256, 256]⟩
abbrev S16x16x4096 : Shape := ⟨3, ![16, 16, 4096]⟩
abbrev S1x16x16 : Shape := ⟨3, ![1, 16, 16]⟩
abbrev S1x1x256x256 : Shape := ⟨4, ![1, 1, 256, 256]⟩
abbrev S1x1x16 : Shape := ⟨3, ![1, 1, 16]⟩
abbrev S256x256 : Shape := ⟨2, ![256, 256]⟩
abbrev S16 : Shape := ⟨1, ![16]⟩
abbrev S16x16x1 : Shape := ⟨3, ![16, 16, 1]⟩
abbrev S256x4096 : Shape := ⟨2, ![256, 4096]⟩
abbrev S1x16x1 : Shape := ⟨3, ![1, 16, 1]⟩

abbrev nBuf : Space → Nat
  | .hbm => 207
  | .vmem => 18
  | .smem => 0
  | _ => 0

abbrev hbmTy0_0 (i : Nat) : BufTy := match i % 128 with
  | 0 => ⟨S32x256x64x64, .f32⟩
  | 1 => ⟨S2, .f32⟩
  | 2 => ⟨S2, .f32⟩
  | 3 => ⟨S256, .f32⟩
  | 4 => ⟨S256, .f32⟩
  | 5 => ⟨S32x256x4096, .f32⟩
  | 6 => ⟨S16x32x16, .f32⟩
  | 7 => ⟨S16x1x512x512, .f32⟩
  | 8 => ⟨S_, .f32⟩
  | 9 => ⟨S16x32x16, .f32⟩
  | 10 => ⟨S16x32x16, .f32⟩
  | 11 => ⟨S16x512x512, .f32⟩
  | 12 => ⟨S16x32x16x32x16, .f32⟩
  | 13 => ⟨S16x16x16x32x32, .f32⟩
  | 14 => ⟨S32, .i32⟩
  | 15 => ⟨S32, .i32⟩
  | 16 => ⟨S_, .i32⟩
  | 17 => ⟨S32, .i32⟩
  | 18 => ⟨S32, .i1⟩
  | 19 => ⟨S_, .i32⟩
  | 20 => ⟨S32, .i32⟩
  | 21 => ⟨S32, .i32⟩
  | 22 => ⟨S32, .i32⟩
  | 23 => ⟨S_, .i32⟩
  | 24 => ⟨S32, .i32⟩
  | 25 => ⟨S32, .i1⟩
  | 26 => ⟨S_, .i32⟩
  | 27 => ⟨S32, .i32⟩
  | 28 => ⟨S32, .i32⟩
  | 29 => ⟨S32, .i32⟩
  | 30 => ⟨S32x1, .i32⟩
  | 31 => ⟨S32x1, .i32⟩
  | 32 => ⟨S32x2, .i32⟩
  | 33 => ⟨S16x16x16x32, .f32⟩
  | 34 => ⟨S16x32x16x16, .f32⟩
  | 35 => ⟨S_, .f32⟩
  | 36 => ⟨S16x32x16x16, .f32⟩
  | 37 => ⟨S16x32x16x16, .f32⟩
  | 38 => ⟨S_, .f32⟩
  | 39 => ⟨S16x16, .f32⟩
  | 40 => ⟨S16x1x16, .f32⟩
  | 41 => ⟨S_, .f32⟩
  | 42 => ⟨S16x1x16, .f32⟩
  | 43 => ⟨S16x1x16, .f32⟩
  | 44 => ⟨S16x32x16, .f32⟩
  | 45 => ⟨S16x32x16, .f32⟩
  | 46 => ⟨S16x16x16, .f32⟩
  | 47 => ⟨S_, .f32⟩
  | 48 => ⟨S16x16x16, .f32⟩
  | 49 => ⟨S16x16x16, .f32⟩
  | 50 => ⟨S_, .f32⟩
  | 51 => ⟨S16x16x16, .f32⟩
  | 52 => ⟨S16x16x16, .f32⟩
  | 53 => ⟨S_, .f32⟩
  | 54 => ⟨S16x16x16, .f32⟩
  | 55 => ⟨S16x16x16, .f32⟩
  | 56 => ⟨S16x32x16, .f32⟩
  | 57 => ⟨S16x1x16x16, .f32⟩
  | 58 => ⟨S16x32x16x16, .f32⟩
  | 59 => ⟨S_, .f32⟩
  | 60 => ⟨S_, .f32⟩
  | 61 => ⟨S_, .f32⟩
  | 62 => ⟨S_, .f32⟩
  | 63 => ⟨S1, .f32⟩
  | 64 => ⟨S2, .f32⟩
  | 65 => ⟨S2, .f32⟩
  | 66 => ⟨S2, .f32⟩
  | 67 => ⟨S_, .f32⟩
  | 68 => ⟨S_, .f32⟩
  | 69 => ⟨S1, .f32⟩
  | 70 => ⟨S2, .f32⟩
  | 71 => ⟨S2, .f32⟩
  | 72 => ⟨S_, .f32⟩
  | 73 => ⟨S_, .f32⟩
  | 74 => ⟨S_, .f32⟩
  | 75 => ⟨S_, .f32⟩
  | 76 => ⟨S1, .f32⟩
  | 77 => ⟨S2, .f32⟩
  | 78 => ⟨S2, .f32⟩
  | 79 => ⟨S2, .f32⟩
  | 80 => ⟨S_, .f32⟩
  | 81 => ⟨S_, .f32⟩
  | 82 => ⟨S1, .f32⟩
  | 83 => ⟨S2, .f32⟩
  | 84 => ⟨S2, .f32⟩
  | 85 => ⟨S16x16, .i32⟩
  | 86 => ⟨S16x16, .i32⟩
  | 87 => ⟨S_, .i32⟩
  | 88 => ⟨S16x16, .i32⟩
  | 89 => ⟨S16x16, .i32⟩
  | 90 => ⟨S16x16, .i1⟩
  | 91 => ⟨S16x16, .f32⟩
  | 92 => ⟨S1, .f32⟩
  | 93 => ⟨S_, .f32⟩
  | 94 => ⟨S16x32x16, .f32⟩
  | 95 => ⟨S16x32x16, .f32⟩
  | 96 => ⟨S1, .f32⟩
  | 97 => ⟨S_, .f32⟩
  | 98 => ⟨S16x32x16, .f32⟩
  | 99 => ⟨S16x32x16, .f32⟩
  | 100 => ⟨S16x32x16, .f32⟩
  | 101 => ⟨S1, .f32⟩
  | 102 => ⟨S_, .f32⟩
  | 103 => ⟨S16x32x16x16, .f32⟩
  | 104 => ⟨S16x32x16x16, .f32⟩
  | 105 => ⟨S1, .f32⟩
  | 106 => ⟨S_, .f32⟩
  | 107 => ⟨S16x32x16x16, .f32⟩
  | 108 => ⟨S16x32x16x16, .f32⟩
  | 109 => ⟨S16x32x16x16, .f32⟩
  | 110 => ⟨S1x1x16x16, .f32⟩
  | 111 => ⟨S_, .f32⟩
  | 112 => ⟨S1x1x16x16, .f32⟩
  | 113 => ⟨S1x1x16x16, .f32⟩
  | 114 => ⟨S16x32x16x16, .f32⟩
  | 115 => ⟨S16x32x16x16, .f32⟩
  | 116 => ⟨S16x16, .i32⟩
  | 117 => ⟨S16x16, .i32⟩
  | 118 => ⟨S_, .i32⟩
  | 119 => ⟨S16x16, .i32⟩
  | 120 => ⟨S16x16, .i32⟩
  | 121 => ⟨S16x16, .i1⟩
  | 122 => ⟨S_, .f32⟩
  | 123 => ⟨S16x32x16x16, .f32⟩
  | 124 => ⟨S16x32x16x16, .i1⟩
  | 125 => ⟨S16x32x16x16, .f32⟩
  | 126 => ⟨S_, .f32⟩
  | 127 => ⟨S16x32, .f32⟩
  | _ => ⟨S32x256x64x64, .f32⟩

abbrev hbmTy0_1 (i : Nat) : BufTy := match i % 128 with
  | 0 => ⟨S_, .f32⟩
  | 1 => ⟨S16x32, .f32⟩
  | 2 => ⟨S16x32, .f32⟩
  | 3 => ⟨S16x32x1x1, .f32⟩
  | 4 => ⟨S16x32x16x16, .f32⟩
  | 5 => ⟨S16x32x16x16, .f32⟩
  | 6 => ⟨S16x32x16x16, .f32⟩
  | 7 => ⟨S16x32x16x16, .f32⟩
  | 8 => ⟨S16x32x16x16, .f32⟩
  | 9 => ⟨S_, .f32⟩
  | 10 => ⟨S16x32x16x16, .f32⟩
  | 11 => ⟨S16x32x16x16, .f32⟩
  | 12 => ⟨S16x32x16x16, .f32⟩
  | 13 => ⟨S_, .f32⟩
  | 14 => ⟨S16x32x16x16, .f32⟩
  | 15 => ⟨S16x32x16x16, .f32⟩
  | 16 => ⟨S16x32x16x16, .f32⟩
  | 17 => ⟨S16x32x16x16, .f32⟩
  | 18 => ⟨S16x32x16x16, .f32⟩
  | 19 => ⟨S_, .f32⟩
  | 20 => ⟨S16x32x16x16, .f32⟩
  | 21 => ⟨S16x32x16x16, .f32⟩
  | 22 => ⟨S16x32x16x16, .f32⟩
  | 23 => ⟨S_, .f32⟩
  | 24 => ⟨S16x32x16x16, .f32⟩
  | 25 => ⟨S16x32x16x16, .f32⟩
  | 26 => ⟨S16x32x16x16, .f32⟩
  | 27 => ⟨S16x32x16x16, .f32⟩
  | 28 => ⟨S16x32x16x16, .f32⟩
  | 29 => ⟨S_, .f32⟩
  | 30 => ⟨S16x32x16x16, .f32⟩
  | 31 => ⟨S16x32x16x16, .f32⟩
  | 32 => ⟨S16x32x16x16, .f32⟩
  | 33 => ⟨S_, .f32⟩
  | 34 => ⟨S16x32x16x16, .f32⟩
  | 35 => ⟨S16x32x16x16, .f32⟩
  | 36 => ⟨S16x32x16x16, .f32⟩
  | 37 => ⟨S16x32x16x16, .f32⟩
  | 38 => ⟨S16x32x16x16, .f32⟩
  | 39 => ⟨S_, .f32⟩
  | 40 => ⟨S16x32x16x16, .f32⟩
  | 41 => ⟨S16x32x16x16, .f32⟩
  | 42 => ⟨S16x32x16x16, .f32⟩
  | 43 => ⟨S_, .f32⟩
  | 44 => ⟨S16x32x16x16, .f32⟩
  | 45 => ⟨S16x32x16x16, .f32⟩
  | 46 => ⟨S16x32x16x16, .f32⟩
  | 47 => ⟨S16x32x16x16, .f32⟩
  | 48 => ⟨S16x32x16x16, .f32⟩
  | 49 => ⟨S_, .f32⟩
  | 50 => ⟨S16x32x16x16, .f32⟩
  | 51 => ⟨S16x32x16x16, .f32⟩
  | 52 => ⟨S16x32x16x16, .f32⟩
  | 53 => ⟨S_, .f32⟩
  | 54 => ⟨S16x32x16x16, .f32⟩
  | 55 => ⟨S16x32x16x16, .f32⟩
  | 56 => ⟨S16x32x16x16, .f32⟩
  | 57 => ⟨S16x32, .f32⟩
  | 58 => ⟨S16x32x1x1, .f32⟩
  | 59 => ⟨S16x32x16x16, .f32⟩
  | 60 => ⟨S16x32x16x16, .f32⟩
  | 61 => ⟨S16x2x16x16x16, .f32⟩
  | 62 => ⟨S16x16, .i32⟩
  | 63 => ⟨S16x16, .i32⟩
  | 64 => ⟨S_, .i32⟩
  | 65 => ⟨S16x16, .i32⟩
  | 66 => ⟨S16x16, .i32⟩
  | 67 => ⟨S16x16, .i1⟩
  | 68 => ⟨S16x16, .f32⟩
  | 69 => ⟨S16x2x16x16x1x16, .f32⟩
  | 70 => ⟨S1x1x16x1x16x1, .f32⟩
  | 71 => ⟨S16x2x16x16x16x16, .f32⟩
  | 72 => ⟨S16x2x16x16x16x16, .f32⟩
  | 73 => ⟨S16x2x16x16x16x16, .f32⟩
  | 74 => ⟨S16x2x256x256, .f32⟩
  | 75 => ⟨S16x1x16, .f32⟩
  | 76 => ⟨S16x1x16, .f32⟩
  | 77 => ⟨S32x256x4096, .f32⟩
  | 78 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S32x16x4096, .f32⟩
  | .local _ .vmem, ⟨1, _⟩ => ⟨S32x16x4096, .f32⟩
  | .local _ .vmem, ⟨2, _⟩ => ⟨S1x32x16, .f32⟩
  | .local _ .vmem, ⟨3, _⟩ => ⟨S1x32x16, .f32⟩
  | .local _ .vmem, ⟨4, _⟩ => ⟨S1x1x512x512, .f32⟩
  | .local _ .vmem, ⟨5, _⟩ => ⟨S1x1x512x512, .f32⟩
  | .local _ .vmem, ⟨6, _⟩ => ⟨S16x16x4096, .f32⟩
  | .local _ .vmem, ⟨7, _⟩ => ⟨S16x16x4096, .f32⟩
  | .local _ .vmem, ⟨8, _⟩ => ⟨S1x16x16, .f32⟩
  | .local _ .vmem, ⟨9, _⟩ => ⟨S1x16x16, .f32⟩
  | .local _ .vmem, ⟨10, _⟩ => ⟨S1x1x256x256, .f32⟩
  | .local _ .vmem, ⟨11, _⟩ => ⟨S1x1x256x256, .f32⟩
  | .local _ .vmem, ⟨12, _⟩ => ⟨S1x1x16, .f32⟩
  | .local _ .vmem, ⟨13, _⟩ => ⟨S1x1x16, .f32⟩
  | .local _ .vmem, ⟨14, _⟩ => ⟨S1x1x16, .f32⟩
  | .local _ .vmem, ⟨15, _⟩ => ⟨S1x1x16, .f32⟩
  | .local _ .vmem, ⟨16, _⟩ => ⟨S16x16x4096, .f32⟩
  | .local _ .vmem, ⟨17, _⟩ => ⟨S16x16x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_c_1 : Ref sig .tc := ⟨.hbm, 23, rfl⟩
abbrev main_call0_v8 : Ref sig .tc := ⟨.hbm, 24, rfl⟩
abbrev main_call0_v9 : Ref sig .tc := ⟨.hbm, 25, rfl⟩
abbrev main_call0_c_2 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_11 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call1_v0 : Ref sig .tc := ⟨.hbm, 116, rfl⟩
abbrev main_call1_v1 : Ref sig .tc := ⟨.hbm, 117, rfl⟩
abbrev main_call1_c : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_cst : Ref sig .tc := ⟨.hbm, 122, rfl⟩
abbrev main_call1_v5 : Ref sig .tc := ⟨.hbm, 123, rfl⟩
abbrev main_call1_call0_v0 : Ref sig .tc := ⟨.hbm, 124, rfl⟩
abbrev main_call1_v6 : Ref sig .tc := ⟨.hbm, 125, rfl⟩
abbrev main_call1_cst_0 : Ref sig .tc := ⟨.hbm, 126, rfl⟩
abbrev main_v75 : Ref sig .tc := ⟨.hbm, 127, rfl⟩
abbrev main_cst_13 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_14 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_15 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_16 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_17 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_18 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_19 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_20 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_21 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_22 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_cst_23 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_24 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S32x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S16x16x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S16x16x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S32x256x64x64_S32x256x4096 : S32x256x64x64.ShapeCasts S32x256x4096
  inb_S32x16x4096_S32x16x4096_0_0_0 : ∀ a, (![0, 0, 0] : Fin 3 → Nat) a + S32x16x4096.size a ≤ S32x16x4096.size a
  h_S32x16x4096 : 0 < S32x16x4096.numel
  shapeCasts_S32x16x4096_S32x16x4096 : S32x16x4096.ShapeCasts S32x16x4096
  reduces_S32x16x4096_S32x16 : S32x16x4096.Reduces [2] S32x16
  shapeCasts_S32x16_S32x16x1 : S32x16.ShapeCasts S32x16x1
  broadcasts_S32x16x1_S32x16x4096 : S32x16x1.Broadcasts S32x16x4096
  shapeCasts_S32x16x4096_S512x4096 : S32x16x4096.ShapeCasts S512x4096
  shapeCasts_S32x16_S1x32x16 : S32x16.ShapeCasts S1x32x16
  inb_S1x32x16_S1x32x16_0_0_0 : ∀ a, (![0, 0, 0] : Fin 3 → Nat) a + S1x32x16.size a ≤ S1x32x16.size a
  h_S1x32x16 : 0 < S1x32x16.numel
  shapeCasts_S512x512_S1x1x512x512 : S512x512.ShapeCasts S1x1x512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  bcast_S_S16x32x16 : S_.BroadcastsInDim S16x32x16 (![] : Fin 0 → Fin S16x32x16.rank)
  shapeCasts_S16x1x512x512_S16x512x512 : S16x1x512x512.ShapeCasts S16x512x512
  shapeCasts_S16x512x512_S16x32x16x32x16 : S16x512x512.ShapeCasts S16x32x16x32x16
  transposes_S16x32x16x32x16_S16x16x16x32x32_0_2_4_1_3 : S16x32x16x32x16.Transposes [0, 2, 4, 1, 3] S16x16x16x32x32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  transposes_S16x16x16x32_S16x32x16x16_0_3_1_2 : S16x16x16x32.Transposes [0, 3, 1, 2] S16x32x16x16
  bcast_S_S16x32x16x16 : S_.BroadcastsInDim S16x32x16x16 (![] : Fin 0 → Fin S16x32x16x16.rank)
  reducesTo_S16x32x16_S16x16_d1 : S16x32x16.ReducesTo [1] S16x16
  h_S_ : 0 < S_.numel
  bcast_S16x16_S16x1x16_0_2 : S16x16.BroadcastsInDim S16x1x16 (![0, 2] : Fin 2 → Fin S16x1x16.rank)
  bcast_S_S16x1x16 : S_.BroadcastsInDim S16x1x16 (![] : Fin 0 → Fin S16x1x16.rank)
  bcast_S16x1x16_S16x32x16_0_1_2 : S16x1x16.BroadcastsInDim S16x32x16 (![0, 1, 2] : Fin 3 → Fin S16x32x16.rank)
  bcast_S_S16x16x16 : S_.BroadcastsInDim S16x16x16 (![] : Fin 0 → Fin S16x16x16.rank)
  reducesTo_S16x32x16x16_S16x16x16_d1 : S16x32x16x16.ReducesTo [1] S16x16x16
  bcast_S16x16x16_S16x1x16x16_0_2_3 : S16x16x16.BroadcastsInDim S16x1x16x16 (![0, 2, 3] : Fin 3 → Fin S16x1x16x16.rank)
  bcast_S16x1x16x16_S16x32x16x16_0_1_2_3 : S16x1x16x16.BroadcastsInDim S16x32x16x16 (![0, 1, 2, 3] : Fin 4 → Fin S16x32x16x16.rank)
  reducesTo_S2_S_d0 : S2.ReducesTo [0] S_
  bcast_S_S1 : S_.BroadcastsInDim S1 (![] : Fin 0 → Fin S1.rank)
  bcast_S1_S2_0 : S1.BroadcastsInDim S2 (![0] : Fin 1 → Fin S2.rank)
  bcast_S_S16x16 : S_.BroadcastsInDim S16x16 (![] : Fin 0 → Fin S16x16.rank)
  slices_S2_S1_0 : S2.Slices ![0] S1
  shapeCasts_S1_S_ : S1.ShapeCasts S_
  slices_S2_S1_1 : S2.Slices ![1] S1
  bcast_S16x16_S1x1x16x16_2_3 : S16x16.BroadcastsInDim S1x1x16x16 (![2, 3] : Fin 2 → Fin S1x1x16x16.rank)
  bcast_S_S1x1x16x16 : S_.BroadcastsInDim S1x1x16x16 (![] : Fin 0 → Fin S1x1x16x16.rank)
  bcast_S1x1x16x16_S16x32x16x16_0_1_2_3 : S1x1x16x16.BroadcastsInDim S16x32x16x16 (![0, 1, 2, 3] : Fin 4 → Fin S16x32x16x16.rank)
  bcast_S16x16_S16x32x16x16_2_3 : S16x16.BroadcastsInDim S16x32x16x16 (![2, 3] : Fin 2 → Fin S16x32x16x16.rank)
  reducesTo_S16x32x16x16_S16x32_d2_3 : S16x32x16x16.ReducesTo [2, 3] S16x32
  bcast_S_S16x32 : S_.BroadcastsInDim S16x32 (![] : Fin 0 → Fin S16x32.rank)
  bcast_S16x32_S16x32x1x1_0_1 : S16x32.BroadcastsInDim S16x32x1x1 (![0, 1] : Fin 2 → Fin S16x32x1x1.rank)
  bcast_S16x32x1x1_S16x32x16x16_0_1_2_3 : S16x32x1x1.BroadcastsInDim S16x32x16x16 (![0, 1, 2, 3] : Fin 4 → Fin S16x32x16x16.rank)
  shapeCasts_S16x32x16x16_S16x2x16x16x16 : S16x32x16x16.ShapeCasts S16x2x16x16x16
  bcast_S16x2x16x16x16_S16x2x16x16x1x16_0_1_2_3_5 : S16x2x16x16x16.BroadcastsInDim S16x2x16x16x1x16 (![0, 1, 2, 3, 5] : Fin 5 → Fin S16x2x16x16x1x16.rank)
  bcast_S16x16_S1x1x16x1x16x1_2_4 : S16x16.BroadcastsInDim S1x1x16x1x16x1 (![2, 4] : Fin 2 → Fin S1x1x16x1x16x1.rank)
  bcast_S16x2x16x16x1x16_S16x2x16x16x16x16_0_1_2_3_4_5 : S16x2x16x16x1x16.BroadcastsInDim S16x2x16x16x16x16 (![0, 1, 2, 3, 4, 5] : Fin 6 → Fin S16x2x16x16x16x16.rank)
  bcast_S1x1x16x1x16x1_S16x2x16x16x16x16_0_1_2_3_4_5 : S1x1x16x1x16x1.BroadcastsInDim S16x2x16x16x16x16 (![0, 1, 2, 3, 4, 5] : Fin 6 → Fin S16x2x16x16x16x16.rank)
  shapeCasts_S16x2x16x16x16x16_S16x2x256x256 : S16x2x16x16x16x16.ShapeCasts S16x2x256x256
  shapeCasts_S256_S16x1x16 : S256.ShapeCasts S16x1x16
  inb_S16x16x4096_S16x16x4096_0_0_0 : ∀ a, (![0, 0, 0] : Fin 3 → Nat) a + S16x16x4096.size a ≤ S16x16x4096.size a
  h_S16x16x4096 : 0 < S16x16x4096.numel
  shapeCasts_S16x16x4096_S16x16x4096 : S16x16x4096.ShapeCasts S16x16x4096
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  shapeCasts_S16x16_S16x16x1 : S16x16.ShapeCasts S16x16x1
  broadcasts_S16x16x1_S16x16x4096 : S16x16x1.Broadcasts S16x16x4096
  shapeCasts_S16x16x4096_S256x4096 : S16x16x4096.ShapeCasts S256x4096
  shapeCasts_S256x4096_S16x16x4096 : S256x4096.ShapeCasts S16x16x4096
  shapeCasts_S16_S1x16x1 : S16.ShapeCasts S1x16x1
  broadcasts_S1x16x1_S16x16x4096 : S1x16x1.Broadcasts S16x16x4096
  shapeCasts_S32x256x4096_S32x256x64x64 : S32x256x4096.ShapeCasts S32x256x64x64
  dot_S512x4096_S512x4096_S512x512_1_1_0_0_n_n_wf : DotDims.WF S512x4096 S512x4096 S512x512 [1] [1] [0] [0] [] []
  gather_S16x16x16x32x32_S32x2_S16x16x16x32_012_34_n_n_34_1_16161611_wf : GatherDims.WF S16x16x16x32x32 S32x2 S16x16x16x32 [0, 1, 2] [3, 4] [] [3, 4] [] 1 ![16, 16, 16, 1, 1]
  dot_S16x32x16_S16x32x16_S16x16x16_1_1_2_2_0_0_wf : DotDims.WF S16x32x16 S16x32x16 S16x16x16 [1] [1] [2] [2] [0] [0]
  dot_S16x32x16x16_S16x32x16x16_S16x32x16x16_3_2_2_3_01_01_wf : DotDims.WF S16x32x16x16 S16x32x16x16 S16x32x16x16 [3] [2] [2] [3] [0, 1] [0, 1]
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x4096.size a ≤ S32x256x4096.size a
  hwx0_0 : ∀ i : grid0.Coords, EltTy.bits .f32 = 32 ∨ (Rect.block (s := S32x256x4096) S32x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x16.size a ≤ S16x32x16.size a
  hwx0_1 : ∀ i : grid0.Coords, EltTy.bits .f32 = 32 ∨ (Rect.block (s := S16x32x16) S1x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16x4096.size a ≤ S32x256x4096.size a
  hwx1_0 : ∀ i : grid1.Coords, EltTy.bits .f32 = 32 ∨ (Rect.block (s := S32x256x4096) S16x16x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x16.size a ≤ S16x32x16.size a
  hwx1_1 : ∀ i : grid1.Coords, EltTy.bits .f32 = 32 ∨ (Rect.block (s := S16x32x16) S1x16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x256.size a ≤ S16x2x256x256.size a
  hwx1_2 : ∀ i : grid1.Coords, EltTy.bits .f32 = 32 ∨ (Rect.block (s := S16x2x256x256) S1x1x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S16x1x16.size a
  hwx1_3 : ∀ i : grid1.Coords, EltTy.bits .f32 = 32 ∨ (Rect.block (s := S16x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x16.size a ≤ S16x1x16.size a
  hwx1_4 : ∀ i : grid1.Coords, EltTy.bits .f32 = 32 ∨ (Rect.block (s := S16x1x16) S1x1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x16x4096.size a ≤ S32x256x4096.size a
  hwx1_5 : ∀ i : grid1.Coords, EltTy.bits .f32 = 32 ∨ (Rect.block (s := S32x256x4096) S16x16x4096.size (cc1_transform_5 i) (hinb1_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def gather_S16x16x16x32x32_S32x2_S16x16x16x32_012_34_n_n_34_1_16161611 : GatherDims S16x16x16x32x32 S32x2 S16x16x16x32 where
  offsetDims := [0, 1, 2]
  collapsedSliceDims := [3, 4]
  operandBatchingDims := []
  startIndicesBatchingDims := []
  startIndexMap := [3, 4]
  indexVectorDim := 1
  sliceSizes := ![16, 16, 16, 1, 1]
  wf := gather_S16x16x16x32x32_S32x2_S16x16x16x32_012_34_n_n_34_1_16161611_wf
def dot_S16x32x16_S16x32x16_S16x16x16_1_1_2_2_0_0 : DotDims S16x32x16 S16x32x16 S16x16x16 where
  lhsContracting := [1]
  rhsContracting := [1]
  lhsNonContracting := [2]
  rhsNonContracting := [2]
  lhsBatch := [0]
  rhsBatch := [0]
  wf := dot_S16x32x16_S16x32x16_S16x16x16_1_1_2_2_0_0_wf
def dot_S16x32x16x16_S16x32x16x16_S16x32x16x16_3_2_2_3_01_01 : DotDims S16x32x16x16 S16x32x16x16 S16x32x16x16 where
  lhsContracting := [3]
  rhsContracting := [2]
  lhsNonContracting := [2]
  rhsNonContracting := [3]
  lhsBatch := [0, 1]
  rhsBatch := [0, 1]
  wf := dot_S16x32x16x16_S16x32x16x16_S16x32x16x16_3_2_2_3_01_01_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S32x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x32x16.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S16x16x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x16x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v138) S1x1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v139) S1x1x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v140) S1x1x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v141) S16x16x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S2 : Shape := ⟨1, ![2]⟩
abbrev S256 : Shape := ⟨1, ![256]⟩
abbrev S256x32x64x64 : Shape := ⟨4, ![256, 32, 64, 64]⟩
abbrev S16x16x131072 : Shape := ⟨3, ![16, 16, 131072]⟩
abbrev S_ : Shape := ⟨0, ![]⟩
abbrev S16x16 : Shape := ⟨2, ![16, 16]⟩
abbrev S16x16x1 : Shape := ⟨3, ![16, 16, 1]⟩
abbrev S16x16x16 : Shape := ⟨3, ![16, 16, 16]⟩
abbrev S1x16x16x1 : Shape := ⟨4, ![1, 16, 16, 1]⟩
abbrev S32x16x16x1 : Shape := ⟨4, ![32, 16, 16, 1]⟩
abbrev S512x16x1 : Shape := ⟨3, ![512, 16, 1]⟩
abbrev S1x16x16x16 : Shape := ⟨4, ![1, 16, 16, 16]⟩
abbrev S32x16x16x16 : Shape := ⟨4, ![32, 16, 16, 16]⟩
abbrev S512x16x16 : Shape := ⟨3, ![512, 16, 16]⟩
abbrev S512x16x4096 : Shape := ⟨3, ![512, 16, 4096]⟩
abbrev S512x16 : Shape := ⟨2, ![512, 16]⟩
abbrev S1 : Shape := ⟨1, ![1]⟩
abbrev S1x16x16 : Shape := ⟨3, ![1, 16, 16]⟩
abbrev S512 : Shape := ⟨1, ![512]⟩
abbrev S512x1x1 : Shape := ⟨3, ![512, 1, 1]⟩
abbrev S1x256x1x1 : Shape := ⟨4, ![1, 256, 1, 1]⟩

abbrev nBuf : Space → Nat
  | .hbm => 177
  | .vmem => 0
  | .smem => 0
  | _ => 0

abbrev hbmTy0_0 (i : Nat) : BufTy := match i % 128 with
  | 0 => ⟨S32x256x64x64, .f32⟩
  | 1 => ⟨S2, .f32⟩
  | 2 => ⟨S2, .f32⟩
  | 3 => ⟨S256, .f32⟩
  | 4 => ⟨S256, .f32⟩
  | 5 => ⟨S256x32x64x64, .f32⟩
  | 6 => ⟨S16x16x131072, .f32⟩
  | 7 => ⟨S_, .f32⟩
  | 8 => ⟨S16x16, .f32⟩
  | 9 => ⟨S16x16x1, .f32⟩
  | 10 => ⟨S_, .f32⟩
  | 11 => ⟨S16x16x1, .f32⟩
  | 12 => ⟨S16x16x1, .f32⟩
  | 13 => ⟨S16x16x131072, .f32⟩
  | 14 => ⟨S16x16x131072, .f32⟩
  | 15 => ⟨S16x16x16, .f32⟩
  | 16 => ⟨S_, .f32⟩
  | 17 => ⟨S16x16x16, .f32⟩
  | 18 => ⟨S16x16x16, .f32⟩
  | 19 => ⟨S1x16x16x1, .f32⟩
  | 20 => ⟨S32x16x16x1, .f32⟩
  | 21 => ⟨S512x16x1, .f32⟩
  | 22 => ⟨S1x16x16x16, .f32⟩
  | 23 => ⟨S32x16x16x16, .f32⟩
  | 24 => ⟨S512x16x16, .f32⟩
  | 25 => ⟨S512x16x4096, .f32⟩
  | 26 => ⟨S_, .f32⟩
  | 27 => ⟨S512x16, .f32⟩
  | 28 => ⟨S512x16x1, .f32⟩
  | 29 => ⟨S_, .f32⟩
  | 30 => ⟨S512x16x1, .f32⟩
  | 31 => ⟨S512x16x1, .f32⟩
  | 32 => ⟨S512x16x4096, .f32⟩
  | 33 => ⟨S512x16x4096, .f32⟩
  | 34 => ⟨S512x16x16, .f32⟩
  | 35 => ⟨S_, .f32⟩
  | 36 => ⟨S512x16x16, .f32⟩
  | 37 => ⟨S512x16x16, .f32⟩
  | 38 => ⟨S16x16, .i32⟩
  | 39 => ⟨S16x16, .i32⟩
  | 40 => ⟨S_, .i32⟩
  | 41 => ⟨S16x16, .i32⟩
  | 42 => ⟨S16x16, .i32⟩
  | 43 => ⟨S16x16, .i1⟩
  | 44 => ⟨S16x16, .f32⟩
  | 45 => ⟨S_, .f32⟩
  | 46 => ⟨S_, .f32⟩
  | 47 => ⟨S_, .f32⟩
  | 48 => ⟨S_, .f32⟩
  | 49 => ⟨S1, .f32⟩
  | 50 => ⟨S2, .f32⟩
  | 51 => ⟨S2, .f32⟩
  | 52 => ⟨S2, .f32⟩
  | 53 => ⟨S_, .f32⟩
  | 54 => ⟨S_, .f32⟩
  | 55 => ⟨S1, .f32⟩
  | 56 => ⟨S2, .f32⟩
  | 57 => ⟨S2, .f32⟩
  | 58 => ⟨S_, .f32⟩
  | 59 => ⟨S_, .f32⟩
  | 60 => ⟨S_, .f32⟩
  | 61 => ⟨S_, .f32⟩
  | 62 => ⟨S1, .f32⟩
  | 63 => ⟨S2, .f32⟩
  | 64 => ⟨S2, .f32⟩
  | 65 => ⟨S2, .f32⟩
  | 66 => ⟨S_, .f32⟩
  | 67 => ⟨S_, .f32⟩
  | 68 => ⟨S1, .f32⟩
  | 69 => ⟨S2, .f32⟩
  | 70 => ⟨S2, .f32⟩
  | 71 => ⟨S1, .f32⟩
  | 72 => ⟨S_, .f32⟩
  | 73 => ⟨S512x16x1, .f32⟩
  | 74 => ⟨S512x16x1, .f32⟩
  | 75 => ⟨S1, .f32⟩
  | 76 => ⟨S_, .f32⟩
  | 77 => ⟨S512x16x1, .f32⟩
  | 78 => ⟨S512x16x1, .f32⟩
  | 79 => ⟨S512x16x1, .f32⟩
  | 80 => ⟨S1, .f32⟩
  | 81 => ⟨S_, .f32⟩
  | 82 => ⟨S512x16x16, .f32⟩
  | 83 => ⟨S512x16x16, .f32⟩
  | 84 => ⟨S1, .f32⟩
  | 85 => ⟨S_, .f32⟩
  | 86 => ⟨S512x16x16, .f32⟩
  | 87 => ⟨S512x16x16, .f32⟩
  | 88 => ⟨S512x16x16, .f32⟩
  | 89 => ⟨S_, .f32⟩
  | 90 => ⟨S16x16, .f32⟩
  | 91 => ⟨S16x16, .f32⟩
  | 92 => ⟨S1x16x16, .f32⟩
  | 93 => ⟨S512x16x16, .f32⟩
  | 94 => ⟨S512x16x16, .f32⟩
  | 95 => ⟨S16x16, .i32⟩
  | 96 => ⟨S16x16, .i32⟩
  | 97 => ⟨S_, .i32⟩
  | 98 => ⟨S16x16, .i32⟩
  | 99 => ⟨S16x16, .i32⟩
  | 100 => ⟨S16x16, .i1⟩
  | 101 => ⟨S_, .f32⟩
  | 102 => ⟨S512x16x16, .f32⟩
  | 103 => ⟨S512x16x16, .i1⟩
  | 104 => ⟨S512x16x16, .f32⟩
  | 105 => ⟨S_, .f32⟩
  | 106 => ⟨S512, .f32⟩
  | 107 => ⟨S512x1x1, .f32⟩
  | 108 => ⟨S_, .f32⟩
  | 109 => ⟨S512x1x1, .f32⟩
  | 110 => ⟨S512x1x1, .f32⟩
  | 111 => ⟨S512x16x16, .f32⟩
  | 112 => ⟨S512x16x16, .f32⟩
  | 113 => ⟨S512x16x16, .f32⟩
  | 114 => ⟨S512x16x16, .f32⟩
  | 115 => ⟨S512x16x16, .f32⟩
  | 116 => ⟨S_, .f32⟩
  | 117 => ⟨S512x16x16, .f32⟩
  | 118 => ⟨S512x16x16, .f32⟩
  | 119 => ⟨S512x16x16, .f32⟩
  | 120 => ⟨S_, .f32⟩
  | 121 => ⟨S512x16x16, .f32⟩
  | 122 => ⟨S512x16x16, .f32⟩
  | 123 => ⟨S512x16x16, .f32⟩
  | 124 => ⟨S512x16x16, .f32⟩
  | 125 => ⟨S512x16x16, .f32⟩
  | 126 => ⟨S_, .f32⟩
  | 127 => ⟨S512x16x16, .f32⟩
  | _ => ⟨S32x256x64x64, .f32⟩

abbrev hbmTy0_1 (i : Nat) : BufTy := match i % 128 with
  | 0 => ⟨S512x16x16, .f32⟩
  | 1 => ⟨S512x16x16, .f32⟩
  | 2 => ⟨S_, .f32⟩
  | 3 => ⟨S512x16x16, .f32⟩
  | 4 => ⟨S512x16x16, .f32⟩
  | 5 => ⟨S512x16x16, .f32⟩
  | 6 => ⟨S512x16x16, .f32⟩
  | 7 => ⟨S512x16x16, .f32⟩
  | 8 => ⟨S_, .f32⟩
  | 9 => ⟨S512x16x16, .f32⟩
  | 10 => ⟨S512x16x16, .f32⟩
  | 11 => ⟨S512x16x16, .f32⟩
  | 12 => ⟨S_, .f32⟩
  | 13 => ⟨S512x16x16, .f32⟩
  | 14 => ⟨S512x16x16, .f32⟩
  | 15 => ⟨S512x16x16, .f32⟩
  | 16 => ⟨S512x16x16, .f32⟩
  | 17 => ⟨S512x16x16, .f32⟩
  | 18 => ⟨S_, .f32⟩
  | 19 => ⟨S512x16x16, .f32⟩
  | 20 => ⟨S512x16x16, .f32⟩
  | 21 => ⟨S512x16x16, .f32⟩
  | 22 => ⟨S_, .f32⟩
  | 23 => ⟨S512x16x16, .f32⟩
  | 24 => ⟨S512x16x16, .f32⟩
  | 25 => ⟨S512x16x16, .f32⟩
  | 26 => ⟨S512x16x16, .f32⟩
  | 27 => ⟨S512x16x16, .f32⟩
  | 28 => ⟨S_, .f32⟩
  | 29 => ⟨S512x16x16, .f32⟩
  | 30 => ⟨S512x16x16, .f32⟩
  | 31 => ⟨S512x16x16, .f32⟩
  | 32 => ⟨S_, .f32⟩
  | 33 => ⟨S512x16x16, .f32⟩
  | 34 => ⟨S512x16x16, .f32⟩
  | 35 => ⟨S512x16x16, .f32⟩
  | 36 => ⟨S512x1x1, .f32⟩
  | 37 => ⟨S512x16x16, .f32⟩
  | 38 => ⟨S512x16x16, .f32⟩
  | 39 => ⟨S512x16x4096, .f32⟩
  | 40 => ⟨S512x16x4096, .f32⟩
  | 41 => ⟨S512x16x4096, .f32⟩
  | 42 => ⟨S32x256x64x64, .f32⟩
  | 43 => ⟨S1x256x1x1, .f32⟩
  | 44 => ⟨S32x256x64x64, .f32⟩
  | 45 => ⟨S32x256x64x64, .f32⟩
  | 46 => ⟨S1x256x1x1, .f32⟩
  | 47 => ⟨S32x256x64x64, .f32⟩
  | 48 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_call0_v0 : Ref sig .tc := ⟨.hbm, 95, rfl⟩
abbrev main_call0_v1 : Ref sig .tc := ⟨.hbm, 96, rfl⟩
abbrev main_call0_c : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_cst : Ref sig .tc := ⟨.hbm, 101, rfl⟩
abbrev main_call0_v5 : Ref sig .tc := ⟨.hbm, 102, rfl⟩
abbrev main_call0_call0_v0 : Ref sig .tc := ⟨.hbm, 103, rfl⟩
abbrev main_call0_v6 : Ref sig .tc := ⟨.hbm, 104, rfl⟩
abbrev main_call0_cst_0 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_15 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_17 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_19 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_22 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩

abbrev nD : Nat := 1
abbrev τ : Topo := Topo.v7x

variable {F : FTy → Type} [FloatOps F]

class Facts₀ : Prop where
  transposes_S32x256x64x64_S256x32x64x64_1_0_2_3 : S32x256x64x64.Transposes [1, 0, 2, 3] S256x32x64x64
  shapeCasts_S256x32x64x64_S16x16x131072 : S256x32x64x64.ShapeCasts S16x16x131072
  reducesTo_S16x16x131072_S16x16_d2 : S16x16x131072.ReducesTo [2] S16x16
  h_S_ : 0 < S_.numel
  bcast_S16x16_S16x16x1_0_1 : S16x16.BroadcastsInDim S16x16x1 (![0, 1] : Fin 2 → Fin S16x16x1.rank)
  bcast_S_S16x16x1 : S_.BroadcastsInDim S16x16x1 (![] : Fin 0 → Fin S16x16x1.rank)
  bcast_S16x16x1_S16x16x131072_0_1_2 : S16x16x1.BroadcastsInDim S16x16x131072 (![0, 1, 2] : Fin 3 → Fin S16x16x131072.rank)
  bcast_S_S16x16x16 : S_.BroadcastsInDim S16x16x16 (![] : Fin 0 → Fin S16x16x16.rank)
  bcast_S16x16x1_S1x16x16x1_1_2_3 : S16x16x1.BroadcastsInDim S1x16x16x1 (![1, 2, 3] : Fin 3 → Fin S1x16x16x1.rank)
  bcast_S1x16x16x1_S32x16x16x1_0_1_2_3 : S1x16x16x1.BroadcastsInDim S32x16x16x1 (![0, 1, 2, 3] : Fin 4 → Fin S32x16x16x1.rank)
  shapeCasts_S32x16x16x1_S512x16x1 : S32x16x16x1.ShapeCasts S512x16x1
  bcast_S16x16x16_S1x16x16x16_1_2_3 : S16x16x16.BroadcastsInDim S1x16x16x16 (![1, 2, 3] : Fin 3 → Fin S1x16x16x16.rank)
  bcast_S1x16x16x16_S32x16x16x16_0_1_2_3 : S1x16x16x16.BroadcastsInDim S32x16x16x16 (![0, 1, 2, 3] : Fin 4 → Fin S32x16x16x16.rank)
  shapeCasts_S32x16x16x16_S512x16x16 : S32x16x16x16.ShapeCasts S512x16x16
  shapeCasts_S32x256x64x64_S512x16x4096 : S32x256x64x64.ShapeCasts S512x16x4096
  reducesTo_S512x16x4096_S512x16_d2 : S512x16x4096.ReducesTo [2] S512x16
  bcast_S512x16_S512x16x1_0_1 : S512x16.BroadcastsInDim S512x16x1 (![0, 1] : Fin 2 → Fin S512x16x1.rank)
  bcast_S_S512x16x1 : S_.BroadcastsInDim S512x16x1 (![] : Fin 0 → Fin S512x16x1.rank)
  bcast_S512x16x1_S512x16x4096_0_1_2 : S512x16x1.BroadcastsInDim S512x16x4096 (![0, 1, 2] : Fin 3 → Fin S512x16x4096.rank)
  bcast_S_S512x16x16 : S_.BroadcastsInDim S512x16x16 (![] : Fin 0 → Fin S512x16x16.rank)
  bcast_S_S16x16 : S_.BroadcastsInDim S16x16 (![] : Fin 0 → Fin S16x16.rank)
  reducesTo_S2_S_d0 : S2.ReducesTo [0] S_
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  bcast_S16x16_S1x16x16_1_2 : S16x16.BroadcastsInDim S1x16x16 (![1, 2] : Fin 2 → Fin S1x16x16.rank)
  bcast_S1x16x16_S512x16x16_0_1_2 : S1x16x16.BroadcastsInDim S512x16x16 (![0, 1, 2] : Fin 3 → Fin S512x16x16.rank)
  bcast_S16x16_S512x16x16_1_2 : S16x16.BroadcastsInDim S512x16x16 (![1, 2] : Fin 2 → Fin S512x16x16.rank)
  reducesTo_S512x16x16_S512_d1_2 : S512x16x16.ReducesTo [1, 2] S512
  bcast_S512_S512x1x1_0 : S512.BroadcastsInDim S512x1x1 (![0] : Fin 1 → Fin S512x1x1.rank)
  bcast_S_S512x1x1 : S_.BroadcastsInDim S512x1x1 (![] : Fin 0 → Fin S512x1x1.rank)
  bcast_S512x1x1_S512x16x16_0_1_2 : S512x1x1.BroadcastsInDim S512x16x16 (![0, 1, 2] : Fin 3 → Fin S512x16x16.rank)
  shapeCasts_S512x16x4096_S32x256x64x64 : S512x16x4096.ShapeCasts S32x256x64x64
  bcast_S256_S1x256x1x1_1 : S256.BroadcastsInDim S1x256x1x1 (![1] : Fin 1 → Fin S1x256x1x1.rank)
  bcast_S1x256x1x1_S32x256x64x64_0_1_2_3 : S1x256x1x1.BroadcastsInDim S32x256x64x64 (![0, 1, 2, 3] : Fin 4 → Fin S32x256x64x64.rank)
  dot_S16x16x131072_S16x16x131072_S16x16x16_2_2_1_1_0_0_wf : DotDims.WF S16x16x131072 S16x16x131072 S16x16x16 [2] [2] [1] [1] [0] [0]
  dot_S512x16x4096_S512x16x4096_S512x16x16_2_2_1_1_0_0_wf : DotDims.WF S512x16x4096 S512x16x4096 S512x16x16 [2] [2] [1] [1] [0] [0]
  dot_S512x16x16_S512x16x16_S512x16x16_2_1_1_2_0_0_wf : DotDims.WF S512x16x16 S512x16x16 S512x16x16 [2] [1] [1] [2] [0] [0]
  dot_S512x16x16_S512x16x4096_S512x16x4096_2_1_1_2_0_0_wf : DotDims.WF S512x16x16 S512x16x4096 S512x16x4096 [2] [1] [1] [2] [0] [0]

variable [Facts₀]

def dot_S16x16x131072_S16x16x131072_S16x16x16_2_2_1_1_0_0 : DotDims S16x16x131072 S16x16x131072 S16x16x16 where
  lhsContracting := [2]
  rhsContracting := [2]
  lhsNonContracting := [1]
  rhsNonContracting := [1]
  lhsBatch := [0]
  rhsBatch := [0]
  wf := dot_S16x16x131072_S16x16x131072_S16x16x16_2_2_1_1_0_0_wf
def dot_S512x16x4096_S512x16x4096_S512x16x16_2_2_1_1_0_0 : DotDims S512x16x4096 S512x16x4096 S512x16x16 where
  lhsContracting := [2]
  rhsContracting := [2]
  lhsNonContracting := [1]
  rhsNonContracting := [1]
  lhsBatch := [0]
  rhsBatch := [0]
  wf := dot_S512x16x4096_S512x16x4096_S512x16x16_2_2_1_1_0_0_wf
def dot_S512x16x16_S512x16x16_S512x16x16_2_1_1_2_0_0 : DotDims S512x16x16 S512x16x16 S512x16x16 where
  lhsContracting := [2]
  rhsContracting := [1]
  lhsNonContracting := [1]
  rhsNonContracting := [2]
  lhsBatch := [0]
  rhsBatch := [0]
  wf := dot_S512x16x16_S512x16x16_S512x16x16_2_1_1_2_0_0_wf
def dot_S512x16x16_S512x16x4096_S512x16x4096_2_1_1_2_0_0 : DotDims S512x16x16 S512x16x4096 S512x16x4096 where
  lhsContracting := [2]
  rhsContracting := [1]
  lhsNonContracting := [1]
  rhsNonContracting := [2]
  lhsBatch := [0]
  rhsBatch := [0]
  wf := dot_S512x16x16_S512x16x4096_S512x16x4096_2_1_1_2_0_0_wf

class Facts : Prop extends Facts₀ where

variable [Facts]
-- ==== Proof.KernelRun.lean ====
/-
  The idealized kernel's run with its result kept. @main is nine segments (a stretch of host operations, the
  statistics call, five stretches, the whitening call, a last stretch); the buffer contents at each boundary are a
  fold from the launch memory. Every weakly fair execution terminates with the result buffer at the fold's last
  boundary and the five argument arrays as launched.
-/
import proofs.«136164_j25769804234_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's last boundary
    and every argument array as launched. -/
theorem run_result : θ_run defs (onTc (τ := τ) (main (F := F))) ⟨m, fun _ => 0, ρ⟩ (fun r => ∀ c : Dev nD,
      r.2.mem ((c.tc : Thread nD τ).loc main_v142) = W9 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v142 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Hand

end
-- ==== Proof.RefRun.lean ====
/-
  The reference program's run. Its @main is a straight line of host operations (the trace's call written out at the
  call's buffers), so every weakly fair execution terminates with each buffer at the operations' fold over the launch
  contents; no operation writes an argument, so the five argument arrays end as launched.
-/
import proofs.«136164_j25769804234_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- @main is that straight line: its three windows in order, the two called functions unfolded at their calls, sequencing
    reassociated. -/
theorem main_eq (c : Dev nD) : main (F := F) c = seq ops := by
  simp only [main, main_part0, main_part1, main_part2, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A buffer that no operation of the list writes holds, after the list, what it held before. -/
local macro "not_written" : tactic => `(tactic| (
  refine after_of_forall_not_mem _ _ (List.forall_iff_forall_mem.mp ?_)
  simp only [ops, List.Forall, nullary_writes, unary_writes, binary_writes, ternary_writes, reshape_writes, Finset.mem_singleton]
  repeat' apply And.intro
  all_goals exact devRef_ne_of_ne (by decide)))

theorem arg0_kept (V : Valuation τ sig (Elt F)) : after ops V (Proc.devRef .tc main_arg0) = V (Proc.devRef .tc main_arg0) := by not_written
theorem arg1_kept (V : Valuation τ sig (Elt F)) : after ops V (Proc.devRef .tc main_arg1) = V (Proc.devRef .tc main_arg1) := by not_written
theorem arg2_kept (V : Valuation τ sig (Elt F)) : after ops V (Proc.devRef .tc main_arg2) = V (Proc.devRef .tc main_arg2) := by not_written
theorem arg3_kept (V : Valuation τ sig (Elt F)) : after ops V (Proc.devRef .tc main_arg3) = V (Proc.devRef .tc main_arg3) := by not_written
theorem arg4_kept (V : Valuation τ sig (Elt F)) : after ops V (Proc.devRef .tc main_arg4) = V (Proc.devRef .tc main_arg4) := by not_written

/-- The run with the result buffer named (the fold at the last operation's buffer) and the arguments as launched. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = after ops (launchContents m c) (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v135,
      (h c main_arg0).trans (arg0_kept _), (h c main_arg1).trans (arg1_kept _), (h c main_arg2).trans (arg2_kept _),
      (h c main_arg3).trans (arg3_kept _), (h c main_arg4).trans (arg4_kept _)⟩) (run_main m ρ)

end Cert.ReferenceIdeal.Hand

end
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.Stats.lean ====
/-
  The statistics call, one block at a time. A block is the 32 samples of one group of 16 channels, each a row of 4096
  positions. The first output is each (sample, channel) row's sum; the second is the Gram matrix of the 512 rows after
  each has its own mean (the row sum times 1/4096) taken off.
-/
import proofs.«136164_j25769804234_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«136164_j25769804234_2_alg».proof.Proof.LibTile
import proofs.«136164_j25769804234_2_alg».proof.Proof.LibKeep
import proofs.«136164_j25769804234_2_alg».proof.Proof.LibMatmulT

set_option maxRecDepth 16384

noncomputable section

namespace Cert.KernelIdeal.Stats

open Cert.KernelIdeal Cert.KernelIdeal.Gen Idealize.ShloMosaic Idealize.ShloMosaic.ValueIdx Idealize.ShloMosaic.TcCoe

/-- A row's sum: the lane reduction of the block at (sample, channel) is the sum of the row's 4096 entries. -/
theorem rowsum_at (x0 : FVec Ideal S32x16x4096 .f32) (n : Fin 32) (c : Fin 16) :
    k0_pay2 (F := Ideal) x0 (ix2 n c) = ∑ mm : Fin 4096, x0 (ix3 n c mm) := by
  unfold k0_pay2 k0_pay1
  refine (Ideal.multiReduction_add_single (shapeCast S32x16x4096 x0 shapeCasts_S32x16x4096_S32x16x4096) 0x00000000#32
    reduces_S32x16x4096_S32x16 (.inl rfl) rfl (ix2 n c)).trans ?_
  rw [shapeCast_self]
  exact Finset.sum_congr rfl fun k _ => congrArg x0 (funext fun a => Fin.ext (by
    match a with
    | ⟨0, _⟩ => rfl
    | ⟨1, _⟩ => rfl
    | ⟨2, _⟩ => rfl))

/-- The stored sums are the same numbers laid out with a leading unit axis. -/
theorem sums_at (x0 : FVec Ideal S32x16x4096 .f32) (u : Fin 1) (n : Fin 32) (c : Fin 16) :
    k0_pay3 (F := Ideal) x0 (ix3 u n c) = ∑ mm : Fin 4096, x0 (ix3 n c mm) := by
  unfold k0_pay3
  refine (shapeCast_addUnit_apply ![32, 16] (k0_pay2 (F := Ideal) x0) shapeCasts_S32x16_S1x32x16 (ix3 u n c)).trans ?_
  have e : (fun a : Fin 2 => ix3 u n c a.succ) = ix2 n c := funext fun a => Fin.ext (by
    match a with
    | ⟨0, _⟩ => rfl
    | ⟨1, _⟩ => rfl)
  exact (congrArg (k0_pay2 (F := Ideal) x0) e).trans (rowsum_at x0 n c)

/-- A block's row (sample `n`, channel `c`) with its own mean — the row sum times 1/4096, the scale's exact binary value —
    taken off, at position `k`. -/
def centred (x0 : FVec Ideal S32x16x4096 .f32) (n : Fin 32) (c : Fin 16) (k : Fin 4096) : EReal :=
  x0 (ix3 n c k) - (∑ mm : Fin 4096, x0 (ix3 n c mm)) * Ideal.ofBits .f32 0x39800000#32

/-- A matrix laid out with two leading unit axes reads, at (u, v, r, s), its entry (r, s). -/
theorem cast_11_apply {a b : ℕ} {α : Type} (x : (⟨2, ![a, b]⟩ : Shape).Idx → α)
    (h : (⟨2, ![a, b]⟩ : Shape).ShapeCasts ⟨4, ![1, 1, a, b]⟩) (u v : Fin 1) (r : Fin a) (s : Fin b) :
    shapeCast ⟨4, ![1, 1, a, b]⟩ x h (ix4 u v r s) = x (ix2 r s) := by
  have hu : u.val = 0 := by omega
  have hv : v.val = 0 := by omega
  refine shapeCast_apply x h _ _ ?_
  rw [Shape.rowMajor_val_four, Shape.rowMajor_val_two]
  show r.val * b + s.val = ((u.val * 1 + v.val) * a + r.val) * b + s.val
  rw [hu, hv]
  simp

/-- The flattened centred block: row `n * 16 + c` of the [512, 4096] matrix the Gram product takes is the block's row
    (n, c) with its own mean taken off. -/
theorem flat_centred_at (x0 : FVec Ideal S32x16x4096 .f32) (n : Fin 32) (c : Fin 16) (k : Fin 4096) (r : Fin 512)
    (hr : r.val = n.val * 16 + c.val) :
    shapeCast S512x4096 (subf (k0_pay1 (F := Ideal) x0) (broadcastTo S32x16x4096 (shapeCast S32x16x1
      (mulf (k0_pay2 (F := Ideal) x0) (broadcast S32x16 (Scalar.ofBits (F := Ideal) .f32 0x39800000#32))) shapeCasts_S32x16_S32x16x1)
      broadcasts_S32x16x1_S32x16x4096)) shapeCasts_S32x16x4096_S512x4096 (ix2 r k) = centred x0 n c k := by
  refine (Cert.LibTile.flatten_apply (a := 32) (b := 16) (c := 4096) (n := 512) _ shapeCasts_S32x16x4096_S512x4096 n c k r hr).trans ?_
  show k0_pay1 (F := Ideal) x0 (ix3 n c k) - _ = _
  unfold centred
  congr 1
  · unfold k0_pay1; rw [shapeCast_self]
  · refine (broadcastTo_ab1_abc_apply (a := 32) (b := 16) (c := 4096) _ broadcasts_S32x16x1_S32x16x4096 n c k).trans ?_
    refine (shapeCast_ab_ab1_apply (a := 32) (b := 16) _ shapeCasts_S32x16_S32x16x1 n c 0).trans ?_
    show k0_pay2 (F := Ideal) x0 (ix2 n c) * _ = _
    rw [rowsum_at]
    rfl

/-- The stored Gram matrix: at rows `n * 16 + c` and `n' * 16 + d` the sum over positions of the product of the two
    centred rows. -/
theorem gram_at (x0 : FVec Ideal S32x16x4096 .f32) (u v : Fin 1) (n n' : Fin 32) (c d : Fin 16) (r s : Fin 512)
    (hr : r.val = n.val * 16 + c.val) (hs : s.val = n'.val * 16 + d.val) :
    k0_pay4 (F := Ideal) x0 (ix4 u v r s) = ∑ k : Fin 4096, centred x0 n c k * centred x0 n' d k := by
  unfold k0_pay4
  refine (cast_11_apply (a := 512) (b := 512) _ shapeCasts_S512x512_S1x1x512x512 u v r s).trans ?_
  refine (matmulT_zero_apply (a := 512) (K := 4096) (b := 512) dot_S512x4096_S512x4096_S512x512_1_1_0_0_n_n none rfl rfl
    (fun _ _ => rfl) (fun _ _ => rfl) (fun _ _ => rfl) (fun _ _ => rfl) _ _ r s).trans ?_
  exact Finset.sum_congr rfl fun k _ => by rw [flat_centred_at x0 n c k r hr, flat_centred_at x0 n' d k s hs]

end Cert.KernelIdeal.Stats

end
-- ==== Proof.StatsArrays.lean ====
/-
  The statistics call's two output arrays after the call, as functions of the [32, 256, 4096] array it reads. Grid point
  `t` (of 16) takes group `t`: the 16 channels `16 t … 16 t + 15` of all 32 samples. It writes block `t` of the sums
  array — entry (t, n, c) is the sum of sample n's channel `16 t + c` row — and block `t` of the Gram array — entry
  (t, 0, 16 n + c, 16 n' + d) is the sum over positions of the product of the two rows, each with its own mean taken off.
  The 16 blocks fill both arrays.
-/
import proofs.«136164_j25769804234_2_alg».proof.Proof.Stats

set_option maxRecDepth 16384

noncomputable section

namespace Cert.KernelIdeal.Stats

open Cert.KernelIdeal Cert.KernelIdeal.Gen Idealize.ShloMosaic Idealize.ShloMosaic.ValueIdx Idealize.ShloMosaic.TcCoe
open Idealize.SL.Sem
open Idealize.ShloMosaic.Pipeline (Dat)

/-- Channel `c` of group `g` among the 256 channels. -/
def chan (g c : Fin 16) : Fin 256 := ⟨g.val * 16 + c.val, by have := g.isLt; have := c.isLt; omega⟩

/-- The row of 4096 positions of sample `n`, group `g`, channel `c`. -/
def row (x2 : S32x256x4096.Idx → EReal) (g : Fin 16) (n : Fin 32) (c : Fin 16) : Fin 4096 → EReal :=
  fun k => x2 (ix3 n (chan g c) k)

/-- A row with its own mean (its sum times 1/4096, the scale's exact binary value) taken off. -/
def cen (f : Fin 4096 → EReal) : Fin 4096 → EReal :=
  fun k => f k - (∑ mm : Fin 4096, f mm) * Ideal.ofBits .f32 0x39800000#32

/-- The sums array: entry (g, n, c) is the row's sum. -/
def sumsArr (x2 : S32x256x4096.Idx → EReal) : S16x32x16.Idx → EReal :=
  fun i => ∑ mm : Fin 4096, row x2 (i 0) (i 1) (i 2) mm

/-- The Gram array: entry (g, 0, r, s) is the sum over positions of the product of centred rows `r` and `s` of group `g`
    (row `r` is sample `r / 16`, channel `r % 16`). -/
def gramArr (x2 : S32x256x4096.Idx → EReal) : S16x1x512x512.Idx → EReal :=
  fun i => ∑ k : Fin 4096,
    cen (row x2 (i 0) ⟨(i 2).val / 16, by have : (i 2).val < 512 := (i 2).isLt; omega⟩ ⟨(i 2).val % 16, by omega⟩) k
    * cen (row x2 (i 0) ⟨(i 3).val / 16, by have : (i 3).val < 512 := (i 3).isLt; omega⟩ ⟨(i 3).val % 16, by omega⟩) k

section Arrays

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The three index maps over the grid: the input's block index is (0, t, 0), the outputs' (t, 0, 0) and (t, 0, 0, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The input block at point `t` holds, at (n, c, k), sample n's channel `16 t + c` at position k. -/
theorem blk0_at (c : Dev nD) (t : Fin cfg0.N) (n : Fin 32) (ch : Fin 16) (k : Fin 4096) :
    iblk0 V c 0 t (ix3 n ch k) = row (V c main_v0) ⟨t.val, t.isLt⟩ n ch k := by
  obtain ⟨e0, e1, e2, -⟩ := idx_facts t
  show V c main_v0 (((cfg0.win 0).blk t).view.emb (ix3 n ch k)) = V c main_v0 (ix3 n (chan ⟨t.val, t.isLt⟩ ch) k)
  refine congrArg _ (funext fun a => Fin.ext ?_)
  match a with
  | ⟨0, _⟩ => show win0_0.index t (0 : Fin 3) * 32 + 1 * n.val = n.val; omega
  | ⟨1, _⟩ => show win0_0.index t (1 : Fin 3) * 16 + 1 * ch.val = t.val * 16 + ch.val; omega
  | ⟨2, _⟩ => show win0_0.index t (2 : Fin 3) * 4096 + 1 * k.val = k.val; omega

/-- Inside the sums block of point `t`, index (u, n, c) of the block is index (t, n, c) of the array. -/
theorem emb1_at (t : Fin cfg0.N) (u : Fin 1) (n : Fin 32) (ch : Fin 16) :
    ((cfg0.win 1).blk t).view.emb (ix3 u n ch) = ix3 (⟨t.val, t.isLt⟩ : Fin 16) n ch := by
  obtain ⟨-, -, -, e3, e4, e5, -⟩ := idx_facts t
  refine funext fun a => Fin.ext ?_
  match a with
  | ⟨0, _⟩ => show win0_1.index t (0 : Fin 3) * 1 + 1 * u.val = t.val; omega
  | ⟨1, _⟩ => show win0_1.index t (1 : Fin 3) * 32 + 1 * n.val = n.val; omega
  | ⟨2, _⟩ => show win0_1.index t (2 : Fin 3) * 16 + 1 * ch.val = ch.val; omega

/-- Inside the Gram block of point `t`, index (u, v, r, s) of the block is index (t, 0, r, s) of the array. -/
theorem emb2_at (t : Fin cfg0.N) (u v : Fin 1) (r s : Fin 512) :
    ((cfg0.win 2).blk t).view.emb (ix4 u v r s) = ix4 (⟨t.val, t.isLt⟩ : Fin 16) (0 : Fin 1) r s := by
  obtain ⟨-, -, -, -, -, -, e6, e7, e8, e9⟩ := idx_facts t
  refine funext fun a => Fin.ext ?_
  match a with
  | ⟨0, _⟩ => show win0_2.index t (0 : Fin 4) * 1 + 1 * u.val = t.val; omega
  | ⟨1, _⟩ => show win0_2.index t (1 : Fin 4) * 1 + 1 * v.val = 0; omega
  | ⟨2, _⟩ => show win0_2.index t (2 : Fin 4) * 512 + 1 * r.val = r.val; omega
  | ⟨3, _⟩ => show win0_2.index t (3 : Fin 4) * 512 + 1 * s.val = s.val; omega

/-- What point `t` writes back to the sums array is block `t` of `sumsArr`. -/
theorem flushed1_eq (c : Dev nD) (t : Fin cfg0.N) :
    (dat0 V c).flushed 1 t = ((cfg0.win 1).blk t).view.read (Elt Ideal) (sumsArr (V c main_v0)) := by
  show (cfg0.win 1).cut (grid0.coords t) ((dat0 V c).after 1 t) = _
  rw [after0_1]
  unfold out0_1
  rw [View.canon_unit_zero hz3]
  simp only [View.ld_unit_zero (S := S32x16x4096) hz3]
  funext j
  obtain ⟨u, n, ch, rfl⟩ : ∃ (u : Fin 1) (n : Fin 32) (ch : Fin 16), j = ix3 u n ch := ⟨j 0, j 1, j 2, eq_ix3 j⟩
  show k0_pay3 (F := Ideal) (iblk0 V c 0 t) (ix3 u n ch) = sumsArr (V c main_v0) (((cfg0.win 1).blk t).view.emb (ix3 u n ch))
  rw [sums_at, emb1_at]
  simp only [blk0_at]
  rfl

/-- What point `t` writes back to the Gram array is block `t` of `gramArr`. -/
theorem flushed2_eq (c : Dev nD) (t : Fin cfg0.N) :
    (dat0 V c).flushed 2 t = ((cfg0.win 2).blk t).view.read (Elt Ideal) (gramArr (V c main_v0)) := by
  show (cfg0.win 2).cut (grid0.coords t) ((dat0 V c).after 2 t) = _
  rw [after0_2]
  unfold out0_2
  rw [View.canon_unit_zero hz4]
  simp only [View.ld_unit_zero (S := S32x16x4096) hz3]
  funext j
  obtain ⟨u, v, r, s, rfl⟩ : ∃ (u v : Fin 1) (r s : Fin 512), j = ix4 u v r s := ⟨j 0, j 1, j 2, j 3, eq_ix4 j⟩
  show k0_pay4 (F := Ideal) (iblk0 V c 0 t) (ix4 u v r s) = gramArr (V c main_v0) (((cfg0.win 2).blk t).view.emb (ix4 u v r s))
  have hr : r.val = (⟨r.val / 16, by have := r.isLt; omega⟩ : Fin 32).val * 16 + (⟨r.val % 16, by omega⟩ : Fin 16).val := by
    show r.val = r.val / 16 * 16 + r.val % 16; omega
  have hs : s.val = (⟨s.val / 16, by have := s.isLt; omega⟩ : Fin 32).val * 16 + (⟨s.val % 16, by omega⟩ : Fin 16).val := by
    show s.val = s.val / 16 * 16 + s.val % 16; omega
  rw [gram_at (iblk0 V c 0 t) u v _ _ _ _ r s hr hs, emb2_at]
  unfold centred
  simp only [blk0_at]
  rfl

/-- An index of the sums array is in point `t`'s block iff each coordinate is in the block's range on its axis. -/
theorem mem_blk1 (t : Fin cfg0.N) (i : S16x32x16.Idx) :
    i ∈ ((cfg0.win 1).blk t).view.set ↔ ∀ a : Fin 3, win0_1.index t a * S1x32x16.size a ≤ (i a).val ∧ (i a).val < win0_1.index t a * S1x32x16.size a + S1x32x16.size a := by
  show i ∈ ((View.whole main_v1_0).slice (win0_1.rect t)).set ↔ _
  rw [View.set_slice_whole, Rect.mem_set_unit]
  exact Iff.rfl

theorem mem_blk2 (t : Fin cfg0.N) (i : S16x1x512x512.Idx) :
    i ∈ ((cfg0.win 2).blk t).view.set ↔ ∀ a : Fin 4, win0_2.index t a * S1x1x512x512.size a ≤ (i a).val ∧ (i a).val < win0_2.index t a * S1x1x512x512.size a + S1x1x512x512.size a := by
  show i ∈ ((View.whole main_v1_1).slice (win0_2.rect t)).set ↔ _
  rw [View.set_slice_whole, Rect.mem_set_unit]
  exact Iff.rfl

/-- Every index of the sums array is in the block of the point named by its group coordinate. -/
theorem cover1 (i : S16x32x16.Idx) : ∃ t : Fin cfg0.N, (cfg0.win 1).flush t = true ∧ i ∈ ((cfg0.win 1).blk t).view.set := by
  have h0 : (i 0).val < 16 := (i 0).isLt
  have h1 : (i 1).val < 32 := (i 1).isLt
  have h2 : (i 2).val < 16 := (i 2).isLt
  refine ⟨⟨(i 0).val, h0⟩, flush0_1 _, ?_⟩
  obtain ⟨-, -, -, e3, e4, e5, -⟩ := idx_facts ⟨(i 0).val, h0⟩
  rw [mem_blk1]
  intro a
  match a with
  | ⟨0, _⟩ => show win0_1.index ⟨(i 0).val, h0⟩ (0 : Fin 3) * 1 ≤ (i 0).val ∧ (i 0).val < win0_1.index ⟨(i 0).val, h0⟩ (0 : Fin 3) * 1 + 1; rw [e3]; show (i 0).val * 1 ≤ (i 0).val ∧ (i 0).val < (i 0).val * 1 + 1; omega
  | ⟨1, _⟩ => show win0_1.index ⟨(i 0).val, h0⟩ (1 : Fin 3) * 32 ≤ (i 1).val ∧ (i 1).val < win0_1.index ⟨(i 0).val, h0⟩ (1 : Fin 3) * 32 + 32; rw [e4]; omega
  | ⟨2, _⟩ => show win0_1.index ⟨(i 0).val, h0⟩ (2 : Fin 3) * 16 ≤ (i 2).val ∧ (i 2).val < win0_1.index ⟨(i 0).val, h0⟩ (2 : Fin 3) * 16 + 16; rw [e5]; omega

theorem cover2 (i : S16x1x512x512.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 512 := (i 2).isLt
  have h3 : (i 3).val < 512 := (i 3).isLt
  refine ⟨⟨(i 0).val, h0⟩, flush0_2 _, ?_⟩
  obtain ⟨-, -, -, -, -, -, e6, e7, e8, e9⟩ := idx_facts ⟨(i 0).val, h0⟩
  rw [mem_blk2]
  intro a
  match a with
  | ⟨0, _⟩ => show win0_2.index ⟨(i 0).val, h0⟩ (0 : Fin 4) * 1 ≤ (i 0).val ∧ (i 0).val < win0_2.index ⟨(i 0).val, h0⟩ (0 : Fin 4) * 1 + 1; rw [e6]; show (i 0).val * 1 ≤ (i 0).val ∧ (i 0).val < (i 0).val * 1 + 1; omega
  | ⟨1, _⟩ => show win0_2.index ⟨(i 0).val, h0⟩ (1 : Fin 4) * 1 ≤ (i 1).val ∧ (i 1).val < win0_2.index ⟨(i 0).val, h0⟩ (1 : Fin 4) * 1 + 1; rw [e7]; omega
  | ⟨2, _⟩ => show win0_2.index ⟨(i 0).val, h0⟩ (2 : Fin 4) * 512 ≤ (i 2).val ∧ (i 2).val < win0_2.index ⟨(i 0).val, h0⟩ (2 : Fin 4) * 512 + 512; rw [e8]; omega
  | ⟨3, _⟩ => show win0_2.index ⟨(i 0).val, h0⟩ (3 : Fin 4) * 512 ≤ (i 3).val ∧ (i 3).val < win0_2.index ⟨(i 0).val, h0⟩ (3 : Fin 4) * 512 + 512; rw [e9]; omega

/-- The sums array after the call. -/
theorem final1 (c : Dev nD) : (dat0 V c).arrAt 1 cfg0.N = sumsArr (V c main_v0) :=
  (dat0 V c).arrAt_eq_of_cover 1 (sumsArr (V c main_v0)) (fun t _ => flushed1_eq V c t) cover1

/-- The Gram array after the call. -/
theorem final2 (c : Dev nD) : (dat0 V c).arrAt 2 cfg0.N = gramArr (V c main_v0) :=
  (dat0 V c).arrAt_eq_of_cover 2 (gramArr (V c main_v0)) (fun t _ => flushed2_eq V c t) cover2

end Arrays

end Cert.KernelIdeal.Stats

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Apply.lean ====
/-
  The whitening call, one block at a time. A block is 16 samples of one group of 16 channels (256 rows of 4096 positions).
  The body takes each row's mixed mean off, multiplies the 256 × 256 block-diagonal whitening matrix into the 256 centred
  rows, then scales by the channel's weight and adds its bias.
-/
import proofs.«136164_j25769804234_2_alg».proof.Proof.Gen.KernelIdeal.Frame
import proofs.«136164_j25769804234_2_alg».proof.Proof.LibTile
import proofs.«136164_j25769804234_2_alg».proof.Proof.LibKeep
import proofs.«136164_j25769804234_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Apply

open Cert.KernelIdeal Cert.KernelIdeal.Gen Idealize.ShloMosaic Idealize.ShloMosaic.ValueIdx Idealize.ShloMosaic.TcCoe

variable {α : Type}

/-- A matrix stored with two leading unit axes, read back as a matrix. -/
theorem cast_11ab_ab {a b : ℕ} (x : (⟨4, ![1, 1, a, b]⟩ : Shape).Idx → α)
    (h : (⟨4, ![1, 1, a, b]⟩ : Shape).ShapeCasts ⟨2, ![a, b]⟩) (r : Fin a) (s : Fin b) :
    shapeCast ⟨2, ![a, b]⟩ x h (ix2 r s) = x (ix4 (0 : Fin 1) (0 : Fin 1) r s) := by
  refine shapeCast_apply x h _ _ ?_
  rw [Shape.rowMajor_val_four, Shape.rowMajor_val_two]
  show ((0 * 1 + 0) * a + r.val) * b + s.val = r.val * b + s.val
  simp

/-- A vector stored with two leading unit axes, read back as a vector. -/
theorem cast_11c_c {c : ℕ} (x : (⟨3, ![1, 1, c]⟩ : Shape).Idx → α)
    (h : (⟨3, ![1, 1, c]⟩ : Shape).ShapeCasts ⟨1, ![c]⟩) (k : Fin c) :
    shapeCast ⟨1, ![c]⟩ x h (ix1 k) = x (ix3 (0 : Fin 1) (0 : Fin 1) k) := by
  refine shapeCast_apply x h _ _ ?_
  rw [Shape.rowMajor_val_three, Shape.rowMajor_val_one]
  show (0 * 1 + 0) * c + k.val = k.val
  simp

/-- A vector laid along the middle axis of [1, c, 1]. -/
theorem cast_c_1c1 {c : ℕ} (x : (⟨1, ![c]⟩ : Shape).Idx → α)
    (h : (⟨1, ![c]⟩ : Shape).ShapeCasts ⟨3, ![1, c, 1]⟩) (u : Fin 1) (k : Fin c) (v : Fin 1) :
    shapeCast ⟨3, ![1, c, 1]⟩ x h (ix3 u k v) = x (ix1 k) := by
  have hu : u.val = 0 := by omega
  have hv : v.val = 0 := by omega
  refine shapeCast_apply x h _ _ ?_
  rw [Shape.rowMajor_val_three, Shape.rowMajor_val_one]
  show k.val = (u.val * c + k.val) * 1 + v.val
  rw [hu, hv]; simp

/-- A per-channel vector [1, c, 1] repeated over samples and positions. -/
theorem bcast_1c1_acb {a c b : ℕ} (v : (⟨3, ![1, c, 1]⟩ : Shape).Idx → α)
    (h : (⟨3, ![1, c, 1]⟩ : Shape).Broadcasts ⟨3, ![a, c, b]⟩) (i : Fin a) (k : Fin c) (j : Fin b) :
    broadcastTo ⟨3, ![a, c, b]⟩ v h (ix3 i k j) = v (ix3 (0 : Fin 1) k (0 : Fin 1)) := by
  refine broadcastTo_apply v h (ix3 i k j) (ix3 (0 : Fin 1) k (0 : Fin 1)) fun ax => ?_
  match ax with
  | ⟨0, _⟩ => show (0 : ℕ) = if (1 : ℕ) = 1 then 0 else i.val; rw [if_pos rfl]
  | ⟨1, _⟩ => show k.val = if c = 1 then 0 else k.val; split; · have := k.isLt; omega
              · rfl
  | ⟨2, _⟩ => show (0 : ℕ) = if (1 : ℕ) = 1 then 0 else j.val; rw [if_pos rfl]

/-- The body's stored value at (sample s of the block, channel ch, position m): the whitening row `16 s + ch` against the
    256 centred rows at position m, times the channel's weight, plus its bias. -/
theorem pay_at (x0 : FVec Ideal S16x16x4096 .f32) (mu : FVec Ideal S1x16x16 .f32) (W : FVec Ideal S1x1x256x256 .f32)
    (wv bv : FVec Ideal S1x1x16 .f32) (s ch : Fin 16) (m : Fin 4096) (r : Fin 256) (hr : r.val = s.val * 16 + ch.val) :
    k1_pay1 (F := Ideal) x0 mu W wv bv (ix3 s ch m)
      = (∑ k : Fin 256, W (ix4 (0 : Fin 1) (0 : Fin 1) r k)
            * (x0 (ix3 (⟨k.val / 16, by have := k.isLt; omega⟩ : Fin 16) (⟨k.val % 16, by omega⟩ : Fin 16) m)
               - mu (ix3 (0 : Fin 1) (⟨k.val / 16, by have := k.isLt; omega⟩ : Fin 16) (⟨k.val % 16, by omega⟩ : Fin 16))))
          * wv (ix3 (0 : Fin 1) (0 : Fin 1) ch) + bv (ix3 (0 : Fin 1) (0 : Fin 1) ch) := by
  unfold k1_pay1
  rw [addf_apply, mulf_apply, bcast_1c1_acb, bcast_1c1_acb, cast_c_1c1, cast_c_1c1, cast_11c_c, cast_11c_c,
    Cert.LibTile.unflatten_apply (a := 16) (b := 16) (c := 4096) (n := 256) _ shapeCasts_S256x4096_S16x16x4096 s ch m r hr]
  congr 1
  congr 1
  refine (Cert.LibMatmul.matmul_zero_ix2 (a := 256) (K := 256) (b := 4096) dot_S256x256_S256x4096_S256x4096_1_0_0_1_n_n none rfl rfl
    (fun _ _ => rfl) (fun _ _ => rfl) (fun _ _ => rfl) (fun _ _ => rfl) _ _ (ix2 r m)).trans ?_
  refine Finset.sum_congr rfl fun k _ => ?_
  have hk : k.val = (⟨k.val / 16, by have := k.isLt; omega⟩ : Fin 16).val * 16 + (⟨k.val % 16, by omega⟩ : Fin 16).val := by
    show k.val = k.val / 16 * 16 + k.val % 16; omega
  rw [show (ix2 r m : (⟨2, ![256, 4096]⟩ : Shape).Idx) 0 = r from rfl, show (ix2 r m : (⟨2, ![256, 4096]⟩ : Shape).Idx) 1 = m from rfl,
    cast_11ab_ab,
    Cert.LibTile.flatten_apply (a := 16) (b := 16) (c := 4096) (n := 256) _ shapeCasts_S16x16x4096_S256x4096 _ _ m k hk,
    subf_apply, shapeCast_self, broadcastTo_ab1_abc_apply, shapeCast_ab_ab1_apply, shapeCast_1ab_ab_apply]

end Cert.KernelIdeal.Apply

end
-- ==== Proof.ApplyArrays.lean ====
/-
  The whitening call's output array after the call, as a function of the arrays it reads. Grid point `t` (of 32) takes the
  half `h = t / 16` of the batch (samples `16 h … 16 h + 15`) and the group `g = t % 16`; it writes the block of the output at
  samples `16 h + s`, channels `16 g + c`. The 32 blocks fill the array.
-/
import proofs.«136164_j25769804234_2_alg».proof.Proof.Apply

set_option maxRecDepth 16384

noncomputable section

namespace Cert.KernelIdeal.Apply

open Cert.KernelIdeal Cert.KernelIdeal.Gen Idealize.ShloMosaic Idealize.ShloMosaic.ValueIdx Idealize.ShloMosaic.TcCoe
open Idealize.SL.Sem
open Idealize.ShloMosaic.Pipeline (Dat)

/-- The output at group g, half h, sample s of the half, channel c, position m. -/
def outK (x2 : S32x256x4096.Idx → EReal) (mean : S16x32x16.Idx → EReal) (bdm : S16x2x256x256.Idx → EReal)
    (wv bv : S16x1x16.Idx → EReal) (g : Fin 16) (h : Fin 2) (s c : Fin 16) (m : Fin 4096) : EReal :=
  (∑ k : Fin 256, bdm (ix4 g h (⟨s.val * 16 + c.val, by have := s.isLt; have := c.isLt; omega⟩ : Fin 256) k)
      * (x2 (ix3 (⟨h.val * 16 + k.val / 16, by have := h.isLt; have := k.isLt; omega⟩ : Fin 32)
              (⟨g.val * 16 + k.val % 16, by have := g.isLt; omega⟩ : Fin 256) m)
         - mean (ix3 g (⟨h.val * 16 + k.val / 16, by have := h.isLt; have := k.isLt; omega⟩ : Fin 32) (⟨k.val % 16, by omega⟩ : Fin 16))))
    * wv (ix3 g (0 : Fin 1) c) + bv (ix3 g (0 : Fin 1) c)

/-- The output array: entry (n, ch, m) with n = 16 h + s and ch = 16 g + c. -/
def outArrK (x2 : S32x256x4096.Idx → EReal) (mean : S16x32x16.Idx → EReal) (bdm : S16x2x256x256.Idx → EReal)
    (wv bv : S16x1x16.Idx → EReal) : S32x256x4096.Idx → EReal :=
  fun i => outK x2 mean bdm wv bv
    ⟨(i 1).val / 16, by have : (i 1).val < 256 := (i 1).isLt; omega⟩
    ⟨(i 0).val / 16, by have : (i 0).val < 32 := (i 0).isLt; omega⟩
    ⟨(i 0).val % 16, by omega⟩ ⟨(i 1).val % 16, by omega⟩ (i 2)

section Arrays

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The six index maps over the grid, with h = t / 16 and g = t % 16. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val % 16 ∧ win1_1.index t (1 : Fin 3) = t.val / 16 ∧ win1_1.index t (2 : Fin 3) = 0
    ∧ win1_2.index t (0 : Fin 4) = t.val % 16 ∧ win1_2.index t (1 : Fin 4) = t.val / 16 ∧ win1_2.index t (2 : Fin 4) = 0
    ∧ win1_2.index t (3 : Fin 4) = 0
    ∧ win1_3.index t (0 : Fin 3) = t.val % 16 ∧ win1_3.index t (1 : Fin 3) = 0 ∧ win1_3.index t (2 : Fin 3) = 0
    ∧ win1_4.index t (0 : Fin 3) = t.val % 16 ∧ win1_4.index t (1 : Fin 3) = 0 ∧ win1_4.index t (2 : Fin 3) = 0
    ∧ win1_5.index t (0 : Fin 3) = t.val / 16 ∧ win1_5.index t (1 : Fin 3) = t.val % 16 ∧ win1_5.index t (2 : Fin 3) = 0 :=
  (by decide +kernel : ∀ t : Fin grid1.N, _)

/-- The half of the batch and the group a grid point takes. -/
def hOf (t : Fin cfg1.N) : Fin 2 := ⟨t.val / 16, by have : t.val < 32 := t.isLt; omega⟩
def gOf (t : Fin cfg1.N) : Fin 16 := ⟨t.val % 16, by omega⟩

theorem blk0_at (c : Dev nD) (t : Fin cfg1.N) (s ch : Fin 16) (m : Fin 4096) (n : Fin 32) (cg : Fin 256)
    (hn : n.val = (hOf t).val * 16 + s.val) (hc : cg.val = (gOf t).val * 16 + ch.val) :
    iblk1 V c 0 t (ix3 s ch m) = V c main_v0 (ix3 n cg m) := by
  obtain ⟨e0, e1, e2, -⟩ := idx_facts t
  show V c main_v0 (((cfg1.win 0).blk t).view.emb (ix3 s ch m)) = V c main_v0 (ix3 n cg m)
  refine congrArg _ (funext fun a => Fin.ext ?_)
  match a with
  | ⟨0, _⟩ => show win1_0.index t (0 : Fin 3) * 16 + 1 * s.val = n.val; rw [hn, e0]; show t.val / 16 * 16 + 1 * s.val = t.val / 16 * 16 + s.val; omega
  | ⟨1, _⟩ => show win1_0.index t (1 : Fin 3) * 16 + 1 * ch.val = cg.val; rw [hc, e1]; show t.val % 16 * 16 + 1 * ch.val = t.val % 16 * 16 + ch.val; omega
  | ⟨2, _⟩ => show win1_0.index t (2 : Fin 3) * 4096 + 1 * m.val = m.val; omega

theorem blk1_at (c : Dev nD) (t : Fin cfg1.N) (u : Fin 1) (s ch : Fin 16) (n : Fin 32)
    (hn : n.val = (hOf t).val * 16 + s.val) :
    iblk1 V c 1 t (ix3 u s ch) = V c main_v60 (ix3 (gOf t) n ch) := by
  obtain ⟨-, -, -, e3, e4, e5, -⟩ := idx_facts t
  show V c main_v60 (((cfg1.win 1).blk t).view.emb (ix3 u s ch)) = V c main_v60 (ix3 (gOf t) n ch)
  refine congrArg _ (funext fun a => Fin.ext ?_)
  match a with
  | ⟨0, _⟩ => show win1_1.index t (0 : Fin 3) * 1 + 1 * u.val = t.val % 16; omega
  | ⟨1, _⟩ => show win1_1.index t (1 : Fin 3) * 16 + 1 * s.val = n.val; rw [hn, e4]; show t.val / 16 * 16 + 1 * s.val = t.val / 16 * 16 + s.val; omega
  | ⟨2, _⟩ => show win1_1.index t (2 : Fin 3) * 16 + 1 * ch.val = ch.val; omega

theorem blk2_at (c : Dev nD) (t : Fin cfg1.N) (u v : Fin 1) (r k : Fin 256) :
    iblk1 V c 2 t (ix4 u v r k) = V c main_v138 (ix4 (gOf t) (hOf t) r k) := by
  obtain ⟨-, -, -, -, -, -, e6, e7, e8, e9, -⟩ := idx_facts t
  show V c main_v138 (((cfg1.win 2).blk t).view.emb (ix4 u v r k)) = V c main_v138 (ix4 (gOf t) (hOf t) r k)
  refine congrArg _ (funext fun a => Fin.ext ?_)
  match a with
  | ⟨0, _⟩ => show win1_2.index t (0 : Fin 4) * 1 + 1 * u.val = t.val % 16; omega
  | ⟨1, _⟩ => show win1_2.index t (1 : Fin 4) * 1 + 1 * v.val = t.val / 16; omega
  | ⟨2, _⟩ => show win1_2.index t (2 : Fin 4) * 256 + 1 * r.val = r.val; omega
  | ⟨3, _⟩ => show win1_2.index t (3 : Fin 4) * 256 + 1 * k.val = k.val; omega

theorem blk3_at (c : Dev nD) (t : Fin cfg1.N) (u v : Fin 1) (ch : Fin 16) :
    iblk1 V c 3 t (ix3 u v ch) = V c main_v139 (ix3 (gOf t) (0 : Fin 1) ch) := by
  obtain ⟨-, -, -, -, -, -, -, -, -, -, e10, e11, e12, -⟩ := idx_facts t
  show V c main_v139 (((cfg1.win 3).blk t).view.emb (ix3 u v ch)) = V c main_v139 (ix3 (gOf t) (0 : Fin 1) ch)
  refine congrArg _ (funext fun a => Fin.ext ?_)
  match a with
  | ⟨0, _⟩ => show win1_3.index t (0 : Fin 3) * 1 + 1 * u.val = t.val % 16; omega
  | ⟨1, _⟩ => show win1_3.index t (1 : Fin 3) * 1 + 1 * v.val = 0; omega
  | ⟨2, _⟩ => show win1_3.index t (2 : Fin 3) * 16 + 1 * ch.val = ch.val; omega

theorem blk4_at (c : Dev nD) (t : Fin cfg1.N) (u v : Fin 1) (ch : Fin 16) :
    iblk1 V c 4 t (ix3 u v ch) = V c main_v140 (ix3 (gOf t) (0 : Fin 1) ch) := by
  obtain ⟨-, -, -, -, -, -, -, -, -, -, -, -, -, e13, e14, e15, -⟩ := idx_facts t
  show V c main_v140 (((cfg1.win 4).blk t).view.emb (ix3 u v ch)) = V c main_v140 (ix3 (gOf t) (0 : Fin 1) ch)
  refine congrArg _ (funext fun a => Fin.ext ?_)
  match a with
  | ⟨0, _⟩ => show win1_4.index t (0 : Fin 3) * 1 + 1 * u.val = t.val % 16; omega
  | ⟨1, _⟩ => show win1_4.index t (1 : Fin 3) * 1 + 1 * v.val = 0; omega
  | ⟨2, _⟩ => show win1_4.index t (2 : Fin 3) * 16 + 1 * ch.val = ch.val; omega

end Arrays

/-- The output array at sample `16 h + s`, channel `16 g + c`. -/
theorem outArrK_at (x2 : S32x256x4096.Idx → EReal) (mean : S16x32x16.Idx → EReal) (bdm : S16x2x256x256.Idx → EReal)
    (wv bv : S16x1x16.Idx → EReal) (g : Fin 16) (h : Fin 2) (s c : Fin 16) (m : Fin 4096) (n : Fin 32) (cg : Fin 256)
    (hn : n.val = h.val * 16 + s.val) (hc : cg.val = g.val * 16 + c.val) :
    outArrK x2 mean bdm wv bv (ix3 n cg m) = outK x2 mean bdm wv bv g h s c m := by
  have e1 : (⟨cg.val / 16, by have := cg.isLt; omega⟩ : Fin 16) = g := Fin.ext (by show cg.val / 16 = g.val; have := c.isLt; omega)
  have e2 : (⟨n.val / 16, by have := n.isLt; omega⟩ : Fin 2) = h := Fin.ext (by show n.val / 16 = h.val; have := s.isLt; omega)
  have e3 : (⟨n.val % 16, by omega⟩ : Fin 16) = s := Fin.ext (by show n.val % 16 = s.val; have := s.isLt; omega)
  have e4 : (⟨cg.val % 16, by omega⟩ : Fin 16) = c := Fin.ext (by show cg.val % 16 = c.val; have := c.isLt; omega)
  show outK x2 mean bdm wv bv ⟨cg.val / 16, _⟩ ⟨n.val / 16, _⟩ ⟨n.val % 16, _⟩ ⟨cg.val % 16, _⟩ m = _
  rw [e1, e2, e3, e4]

section Arrays2

variable (V : (c : Dev nD) → (b : Ref sig .tc) → Buf (Elt Ideal) ((c : Thread nD τ).loc b))

theorem emb5_at (t : Fin cfg1.N) (s ch : Fin 16) (m : Fin 4096) (n : Fin 32) (cg : Fin 256)
    (hn : n.val = (hOf t).val * 16 + s.val) (hc : cg.val = (gOf t).val * 16 + ch.val) :
    ((cfg1.win 5).blk t).view.emb (ix3 s ch m) = ix3 n cg m := by
  obtain ⟨-, -, -, -, -, -, -, -, -, -, -, -, -, -, -, -, e16, e17, e18⟩ := idx_facts t
  refine funext fun a => Fin.ext ?_
  match a with
  | ⟨0, _⟩ => show win1_5.index t (0 : Fin 3) * 16 + 1 * s.val = n.val; rw [hn, e16]; show t.val / 16 * 16 + 1 * s.val = t.val / 16 * 16 + s.val; omega
  | ⟨1, _⟩ => show win1_5.index t (1 : Fin 3) * 16 + 1 * ch.val = cg.val; rw [hc, e17]; show t.val % 16 * 16 + 1 * ch.val = t.val % 16 * 16 + ch.val; omega
  | ⟨2, _⟩ => show win1_5.index t (2 : Fin 3) * 4096 + 1 * m.val = m.val; omega

/-- What point `t` writes back is block `t` of `outArrK` of the arrays the call reads. -/
theorem flushed5_eq (c : Dev nD) (t : Fin cfg1.N) :
    (dat1 V c).flushed 5 t = ((cfg1.win 5).blk t).view.read (Elt Ideal)
      (outArrK (V c main_v0) (V c main_v60) (V c main_v138) (V c main_v139) (V c main_v140)) := by
  show (cfg1.win 5).cut (grid1.coords t) ((dat1 V c).after 5 t) = _
  rw [after1_5]
  unfold out1_5
  rw [View.canon_unit_zero hz3]
  simp only [View.ld_unit_zero (S := S16x16x4096) hz3, View.ld_unit_zero (S := S1x16x16) hz3,
    View.ld_unit_zero (S := S1x1x256x256) hz4, View.ld_unit_zero (S := S1x1x16) hz3]
  funext j
  obtain ⟨s, ch, m, rfl⟩ : ∃ (s ch : Fin 16) (m : Fin 4096), j = ix3 s ch m := ⟨j 0, j 1, j 2, eq_ix3 j⟩
  show k1_pay1 (F := Ideal) (iblk1 V c 0 t) (iblk1 V c 1 t) (iblk1 V c 2 t) (iblk1 V c 3 t) (iblk1 V c 4 t) (ix3 s ch m)
    = outArrK (V c main_v0) (V c main_v60) (V c main_v138) (V c main_v139) (V c main_v140) (((cfg1.win 5).blk t).view.emb (ix3 s ch m))
  have hh : (hOf t).val < 2 := (hOf t).isLt
  have hg : (gOf t).val < 16 := (gOf t).isLt
  rw [pay_at _ _ _ _ _ s ch m ⟨s.val * 16 + ch.val, by have := s.isLt; have := ch.isLt; omega⟩ rfl,
    emb5_at t s ch m ⟨(hOf t).val * 16 + s.val, by have := s.isLt; omega⟩ ⟨(gOf t).val * 16 + ch.val, by have := ch.isLt; omega⟩ rfl rfl,
    outArrK_at _ _ _ _ _ (gOf t) (hOf t) s ch m _ _ rfl rfl, blk3_at, blk4_at]
  unfold outK
  congr 1
  congr 1
  refine Finset.sum_congr rfl fun k _ => ?_
  rw [blk2_at, blk0_at V c t _ _ m ⟨(hOf t).val * 16 + k.val / 16, by have := k.isLt; omega⟩
      ⟨(gOf t).val * 16 + k.val % 16, by omega⟩ rfl rfl,
    blk1_at V c t 0 _ _ ⟨(hOf t).val * 16 + k.val / 16, by have := k.isLt; omega⟩ rfl]

theorem mem_blk5 (t : Fin cfg1.N) (i : S32x256x4096.Idx) :
    i ∈ ((cfg1.win 5).blk t).view.set ↔ ∀ a : Fin 3, win1_5.index t a * S16x16x4096.size a ≤ (i a).val ∧ (i a).val < win1_5.index t a * S16x16x4096.size a + S16x16x4096.size a := by
  show i ∈ ((View.whole main_v141).slice (win1_5.rect t)).set ↔ _
  rw [View.set_slice_whole, Rect.mem_set_unit]
  exact Iff.rfl

/-- Every index of the output is in the block of the point that takes its half of the batch and its group. -/
theorem cover5 (i : S32x256x4096.Idx) : ∃ t : Fin cfg1.N, (cfg1.win 5).flush t = true ∧ i ∈ ((cfg1.win 5).blk t).view.set := by
  have h0 : (i 0).val < 32 := (i 0).isLt
  have h1 : (i 1).val < 256 := (i 1).isLt
  have h2 : (i 2).val < 4096 := (i 2).isLt
  have ht : (i 0).val / 16 * 16 + (i 1).val / 16 < 32 := by omega
  refine ⟨⟨(i 0).val / 16 * 16 + (i 1).val / 16, ht⟩, flush1_5 _, ?_⟩
  obtain ⟨-, -, -, -, -, -, -, -, -, -, -, -, -, -, -, -, e16, e17, e18⟩ := idx_facts ⟨(i 0).val / 16 * 16 + (i 1).val / 16, ht⟩
  rw [mem_blk5]
  intro a
  match a with
  | ⟨0, _⟩ =>
    show win1_5.index ⟨_, ht⟩ (0 : Fin 3) * 16 ≤ (i 0).val ∧ (i 0).val < win1_5.index ⟨_, ht⟩ (0 : Fin 3) * 16 + 16
    rw [e16]; show ((i 0).val / 16 * 16 + (i 1).val / 16) / 16 * 16 ≤ (i 0).val ∧ (i 0).val < ((i 0).val / 16 * 16 + (i 1).val / 16) / 16 * 16 + 16
    omega
  | ⟨1, _⟩ =>
    show win1_5.index ⟨_, ht⟩ (1 : Fin 3) * 16 ≤ (i 1).val ∧ (i 1).val < win1_5.index ⟨_, ht⟩ (1 : Fin 3) * 16 + 16
    rw [e17]; show ((i 0).val / 16 * 16 + (i 1).val / 16) % 16 * 16 ≤ (i 1).val ∧ (i 1).val < ((i 0).val / 16 * 16 + (i 1).val / 16) % 16 * 16 + 16
    omega
  | ⟨2, _⟩ =>
    show win1_5.index ⟨_, ht⟩ (2 : Fin 3) * 4096 ≤ (i 2).val ∧ (i 2).val < win1_5.index ⟨_, ht⟩ (2 : Fin 3) * 4096 + 4096
    rw [e18]; omega

/-- The output array after the call. -/
theorem final5 (c : Dev nD) : (dat1 V c).arrAt 5 cfg1.N
    = outArrK (V c main_v0) (V c main_v60) (V c main_v138) (V c main_v139) (V c main_v140) :=
  (dat1 V c).arrAt_eq_of_cover 5 _ (fun t _ => flushed5_eq V c t) cover5

end Arrays2

end Cert.KernelIdeal.Apply

end
-- ==== Proof.HostMix.lean ====
/-
  The statistics combined on the host, between the two calls: from the sums array `S` (entry (g, n, c)) and the per-sample
  diagonal blocks `D` of the Gram array (entry (g, n, c, d)), the instance mean `S / 4096`, the batch mean
  `(∑ n, S) / 131072`, the instance covariance `D / 4096`, the batch covariance by the law of total covariance
  `(∑ n, D + 4096 · ∑ n, δ δᵀ) / 131072` with δ the instance mean minus the batch mean, and the two mixtures by the softmax
  weights, the covariance with `ε` on its diagonal.
-/
import proofs.«136164_j25769804234_2_alg».proof.Proof.Gen.KernelIdeal.Launch
import Idealize.ShloMosaic.Lib.StableHlo.Run
import Idealize.ShloMosaic.PureOps.Ideal

set_option maxRecDepth 16384

noncomputable section

namespace Cert.KernelIdeal.Mix

open Cert.KernelIdeal Cert.KernelIdeal.Gen Idealize.ShloMosaic Idealize.ShloMosaic.TcCoe Idealize.ShloMosaic.StableHlo

/-- A float word as a rank-0 array. -/
abbrev cst (b : BitVec 32) : FVec Ideal S_ .f32 := constant (F := Ideal) S_ .f32 b

/-- The softmax of a vector of two: the exponentials of the entries less their maximum, over their sum. -/
def sm (a : FVec Ideal S2 .f32) : FVec Ideal S2 .f32 :=
  Host.divf
    (Host.exp (subf a (broadcastInDim S2 ![0] bcast_S1_S2_0 (broadcastInDim S1 ![] bcast_S_S1
      (maximumf (cst 0xFF800000#32) (Host.reduce FloatOps.maximumf a (cst 0xFF800000#32) reducesTo_S2_S_d0 h_S_))))))
    (broadcastInDim S2 ![0] bcast_S1_S2_0 (broadcastInDim S1 ![] bcast_S_S1
      (Host.reduceAdd (Host.exp (subf a (broadcastInDim S2 ![0] bcast_S1_S2_0 (broadcastInDim S1 ![] bcast_S_S1
        (maximumf (cst 0xFF800000#32) (Host.reduce FloatOps.maximumf a (cst 0xFF800000#32) reducesTo_S2_S_d0 h_S_))))))
        (cst 0x00000000#32) reducesTo_S2_S_d0 h_S_)))

/-- Entry 0, and entry 1, of a vector of two as a rank-0 array. -/
def sel0 (v : FVec Ideal S2 .f32) : FVec Ideal S_ .f32 :=
  shapeCast S_ (extractStridedSlice S1 ![0] v slices_S2_S1_0) shapeCasts_S1_S_
def sel1 (v : FVec Ideal S2 .f32) : FVec Ideal S_ .f32 :=
  shapeCast S_ (extractStridedSlice S1 ![1] v slices_S2_S1_1) shapeCasts_S1_S_

/-- The instance mean: the sums over 4096. -/
def meanInArr (S : FVec Ideal S16x32x16 .f32) : FVec Ideal S16x32x16 .f32 :=
  Host.divf S (broadcastInDim S16x32x16 ![] bcast_S_S16x32x16 (cst 0x45800000#32))

/-- The batch mean, kept with a unit sample axis: the sums added over the samples, over 131072. -/
def meanBnArr (S : FVec Ideal S16x32x16 .f32) : FVec Ideal S16x1x16 .f32 :=
  Host.divf (broadcastInDim S16x1x16 ![0, 2] bcast_S16x16_S16x1x16_0_2
      (Host.reduceAdd S (cst 0x00000000#32) reducesTo_S16x32x16_S16x16_d1 h_S_))
    (broadcastInDim S16x1x16 ![] bcast_S_S16x1x16 (cst 0x48000000#32))

/-- The mixed mean. -/
def meanArr (S v3 : FVec Ideal S16x32x16 .f32) (a1 : FVec Ideal S2 .f32) : FVec Ideal S16x32x16 .f32 :=
  addf (mulf (broadcastInDim S16x32x16 ![] bcast_S_S16x32x16 (sel0 (sm a1)))
          (broadcastInDim S16x32x16 ![0, 1, 2] bcast_S16x1x16_S16x32x16_0_1_2 (meanBnArr S)))
       (mulf (broadcastInDim S16x32x16 ![] bcast_S_S16x32x16 (sel1 (sm a1))) v3)

/-- The identity matrix as the host builds it: row number equal to column number, as a float. -/
def eyeArr : FVec Ideal S16x16 .f32 :=
  uitofp .f32 (cmpi .eq (addi (iotaInDim S16x16 32 0) (broadcastInDim S16x16 ![] bcast_S_S16x16 (constantI S_ 32 0#32)))
    (iotaInDim S16x16 32 1))

/-- The per-sample diagonal blocks with the sample axis second. -/
def diagArr (v6 : FVec Ideal S16x16x16x32 .f32) : FVec Ideal S16x32x16x16 .f32 :=
  transpose S16x32x16x16 [0, 3, 1, 2] v6 transposes_S16x16x16x32_S16x32x16x16_0_3_1_2

/-- The batch covariance by the law of total covariance. -/
def covBnArr (D : FVec Ideal S16x32x16x16 .f32) (S v3 : FVec Ideal S16x32x16 .f32) : FVec Ideal S16x16x16 .f32 :=
  Host.divf
    (addf (Host.reduceAdd D (cst 0x00000000#32) reducesTo_S16x32x16x16_S16x16x16_d1 h_S_)
      (mulf (broadcastInDim S16x16x16 ![] bcast_S_S16x16x16 (cst 0x45800000#32))
        (Host.dotGeneral dot_S16x32x16_S16x32x16_S16x16x16_1_1_2_2_0_0 none
          (subf v3 (broadcastInDim S16x32x16 ![0, 1, 2] bcast_S16x1x16_S16x32x16_0_1_2 (meanBnArr S)))
          (subf v3 (broadcastInDim S16x32x16 ![0, 1, 2] bcast_S16x1x16_S16x32x16_0_1_2 (meanBnArr S))))))
    (broadcastInDim S16x16x16 ![] bcast_S_S16x16x16 (cst 0x48000000#32))

/-- The mixed covariance with ε on its diagonal. -/
def covArr (v6 : FVec Ideal S16x16x16x32 .f32) (S v3 : FVec Ideal S16x32x16 .f32) (a2 : FVec Ideal S2 .f32) :
    FVec Ideal S16x32x16x16 .f32 :=
  addf
    (addf
      (mulf (broadcastInDim S16x32x16x16 ![] bcast_S_S16x32x16x16 (sel0 (sm a2)))
        (broadcastInDim S16x32x16x16 ![0, 1, 2, 3] bcast_S16x1x16x16_S16x32x16x16_0_1_2_3
          (broadcastInDim S16x1x16x16 ![0, 2, 3] bcast_S16x16x16_S16x1x16x16_0_2_3 (covBnArr (diagArr v6) S v3))))
      (mulf (broadcastInDim S16x32x16x16 ![] bcast_S_S16x32x16x16 (sel1 (sm a2)))
        (Host.divf (diagArr v6) (broadcastInDim S16x32x16x16 ![] bcast_S_S16x32x16x16 (cst 0x45800000#32)))))
    (broadcastInDim S16x32x16x16 ![0, 1, 2, 3] bcast_S1x1x16x16_S16x32x16x16_0_1_2_3
      (mulf (broadcastInDim S1x1x16x16 ![] bcast_S_S1x1x16x16 (cst 0x3727C5AC#32))
        (broadcastInDim S1x1x16x16 ![2, 3] bcast_S16x16_S1x1x16x16_2_3 eyeArr)))

set_option maxHeartbeats 4000000 in
/-- After the stretch, the mixed-mean buffer holds `meanArr` of the sums, the instance means and the first weight pair. -/
theorem mean_after (V : Valuation τ sig (Elt Ideal)) :
    after (hostOps1_2 (F := Ideal)) V (Proc.devRef .tc main_v60)
      = meanArr (V (Proc.devRef .tc main_v1_0)) (V (Proc.devRef .tc main_v3)) (V (Proc.devRef .tc main_arg1)) := by
  after_results_simp
  rfl

set_option maxHeartbeats 4000000 in
/-- After the stretch, the mixed-covariance buffer holds `covArr`. -/
theorem cov_after (V : Valuation τ sig (Elt Ideal)) :
    after (hostOps1_2 (F := Ideal)) V (Proc.devRef .tc main_v74)
      = covArr (V (Proc.devRef .tc main_v6)) (V (Proc.devRef .tc main_v1_0)) (V (Proc.devRef .tc main_v3))
          (V (Proc.devRef .tc main_arg2)) := by
  after_results_simp
  rfl

end Cert.KernelIdeal.Mix

end
-- ==== Proof.HostWhiten.lean ====
/-
  From the mixed covariance to the block-diagonal whitening matrices, on the host: the trace of each 16 × 16 matrix (the
  sum of its entries with the off-diagonal ones replaced by zero), its reciprocal, the trace-normalized matrix, five
  Newton-Schulz steps `P ↦ 1.5 P − 0.5 ((P P) P) C` from the identity, the result times the square root of the reciprocal
  trace; then the 32 matrices of a group laid, sixteen at a time, on the diagonal of two 256 × 256 matrices.
-/
import proofs.«136164_j25769804234_2_alg».proof.Proof.HostMix

set_option maxRecDepth 16384

noncomputable section

namespace Cert.KernelIdeal.Whiten

open Cert.KernelIdeal Cert.KernelIdeal.Gen Idealize.ShloMosaic Idealize.ShloMosaic.TcCoe Idealize.ShloMosaic.StableHlo
open Cert.KernelIdeal.Mix (cst eyeArr)

/-- The traces, one per (group, sample). -/
def traceArr (cov : FVec Ideal S16x32x16x16 .f32) : FVec Ideal S16x32 .f32 :=
  Host.reduceAdd
    (select (broadcastInDim S16x32x16x16 ![2, 3] bcast_S16x16_S16x32x16x16_2_3
        (cmpi .eq (addi (iotaInDim S16x16 32 0) (broadcastInDim S16x16 ![] bcast_S_S16x16 (constantI S_ 32 0#32)))
          (iotaInDim S16x16 32 1)))
      cov (broadcastInDim S16x32x16x16 ![] bcast_S_S16x32x16x16 (cst 0x00000000#32)))
    (cst 0x00000000#32) reducesTo_S16x32x16x16_S16x32_d2_3 h_S_

theorem trace_after (V : Valuation τ sig (Elt Ideal)) :
    after (hostOps1_3 (F := Ideal)) V (Proc.devRef .tc main_v75) = traceArr (V (Proc.devRef .tc main_v74)) := by
  after_results
  rfl

/-- The reciprocal traces. -/
def rTrArr (tr : FVec Ideal S16x32 .f32) : FVec Ideal S16x32 .f32 :=
  Host.divf (broadcastInDim S16x32 ![] bcast_S_S16x32 (cst 0x3F800000#32)) tr

/-- A number per (group, sample) repeated over the 16 × 16 entries. -/
def spread (v : FVec Ideal S16x32 .f32) : FVec Ideal S16x32x16x16 .f32 :=
  broadcastInDim S16x32x16x16 ![0, 1, 2, 3] bcast_S16x32x1x1_S16x32x16x16_0_1_2_3
    (broadcastInDim S16x32x1x1 ![0, 1] bcast_S16x32_S16x32x1x1_0_1 v)

/-- The trace-normalized covariances. -/
def covNArr (cov : FVec Ideal S16x32x16x16 .f32) (tr : FVec Ideal S16x32 .f32) : FVec Ideal S16x32x16x16 .f32 :=
  mulf cov (spread (rTrArr tr))

/-- The identity repeated over (group, sample). -/
def P0Arr (eye : FVec Ideal S16x16 .f32) : FVec Ideal S16x32x16x16 .f32 :=
  broadcastInDim S16x32x16x16 ![2, 3] bcast_S16x16_S16x32x16x16_2_3 eye

/-- The matrix product carried along (group, sample). -/
abbrev dot4 (l r : FVec Ideal S16x32x16x16 .f32) : FVec Ideal S16x32x16x16 .f32 :=
  Host.dotGeneral dot_S16x32x16x16_S16x32x16x16_S16x32x16x16_3_2_2_3_01_01 none l r

/-- One Newton-Schulz step. -/
def stepArr (C P : FVec Ideal S16x32x16x16 .f32) : FVec Ideal S16x32x16x16 .f32 :=
  subf (mulf (broadcastInDim S16x32x16x16 ![] bcast_S_S16x32x16x16 (cst 0x3FC00000#32)) P)
    (mulf (broadcastInDim S16x32x16x16 ![] bcast_S_S16x32x16x16 (cst 0x3F000000#32)) (dot4 (dot4 (dot4 P P) P) C))

/-- The whitening matrices. -/
def wmArr (cov : FVec Ideal S16x32x16x16 .f32) (tr : FVec Ideal S16x32 .f32) (eye : FVec Ideal S16x16 .f32) :
    FVec Ideal S16x32x16x16 .f32 :=
  mulf (stepArr (covNArr cov tr) (stepArr (covNArr cov tr) (stepArr (covNArr cov tr) (stepArr (covNArr cov tr)
      (stepArr (covNArr cov tr) (P0Arr eye))))))
    (spread (Host.sqrt (rTrArr tr)))

/-- Sixteen samples' matrices on the diagonal of a 256 × 256 matrix, per (group, half of the batch). -/
def bdArr (wm : FVec Ideal S16x32x16x16 .f32) : FVec Ideal S16x2x256x256 .f32 :=
  shapeCast S16x2x256x256
    (mulf
      (broadcastInDim S16x2x16x16x16x16 ![0, 1, 2, 3, 4, 5] bcast_S16x2x16x16x1x16_S16x2x16x16x16x16_0_1_2_3_4_5
        (broadcastInDim S16x2x16x16x1x16 ![0, 1, 2, 3, 5] bcast_S16x2x16x16x16_S16x2x16x16x1x16_0_1_2_3_5
          (shapeCast S16x2x16x16x16 wm shapeCasts_S16x32x16x16_S16x2x16x16x16)))
      (broadcastInDim S16x2x16x16x16x16 ![0, 1, 2, 3, 4, 5] bcast_S1x1x16x1x16x1_S16x2x16x16x16x16_0_1_2_3_4_5
        (broadcastInDim S1x1x16x1x16x1 ![2, 4] bcast_S16x16_S1x1x16x1x16x1_2_4 eyeArr)))
    shapeCasts_S16x2x16x16x16x16_S16x2x256x256

set_option maxHeartbeats 8000000 in
theorem bd_after (V : Valuation τ sig (Elt Ideal)) :
    after (hostOps1_4 (F := Ideal)) V (Proc.devRef .tc main_v138)
      = bdArr (wmArr (V (Proc.devRef .tc main_v74)) (V (Proc.devRef .tc main_v75)) (V (Proc.devRef .tc main_v51))) := by
  after_results_simp
  rfl

set_option maxHeartbeats 4000000 in
theorem w_after (V : Valuation τ sig (Elt Ideal)) :
    after (hostOps1_4 (F := Ideal)) V (Proc.devRef .tc main_v139)
      = shapeCast S16x1x16 (V (Proc.devRef .tc main_arg3)) shapeCasts_S256_S16x1x16 := by
  after_results_simp
  rfl

set_option maxHeartbeats 4000000 in
theorem b_after (V : Valuation τ sig (Elt Ideal)) :
    after (hostOps1_4 (F := Ideal)) V (Proc.devRef .tc main_v140)
      = shapeCast S16x1x16 (V (Proc.devRef .tc main_arg4)) shapeCasts_S256_S16x1x16 := by
  after_results_simp
  rfl

end Cert.KernelIdeal.Whiten

end
-- ==== Proof.Diag.lean ====
/-
  The per-sample diagonal blocks of the Gram array. The [512, 512] Gram matrix of a group is read as 32 × 32 blocks of
  16 × 16 (row `16 n + c`, column `16 n' + d`); the host moves the two block axes last and gathers, for each sample n, the
  entries at block position (n, n): its start indices are the pairs (n, n), built from an iota that is never negative.
  So entry (g, c, d, n) of the gathered array is entry (g, 0, 16 n + c, 16 n + d) of the Gram array.
-/
import proofs.«136164_j25769804234_2_alg».proof.Proof.Gen.KernelIdeal.Launch
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueIdxRank6
import Idealize.ShloMosaic.PureOps.Ideal

set_option maxRecDepth 16384

noncomputable section

namespace Cert.KernelIdeal.Diag

open Cert.KernelIdeal Cert.KernelIdeal.Gen Idealize.ShloMosaic Idealize.ShloMosaic.ValueIdx Idealize.ShloMosaic.TcCoe
open Idealize.ShloMosaic.StableHlo

/-- The sample numbers 0 … 31 as the host normalizes them (a negative one would have 32 added), as a column. -/
def col : IVec S32x1 32 :=
  broadcastInDim S32x1 ![0] bcast_S32_S32x1_0
    (select (cmpi .slt (iotaInDim S32 32 0) (broadcastInDim S32 ![] bcast_S_S32 (constantI S_ 32 0#32)))
      (addi (iotaInDim S32 32 0) (broadcastInDim S32 ![] bcast_S_S32 (constantI S_ 32 32#32))) (iotaInDim S32 32 0))

/-- The start indices: row n is the pair (n, n). -/
def idxArr : IVec S32x2 32 :=
  concatenate S32x2 1 [⟨S32x1, col⟩, ⟨S32x1, col⟩] concatenates_S32x1_S32x1_S32x2_d1

/-- The Gram array of a group as 32 × 32 blocks of 16 × 16, the two block axes moved last. -/
def blocksArr (Gm : FVec Ideal S16x1x512x512 .f32) : FVec Ideal S16x16x16x32x32 .f32 :=
  transpose S16x16x16x32x32 [0, 2, 4, 1, 3]
    (shapeCast S16x32x16x32x16 (shapeCast S16x512x512 Gm shapeCasts_S16x1x512x512_S16x512x512) shapeCasts_S16x512x512_S16x32x16x32x16)
    transposes_S16x32x16x32x16_S16x16x16x32x32_0_2_4_1_3

/-- The gathered diagonal. -/
def gathered (Gm : FVec Ideal S16x1x512x512 .f32) : FVec Ideal S16x16x16x32 .f32 :=
  Host.gather gather_S16x16x16x32x32_S32x2_S16x16x16x32_012_34_n_n_34_1_16161611 (blocksArr Gm) idxArr

theorem v5_after (V : Valuation τ sig (Elt Ideal)) :
    after (hostOps1 (F := Ideal)) V (Proc.devRef .tc main_v5)
      = shapeCast S16x32x16x32x16 (shapeCast S16x512x512 (V (Proc.devRef .tc main_v1_1)) shapeCasts_S16x1x512x512_S16x512x512)
          shapeCasts_S16x512x512_S16x32x16x32x16 := by
  after_results
  rfl

theorem v3_after (V : Valuation τ sig (Elt Ideal)) :
    after (hostOps1 (F := Ideal)) V (Proc.devRef .tc main_v3)
      = Host.divf (V (Proc.devRef .tc main_v1_0)) (broadcastInDim S16x32x16 ![] bcast_S_S16x32x16 (constant (F := Ideal) S_ .f32 0x45800000#32)) := by
  after_results

set_option maxHeartbeats 2000000 in
theorem v6_after (V : Valuation τ sig (Elt Ideal)) :
    after (hostOps1_1 (F := Ideal)) V (Proc.devRef .tc main_v6)
      = Host.gather gather_S16x16x16x32x32_S32x2_S16x16x16x32_012_34_n_n_34_1_16161611
          (transpose S16x16x16x32x32 [0, 2, 4, 1, 3] (V (Proc.devRef .tc main_v5)) transposes_S16x32x16x32x16_S16x16x16x32x32_0_2_4_1_3)
          idxArr := by
  after_results
  rfl

/-- Row n of the start indices is (n, n). -/
theorem col_at (n : Fin 32) : col (ix2 n (0 : Fin 1)) = BitVec.ofNat 32 n.val := by
  have key : ∀ n : Fin 32, Scalar.select (IntOp.cmpi .slt (BitVec.ofNat 32 n.val) 0#32) (IntOp.addi (BitVec.ofNat 32 n.val) 32#32)
      (BitVec.ofNat 32 n.val) = BitVec.ofNat 32 n.val := by decide
  unfold col
  refine (broadcastInDim_apply ![0] bcast_S32_S32x1_0 _ (ix2 n (0 : Fin 1)) (ix1 n) fun a => ?_).trans ?_
  · match a with
    | ⟨0, _⟩ => rfl
  · show Scalar.select (IntOp.cmpi .slt (BitVec.ofNat 32 n.val) (broadcastInDim S32 ![] bcast_S_S32 (constantI S_ 32 0#32) (ix1 n)))
      (IntOp.addi (BitVec.ofNat 32 n.val) (broadcastInDim S32 ![] bcast_S_S32 (constantI S_ 32 32#32) (ix1 n))) (BitVec.ofNat 32 n.val) = _
    rw [broadcastInDim_scalar_apply, broadcastInDim_scalar_apply]
    exact key n

theorem idx0_at (n : Fin 32) : idxArr (ix2 n (0 : Fin 2)) = BitVec.ofNat 32 n.val := by
  unfold idxArr
  refine (concatenate_pair_apply_left (1 : Fin 2) col col concatenates_S32x1_S32x1_S32x2_d1 (ix2 n (0 : Fin 2)) rfl
    (ix2 n (0 : Fin 1)) fun b => ?_).trans (col_at n)
  match b with
  | ⟨0, _⟩ => rfl
  | ⟨1, _⟩ => rfl

theorem idx1_at (n : Fin 32) : idxArr (ix2 n (1 : Fin 2)) = BitVec.ofNat 32 n.val := by
  unfold idxArr
  refine (concatenate_pair_apply_right (1 : Fin 2) col col concatenates_S32x1_S32x1_S32x2_d1 (ix2 n (1 : Fin 2)) rfl rfl
    (ix2 n (0 : Fin 1)) (fun b hb => ?_) ?_).trans (col_at n)
  · match b with
    | ⟨0, _⟩ => rfl
    | ⟨1, _⟩ => exact absurd rfl hb
  · rfl

local notation "GR" => gather_S16x16x16x32x32_S32x2_S16x16x16x32_012_34_n_n_34_1_16161611

theorem clamp31 : ∀ p : Fin 32, min (BitVec.ofNat 32 p.val).toInt.toNat 31 = p.val := by decide

/-- An offset axis (0, 1 or 2) of the operand index is the result index's coordinate in the same position. -/
theorem off_axis (idx : IVec S32x2 32) (j : S16x16x16x32.Idx) (a : Fin 5) (b : Fin 4) (ha : a.val < 3) (hab : a.val = b.val)
    (h1 : a ∉ (GR).startIndexMap) (h2 : a ∉ (GR).operandBatchingDims) (h3 : a ∈ (GR).sKept)
    (h4 : ∀ hh, (GR).offsetDims[List.idxOf a (GR).sKept]'hh = b) :
    ((GR).operandIdx j idx a).val = (j b).val := by
  show (GR).start j idx a + (GR).batchCoord j a + (GR).offCoord j a = _
  rw [GatherDims.batchCoord_eq_zero _ _ _ h2, Nat.add_zero]
  have hs : (GR).start j idx a = 0 := by unfold GatherDims.start; rw [dif_neg h1]
  rw [hs, Nat.zero_add]
  unfold GatherDims.offCoord
  rw [dif_pos h3, h4]

theorem gather_at (x : FVec Ideal S16x16x16x32x32 .f32) (idx : IVec S32x2 32) (g c d : Fin 16) (n p q : Fin 32)
    (hp : idx (ix2 n (0 : Fin 2)) = BitVec.ofNat 32 p.val) (hq : idx (ix2 n (1 : Fin 2)) = BitVec.ofNat 32 q.val) :
    Host.gather GR x idx (ix4 g c d n) = x (ix5 g c d p q) := by
  unfold Host.gather
  refine congrArg x (funext fun a => Fin.ext ?_)
  match a with
  | ⟨0, _⟩ => exact off_axis idx (ix4 g c d n) 0 0 (by decide) rfl (by decide) (by decide) (by decide) (fun _ => by decide +revert)
  | ⟨1, _⟩ => exact off_axis idx (ix4 g c d n) 1 1 (by decide) rfl (by decide) (by decide) (by decide) (fun _ => by decide +revert)
  | ⟨2, _⟩ => exact off_axis idx (ix4 g c d n) 2 2 (by decide) rfl (by decide) (by decide) (by decide) (fun _ => by decide +revert)
  | ⟨3, _⟩ =>
    show (GR).start (ix4 g c d n) idx 3 + (GR).batchCoord (ix4 g c d n) 3 + (GR).offCoord (ix4 g c d n) 3 = p.val
    rw [GatherDims.batchCoord_eq_zero _ _ _ (by decide), GatherDims.offCoord_eq_zero _ _ _ (by decide), Nat.add_zero]
    unfold GatherDims.start
    rw [dif_pos (by decide)]
    have hsi : (GR).siIdx (ix4 g c d n) ⟨List.idxOf (3 : Fin 5) (GR).startIndexMap, by decide⟩ = ix2 n (0 : Fin 2) := by
      funext b; refine Fin.ext ?_
      match b with
      | ⟨0, _⟩ => rfl
      | ⟨1, _⟩ => rfl
    rw [hsi, hp]
    exact clamp31 p
  | ⟨4, _⟩ =>
    show (GR).start (ix4 g c d n) idx 4 + (GR).batchCoord (ix4 g c d n) 4 + (GR).offCoord (ix4 g c d n) 4 = q.val
    rw [GatherDims.batchCoord_eq_zero _ _ _ (by decide), GatherDims.offCoord_eq_zero _ _ _ (by decide), Nat.add_zero]
    unfold GatherDims.start
    rw [dif_pos (by decide)]
    have hsi : (GR).siIdx (ix4 g c d n) ⟨List.idxOf (4 : Fin 5) (GR).startIndexMap, by decide⟩ = ix2 n (1 : Fin 2) := by
      funext b; refine Fin.ext ?_
      match b with
      | ⟨0, _⟩ => rfl
      | ⟨1, _⟩ => rfl
    rw [hsi, hq]
    exact clamp31 q

/-- The Gram array as blocks: entry (g, c, d, n, n') is entry (g, 0, 16 n + c, 16 n' + d). -/
theorem blocks_at (Gm : FVec Ideal S16x1x512x512 .f32) (g c d : Fin 16) (n n' : Fin 32) (r s : Fin 512)
    (hr : r.val = n.val * 16 + c.val) (hs : s.val = n'.val * 16 + d.val) :
    blocksArr Gm (ix5 g c d n n') = Gm (ix4 g (0 : Fin 1) r s) := by
  unfold blocksArr
  refine (transpose_apply [0, 2, 4, 1, 3] _ transposes_S16x32x16x32x16_S16x16x16x32x32_0_2_4_1_3 (ix5 g c d n n')
    (ix5 g n c n' d) fun b => ?_).trans ?_
  · match b with
    | ⟨0, _⟩ => rfl
    | ⟨1, _⟩ => rfl
    | ⟨2, _⟩ => rfl
    | ⟨3, _⟩ => rfl
    | ⟨4, _⟩ => rfl
  · refine (shapeCast_apply _ shapeCasts_S16x512x512_S16x32x16x32x16 (ix5 g n c n' d) (ix3 g r s) ?_).trans ?_
    · rw [Shape.rowMajor_val_three, Shape.rowMajor_val_five]
      show (g.val * 512 + r.val) * 512 + s.val = (((g.val * 32 + n.val) * 16 + c.val) * 32 + n'.val) * 16 + d.val
      omega
    · refine shapeCast_apply _ shapeCasts_S16x1x512x512_S16x512x512 (ix3 g r s) (ix4 g (0 : Fin 1) r s) ?_
      rw [Shape.rowMajor_val_four, Shape.rowMajor_val_three]
      show ((g.val * 1 + 0) * 512 + r.val) * 512 + s.val = (g.val * 512 + r.val) * 512 + s.val
      omega

/-- The gathered diagonal: entry (g, c, d, n) is entry (g, 0, 16 n + c, 16 n + d) of the Gram array. -/
theorem gathered_at (Gm : FVec Ideal S16x1x512x512 .f32) (g c d : Fin 16) (n : Fin 32) (r s : Fin 512)
    (hr : r.val = n.val * 16 + c.val) (hs : s.val = n.val * 16 + d.val) :
    gathered Gm (ix4 g c d n) = Gm (ix4 g (0 : Fin 1) r s) := by
  unfold gathered
  rw [gather_at (blocksArr Gm) idxArr g c d n n n (idx0_at n) (idx1_at n), blocks_at Gm g c d n n r s hr hs]

end Cert.KernelIdeal.Diag

end
-- ==== Proof.KernelValue.lean ====
/-
  The kernel program's result buffer, threaded through the fold of segment boundaries: the first call's two output arrays
  are the sums and the Gram array of the reshaped input; the host stretches turn them into the mixed means and the
  block-diagonal whitening matrices; the second call's output array is `outArrK` of those; the result is its reshape.
-/
import proofs.«136164_j25769804234_2_alg».proof.Proof.StatsArrays
import proofs.«136164_j25769804234_2_alg».proof.Proof.ApplyArrays
import proofs.«136164_j25769804234_2_alg».proof.Proof.HostWhiten
import proofs.«136164_j25769804234_2_alg».proof.Proof.Diag

set_option maxRecDepth 16384

noncomputable section

namespace Cert.KernelIdeal.Value

open Cert.KernelIdeal Cert.KernelIdeal.Gen Idealize.ShloMosaic Idealize.ShloMosaic.TcCoe Idealize.ShloMosaic.StableHlo
open Idealize.SL.Sem
open Cert.KernelIdeal.Mix (meanArr covArr meanInArr eyeArr mean_after cov_after)
open Cert.KernelIdeal.Whiten (traceArr wmArr bdArr trace_after bd_after w_after b_after)
open Cert.KernelIdeal.Diag (gathered v3_after v5_after v6_after)
open Cert.KernelIdeal.Stats (sumsArr gramArr)
open Cert.KernelIdeal.Apply (outArrK)

/-- A buffer that no operation of a stretch writes holds, after the stretch, what it held before. -/
local macro "unch" : tactic => `(tactic| (
  refine after_of_forall_not_mem _ _ (List.forall_iff_forall_mem.mp ?_)
  simp only [hostOps0, hostOps1, hostOps1_1, hostOps1_2, hostOps1_3, hostOps1_4, hostOps2, List.Forall, nullary_writes,
    unary_writes, binary_writes, ternary_writes, reshape_writes, Finset.mem_singleton]
  repeat' apply And.intro
  all_goals exact devRef_ne_of_ne (by decide)))

set_option maxHeartbeats 4000000 in
theorem eye_after (V : Valuation τ sig (Elt Ideal)) :
    after (hostOps1_2 (F := Ideal)) V (Proc.devRef .tc main_v51) = eyeArr := by
  after_results_simp
  rfl

variable (m : (ℓ : Loc nD τ sig) → Buf (Elt Ideal) ℓ) (ρ : Dev nD → PrngReg) (c : Dev nD)

/-- The input as the first call reads it: the [32, 256, 64, 64] array with its two position axes flattened. -/
def x2 : S32x256x4096.Idx → EReal :=
  shapeCast S32x256x4096 (m ((c : Thread nD τ).loc main_arg0)) shapeCasts_S32x256x64x64_S32x256x4096

theorem x2_W1 : W1 m ρ c (Proc.devRef .tc main_v0) = x2 m c := by
  show after (hostOps0 (F := Ideal)) (W0 m ρ c) (Proc.devRef .tc main_v0) = _
  after_results
  rfl

/-! ## Region 0's exit -/

theorem S_W2 : W2 m ρ c (Proc.devRef .tc main_v1_0) = sumsArr (x2 m c) := by
  rw [← x2_W1 m ρ c]
  exact (W2_arr m ρ c 1).trans (Cert.KernelIdeal.Stats.final1 (V1 m ρ) c)

theorem G_W2 : W2 m ρ c (Proc.devRef .tc main_v1_1) = gramArr (x2 m c) := by
  rw [← x2_W1 m ρ c]
  exact (W2_arr m ρ c 2).trans (Cert.KernelIdeal.Stats.final2 (V1 m ρ) c)

theorem x2_W2 : W2 m ρ c (Proc.devRef .tc main_v0) = x2 m c :=
  (W2_arr m ρ c 0).trans (((dat0 (V1 m ρ) c).arrAt_in 0 rfl _).trans ((A_eq0 (V1 m ρ) c 0).trans (x2_W1 m ρ c)))

/-! ## The arguments, as launched, at the boundaries where they are read -/

theorem arg_W2 (b : Ref sig .tc) (h0 : after (hostOps0 (F := Ideal)) (W0 m ρ c) (Proc.devRef .tc b) = W0 m ρ c (Proc.devRef .tc b))
    (hb : ∀ w, Pipeline.arrRef spec0 w ≠ b) : W2 m ρ c (Proc.devRef .tc b) = m ((c : Thread nD τ).loc b) :=
  (W2_of_ne m ρ c b hb).trans h0

theorem arg1_W4 : W4 m ρ c (Proc.devRef .tc main_arg1) = m ((c : Thread nD τ).loc main_arg1) :=
  (show after (hostOps1_1 (F := Ideal)) (W3 m ρ c) (Proc.devRef .tc main_arg1) = W3 m ρ c (Proc.devRef .tc main_arg1) by unch).trans
    ((show after (hostOps1 (F := Ideal)) (W2 m ρ c) (Proc.devRef .tc main_arg1) = W2 m ρ c (Proc.devRef .tc main_arg1) by unch).trans
      (arg_W2 m ρ c main_arg1 (by unch) (by decide)))

theorem arg2_W4 : W4 m ρ c (Proc.devRef .tc main_arg2) = m ((c : Thread nD τ).loc main_arg2) :=
  (show after (hostOps1_1 (F := Ideal)) (W3 m ρ c) (Proc.devRef .tc main_arg2) = W3 m ρ c (Proc.devRef .tc main_arg2) by unch).trans
    ((show after (hostOps1 (F := Ideal)) (W2 m ρ c) (Proc.devRef .tc main_arg2) = W2 m ρ c (Proc.devRef .tc main_arg2) by unch).trans
      (arg_W2 m ρ c main_arg2 (by unch) (by decide)))

theorem arg_W6 (b : Ref sig .tc)
    (h13 : after (hostOps1_3 (F := Ideal)) (W5 m ρ c) (Proc.devRef .tc b) = W5 m ρ c (Proc.devRef .tc b))
    (h12 : after (hostOps1_2 (F := Ideal)) (W4 m ρ c) (Proc.devRef .tc b) = W4 m ρ c (Proc.devRef .tc b))
    (h11 : after (hostOps1_1 (F := Ideal)) (W3 m ρ c) (Proc.devRef .tc b) = W3 m ρ c (Proc.devRef .tc b))
    (h1 : after (hostOps1 (F := Ideal)) (W2 m ρ c) (Proc.devRef .tc b) = W2 m ρ c (Proc.devRef .tc b))
    (h0 : after (hostOps0 (F := Ideal)) (W0 m ρ c) (Proc.devRef .tc b) = W0 m ρ c (Proc.devRef .tc b))
    (hb : ∀ w, Pipeline.arrRef spec0 w ≠ b) : W6 m ρ c (Proc.devRef .tc b) = m ((c : Thread nD τ).loc b) :=
  h13.trans (h12.trans (h11.trans (h1.trans (arg_W2 m ρ c b h0 hb))))

theorem arg3_W6 : W6 m ρ c (Proc.devRef .tc main_arg3) = m ((c : Thread nD τ).loc main_arg3) :=
  arg_W6 m ρ c main_arg3 (by unch) (by unch) (by unch) (by unch) (by unch) (by decide)
theorem arg4_W6 : W6 m ρ c (Proc.devRef .tc main_arg4) = m ((c : Thread nD τ).loc main_arg4) :=
  arg_W6 m ρ c main_arg4 (by unch) (by unch) (by unch) (by unch) (by unch) (by decide)

/-! ## The statistics combined -/

/-- The sums array. -/
abbrev SS : S16x32x16.Idx → EReal := sumsArr (x2 m c)

theorem S_W4 : W4 m ρ c (Proc.devRef .tc main_v1_0) = SS m c :=
  (show after (hostOps1_1 (F := Ideal)) (W3 m ρ c) (Proc.devRef .tc main_v1_0) = W3 m ρ c (Proc.devRef .tc main_v1_0) by unch).trans
    ((show after (hostOps1 (F := Ideal)) (W2 m ρ c) (Proc.devRef .tc main_v1_0) = W2 m ρ c (Proc.devRef .tc main_v1_0) by unch).trans
      (S_W2 m ρ c))

theorem v3_W4 : W4 m ρ c (Proc.devRef .tc main_v3) = meanInArr (SS m c) :=
  (show after (hostOps1_1 (F := Ideal)) (W3 m ρ c) (Proc.devRef .tc main_v3) = W3 m ρ c (Proc.devRef .tc main_v3) by unch).trans (by
    show after (hostOps1 (F := Ideal)) (W2 m ρ c) (Proc.devRef .tc main_v3) = _
    rw [v3_after, S_W2]; rfl)

theorem v6_W4 : W4 m ρ c (Proc.devRef .tc main_v6) = gathered (gramArr (x2 m c)) := by
  show after (hostOps1_1 (F := Ideal)) (W3 m ρ c) (Proc.devRef .tc main_v6) = _
  rw [v6_after]
  show Host.gather _ (transpose _ _ (after (hostOps1 (F := Ideal)) (W2 m ρ c) (Proc.devRef .tc main_v5)) _) _ = _
  rw [v5_after, G_W2]; rfl

/-- The mixed means. -/
abbrev MEAN : S16x32x16.Idx → EReal := meanArr (SS m c) (meanInArr (SS m c)) (m ((c : Thread nD τ).loc main_arg1))

/-- The mixed covariances. -/
abbrev COV : S16x32x16x16.Idx → EReal :=
  covArr (gathered (gramArr (x2 m c))) (SS m c) (meanInArr (SS m c)) (m ((c : Thread nD τ).loc main_arg2))

theorem mean_W5 : W5 m ρ c (Proc.devRef .tc main_v60) = MEAN m c := by
  show after (hostOps1_2 (F := Ideal)) (W4 m ρ c) (Proc.devRef .tc main_v60) = _
  rw [mean_after, S_W4, v3_W4, arg1_W4]

theorem cov_W5 : W5 m ρ c (Proc.devRef .tc main_v74) = COV m c := by
  show after (hostOps1_2 (F := Ideal)) (W4 m ρ c) (Proc.devRef .tc main_v74) = _
  rw [cov_after, v6_W4, S_W4, v3_W4, arg2_W4]

theorem eye_W5 : W5 m ρ c (Proc.devRef .tc main_v51) = eyeArr := eye_after (W4 m ρ c)

/-- The block-diagonal whitening matrices. -/
abbrev BD : S16x2x256x256.Idx → EReal := bdArr (wmArr (COV m c) (traceArr (COV m c)) eyeArr)

theorem bd_W7 : W7 m ρ c (Proc.devRef .tc main_v138) = BD m c := by
  show after (hostOps1_4 (F := Ideal)) (W6 m ρ c) (Proc.devRef .tc main_v138) = _
  rw [bd_after]
  have h74 : W6 m ρ c (Proc.devRef .tc main_v74) = COV m c :=
    (show after (hostOps1_3 (F := Ideal)) (W5 m ρ c) (Proc.devRef .tc main_v74) = W5 m ρ c (Proc.devRef .tc main_v74) by unch).trans (cov_W5 m ρ c)
  have h51 : W6 m ρ c (Proc.devRef .tc main_v51) = eyeArr :=
    (show after (hostOps1_3 (F := Ideal)) (W5 m ρ c) (Proc.devRef .tc main_v51) = W5 m ρ c (Proc.devRef .tc main_v51) by unch).trans (eye_W5 m ρ c)
  have h75 : W6 m ρ c (Proc.devRef .tc main_v75) = traceArr (COV m c) := by
    show after (hostOps1_3 (F := Ideal)) (W5 m ρ c) (Proc.devRef .tc main_v75) = _
    rw [trace_after, cov_W5]
  rw [h74, h75, h51]

theorem mean_W7 : W7 m ρ c (Proc.devRef .tc main_v60) = MEAN m c :=
  (show after (hostOps1_4 (F := Ideal)) (W6 m ρ c) (Proc.devRef .tc main_v60) = W6 m ρ c (Proc.devRef .tc main_v60) by unch).trans
    ((show after (hostOps1_3 (F := Ideal)) (W5 m ρ c) (Proc.devRef .tc main_v60) = W5 m ρ c (Proc.devRef .tc main_v60) by unch).trans
      (mean_W5 m ρ c))

theorem x2_W7 : W7 m ρ c (Proc.devRef .tc main_v0) = x2 m c :=
  (show after (hostOps1_4 (F := Ideal)) (W6 m ρ c) (Proc.devRef .tc main_v0) = W6 m ρ c (Proc.devRef .tc main_v0) by unch).trans
    ((show after (hostOps1_3 (F := Ideal)) (W5 m ρ c) (Proc.devRef .tc main_v0) = W5 m ρ c (Proc.devRef .tc main_v0) by unch).trans
      ((show after (hostOps1_2 (F := Ideal)) (W4 m ρ c) (Proc.devRef .tc main_v0) = W4 m ρ c (Proc.devRef .tc main_v0) by unch).trans
        ((show after (hostOps1_1 (F := Ideal)) (W3 m ρ c) (Proc.devRef .tc main_v0) = W3 m ρ c (Proc.devRef .tc main_v0) by unch).trans
          ((show after (hostOps1 (F := Ideal)) (W2 m ρ c) (Proc.devRef .tc main_v0) = W2 m ρ c (Proc.devRef .tc main_v0) by unch).trans
            (x2_W2 m ρ c)))))

/-- The weights and the biases per (group, channel). -/
abbrev WV : S16x1x16.Idx → EReal := shapeCast S16x1x16 (m ((c : Thread nD τ).loc main_arg3)) shapeCasts_S256_S16x1x16
abbrev BV : S16x1x16.Idx → EReal := shapeCast S16x1x16 (m ((c : Thread nD τ).loc main_arg4)) shapeCasts_S256_S16x1x16

theorem w_W7 : W7 m ρ c (Proc.devRef .tc main_v139) = WV m c := by
  show after (hostOps1_4 (F := Ideal)) (W6 m ρ c) (Proc.devRef .tc main_v139) = _
  rw [w_after, arg3_W6]

theorem b_W7 : W7 m ρ c (Proc.devRef .tc main_v140) = BV m c := by
  show after (hostOps1_4 (F := Ideal)) (W6 m ρ c) (Proc.devRef .tc main_v140) = _
  rw [b_after, arg4_W6]

/-! ## The second call and the result -/

theorem out_W8 : W8 m ρ c (Proc.devRef .tc main_v141) = outArrK (x2 m c) (MEAN m c) (BD m c) (WV m c) (BV m c) := by
  refine (W8_arr m ρ c 5).trans ((Cert.KernelIdeal.Apply.final5 (V7 m ρ) c).trans ?_)
  show outArrK (W7 m ρ c (Proc.devRef .tc main_v0)) (W7 m ρ c (Proc.devRef .tc main_v60)) (W7 m ρ c (Proc.devRef .tc main_v138))
    (W7 m ρ c (Proc.devRef .tc main_v139)) (W7 m ρ c (Proc.devRef .tc main_v140)) = _
  rw [x2_W7, mean_W7, bd_W7, w_W7, b_W7]

/-- THE KERNEL PROGRAM'S RESULT: the second call's output array with its position axis unflattened. -/
theorem result_W9 : W9 m ρ c (Proc.devRef .tc main_v142)
    = shapeCast S32x256x64x64 (outArrK (x2 m c) (MEAN m c) (BD m c) (WV m c) (BV m c)) shapeCasts_S32x256x4096_S32x256x64x64 := by
  show after (hostOps2 (F := Ideal)) (W8 m ρ c) (Proc.devRef .tc main_v142) = _
  have e : after (hostOps2 (F := Ideal)) (W8 m ρ c) (Proc.devRef .tc main_v142)
      = shapeCast S32x256x64x64 (W8 m ρ c (Proc.devRef .tc main_v141)) shapeCasts_S32x256x4096_S32x256x64x64 := by
    after_results
    rfl
  rw [e, out_W8]

end Cert.KernelIdeal.Value

end
-- ==== Proof.LibBcast.lean ====
/-
  The host's `broadcast_in_dim` shapes that statistics kept per group or per sample meet, read at an index written by
  coordinates: a new unit axis put in the middle or in front, a unit axis stretched, and a matrix repeated over two leading
  batch axes. Each reads the operand at the coordinates the dimension map names, `0` on the operand's unit axes.
-/
import Idealize.ShloMosaic.Lib.Pipeline.Value
import Idealize.ShloMosaic.Lib.ValueIdx

namespace Cert.LibBcast

open Idealize.ShloMosaic Idealize.ShloMosaic.ValueIdx

variable {α : Type}

/-- `[a, c] → [a, 1, c]` along axes (0, 2): at (i, u, k) the operand at (i, k). -/
theorem ac_a1c {a c : ℕ} (h : (⟨2, ![a, c]⟩ : Shape).BroadcastsInDim ⟨3, ![a, 1, c]⟩ ![0, 2])
    (x : (⟨2, ![a, c]⟩ : Shape).Idx → α) (i : Fin a) (u : Fin 1) (k : Fin c) :
    broadcastInDim ⟨3, ![a, 1, c]⟩ ![0, 2] h x (ix3 i u k) = x (ix2 i k) := by
  refine broadcastInDim_apply _ h x (ix3 i u k) (ix2 i k) fun ax => ?_
  match ax with
  | ⟨0, _⟩ => show i.val = if a = 1 then 0 else i.val; split; · have := i.isLt; omega
              · rfl
  | ⟨1, _⟩ => show k.val = if c = 1 then 0 else k.val; split; · have := k.isLt; omega
              · rfl

/-- `[a, 1, c] → [a, b, c]`: at (i, j, k) the operand at (i, 0, k). -/
theorem a1c_abc {a b c : ℕ} (h : (⟨3, ![a, 1, c]⟩ : Shape).BroadcastsInDim ⟨3, ![a, b, c]⟩ ![0, 1, 2])
    (x : (⟨3, ![a, 1, c]⟩ : Shape).Idx → α) (i : Fin a) (j : Fin b) (k : Fin c) :
    broadcastInDim ⟨3, ![a, b, c]⟩ ![0, 1, 2] h x (ix3 i j k) = x (ix3 i (0 : Fin 1) k) := by
  refine broadcastInDim_apply _ h x (ix3 i j k) (ix3 i (0 : Fin 1) k) fun ax => ?_
  match ax with
  | ⟨0, _⟩ => show i.val = if a = 1 then 0 else i.val; split; · have := i.isLt; omega
              · rfl
  | ⟨1, _⟩ => show (0 : ℕ) = if (1 : ℕ) = 1 then 0 else j.val; rw [if_pos rfl]
  | ⟨2, _⟩ => show k.val = if c = 1 then 0 else k.val; split; · have := k.isLt; omega
              · rfl

/-- `[a, c, d] → [a, 1, c, d]` along axes (0, 2, 3): at (i, u, k, l) the operand at (i, k, l). -/
theorem acd_a1cd {a c d : ℕ} (h : (⟨3, ![a, c, d]⟩ : Shape).BroadcastsInDim ⟨4, ![a, 1, c, d]⟩ ![0, 2, 3])
    (x : (⟨3, ![a, c, d]⟩ : Shape).Idx → α) (i : Fin a) (u : Fin 1) (k : Fin c) (l : Fin d) :
    broadcastInDim ⟨4, ![a, 1, c, d]⟩ ![0, 2, 3] h x (ix4 i u k l) = x (ix3 i k l) := by
  refine broadcastInDim_apply _ h x (ix4 i u k l) (ix3 i k l) fun ax => ?_
  match ax with
  | ⟨0, _⟩ => show i.val = if a = 1 then 0 else i.val; split; · have := i.isLt; omega
              · rfl
  | ⟨1, _⟩ => show k.val = if c = 1 then 0 else k.val; split; · have := k.isLt; omega
              · rfl
  | ⟨2, _⟩ => show l.val = if d = 1 then 0 else l.val; split; · have := l.isLt; omega
              · rfl

/-- `[a, 1, c, d] → [a, b, c, d]`: at (i, j, k, l) the operand at (i, 0, k, l). -/
theorem a1cd_abcd {a b c d : ℕ} (h : (⟨4, ![a, 1, c, d]⟩ : Shape).BroadcastsInDim ⟨4, ![a, b, c, d]⟩ ![0, 1, 2, 3])
    (x : (⟨4, ![a, 1, c, d]⟩ : Shape).Idx → α) (i : Fin a) (j : Fin b) (k : Fin c) (l : Fin d) :
    broadcastInDim ⟨4, ![a, b, c, d]⟩ ![0, 1, 2, 3] h x (ix4 i j k l) = x (ix4 i (0 : Fin 1) k l) := by
  refine broadcastInDim_apply _ h x (ix4 i j k l) (ix4 i (0 : Fin 1) k l) fun ax => ?_
  match ax with
  | ⟨0, _⟩ => show i.val = if a = 1 then 0 else i.val; split; · have := i.isLt; omega
              · rfl
  | ⟨1, _⟩ => show (0 : ℕ) = if (1 : ℕ) = 1 then 0 else j.val; rw [if_pos rfl]
  | ⟨2, _⟩ => show k.val = if c = 1 then 0 else k.val; split; · have := k.isLt; omega
              · rfl
  | ⟨3, _⟩ => show l.val = if d = 1 then 0 else l.val; split; · have := l.isLt; omega
              · rfl

/-- `[c, d] → [1, 1, c, d]` along axes (2, 3): at (u, v, k, l) the operand at (k, l). -/
theorem cd_11cd {c d : ℕ} (h : (⟨2, ![c, d]⟩ : Shape).BroadcastsInDim ⟨4, ![1, 1, c, d]⟩ ![2, 3])
    (x : (⟨2, ![c, d]⟩ : Shape).Idx → α) (u v : Fin 1) (k : Fin c) (l : Fin d) :
    broadcastInDim ⟨4, ![1, 1, c, d]⟩ ![2, 3] h x (ix4 u v k l) = x (ix2 k l) := by
  refine broadcastInDim_apply _ h x (ix4 u v k l) (ix2 k l) fun ax => ?_
  match ax with
  | ⟨0, _⟩ => show k.val = if c = 1 then 0 else k.val; split; · have := k.isLt; omega
              · rfl
  | ⟨1, _⟩ => show l.val = if d = 1 then 0 else l.val; split; · have := l.isLt; omega
              · rfl

/-- `[1, 1, c, d] → [a, b, c, d]`: at (i, j, k, l) the operand at (0, 0, k, l). -/
theorem u11cd_abcd {a b c d : ℕ} (h : (⟨4, ![1, 1, c, d]⟩ : Shape).BroadcastsInDim ⟨4, ![a, b, c, d]⟩ ![0, 1, 2, 3])
    (x : (⟨4, ![1, 1, c, d]⟩ : Shape).Idx → α) (i : Fin a) (j : Fin b) (k : Fin c) (l : Fin d) :
    broadcastInDim ⟨4, ![a, b, c, d]⟩ ![0, 1, 2, 3] h x (ix4 i j k l) = x (ix4 (0 : Fin 1) (0 : Fin 1) k l) := by
  refine broadcastInDim_apply _ h x (ix4 i j k l) (ix4 (0 : Fin 1) (0 : Fin 1) k l) fun ax => ?_
  match ax with
  | ⟨0, _⟩ => show (0 : ℕ) = if (1 : ℕ) = 1 then 0 else i.val; rw [if_pos rfl]
  | ⟨1, _⟩ => show (0 : ℕ) = if (1 : ℕ) = 1 then 0 else j.val; rw [if_pos rfl]
  | ⟨2, _⟩ => show k.val = if c = 1 then 0 else k.val; split; · have := k.isLt; omega
              · rfl
  | ⟨3, _⟩ => show l.val = if d = 1 then 0 else l.val; split; · have := l.isLt; omega
              · rfl

/-- `[c, d] → [a, b, c, d]` along axes (2, 3) (one matrix repeated over two batch axes): at (i, j, k, l) the operand at (k, l). -/
theorem cd_abcd {a b c d : ℕ} (h : (⟨2, ![c, d]⟩ : Shape).BroadcastsInDim ⟨4, ![a, b, c, d]⟩ ![2, 3])
    (x : (⟨2, ![c, d]⟩ : Shape).Idx → α) (i : Fin a) (j : Fin b) (k : Fin c) (l : Fin d) :
    broadcastInDim ⟨4, ![a, b, c, d]⟩ ![2, 3] h x (ix4 i j k l) = x (ix2 k l) := by
  refine broadcastInDim_apply _ h x (ix4 i j k l) (ix2 k l) fun ax => ?_
  match ax with
  | ⟨0, _⟩ => show k.val = if c = 1 then 0 else k.val; split; · have := k.isLt; omega
              · rfl
  | ⟨1, _⟩ => show l.val = if d = 1 then 0 else l.val; split; · have := l.isLt; omega
              · rfl

/-- `[a, b] → [a, b, 1, 1]` along axes (0, 1): at (i, j, u, v) the operand at (i, j). -/
theorem ab_ab11 {a b : ℕ} (h : (⟨2, ![a, b]⟩ : Shape).BroadcastsInDim ⟨4, ![a, b, 1, 1]⟩ ![0, 1])
    (x : (⟨2, ![a, b]⟩ : Shape).Idx → α) (i : Fin a) (j : Fin b) (u v : Fin 1) :
    broadcastInDim ⟨4, ![a, b, 1, 1]⟩ ![0, 1] h x (ix4 i j u v) = x (ix2 i j) := by
  refine broadcastInDim_apply _ h x (ix4 i j u v) (ix2 i j) fun ax => ?_
  match ax with
  | ⟨0, _⟩ => show i.val = if a = 1 then 0 else i.val; split; · have := i.isLt; omega
              · rfl
  | ⟨1, _⟩ => show j.val = if b = 1 then 0 else j.val; split; · have := j.isLt; omega
              · rfl

/-- `[a, b, 1, 1] → [a, b, c, d]`: at (i, j, k, l) the operand at (i, j, 0, 0). -/
theorem ab11_abcd {a b c d : ℕ} (h : (⟨4, ![a, b, 1, 1]⟩ : Shape).BroadcastsInDim ⟨4, ![a, b, c, d]⟩ ![0, 1, 2, 3])
    (x : (⟨4, ![a, b, 1, 1]⟩ : Shape).Idx → α) (i : Fin a) (j : Fin b) (k : Fin c) (l : Fin d) :
    broadcastInDim ⟨4, ![a, b, c, d]⟩ ![0, 1, 2, 3] h x (ix4 i j k l) = x (ix4 i j (0 : Fin 1) (0 : Fin 1)) := by
  refine broadcastInDim_apply _ h x (ix4 i j k l) (ix4 i j (0 : Fin 1) (0 : Fin 1)) fun ax => ?_
  match ax with
  | ⟨0, _⟩ => show i.val = if a = 1 then 0 else i.val; split; · have := i.isLt; omega
              · rfl
  | ⟨1, _⟩ => show j.val = if b = 1 then 0 else j.val; split; · have := j.isLt; omega
              · rfl
  | ⟨2, _⟩ => show (0 : ℕ) = if (1 : ℕ) = 1 then 0 else k.val; rw [if_pos rfl]
  | ⟨3, _⟩ => show (0 : ℕ) = if (1 : ℕ) = 1 then 0 else l.val; rw [if_pos rfl]

end Cert.LibBcast
-- ==== Proof.LibBatchDot.lean ====
/-
  A host `dot_general` with ONE contracted axis read at an index, at the exact extended reals: at an output index the
  product is the sum, over the contracted extent `K` itself, of the left operand's entry times the right operand's entry
  at the two operand indices the dimension numbers pair with that output index and that contraction index. The general
  form takes the two operand indices as functions of `k : Fin K`; the instances below spell them out by coordinates
  for products carried along leading batch axes: `[B,a,K] × [B,K,b]`, the Gram form `[B,a,K] × [B,b,K]` (both
  operands contracted on their last axis), `[B,K,a] × [B,K,b]` (both contracted on their middle axis), and `[A,B,a,K] × [A,B,K,b]` with two batch axes. Whatever the schedule key.
-/
import Idealize.ShloMosaic.PureOps.Ideal.Laws
import Idealize.ShloMosaic.Lib.ValueIdx

noncomputable section

namespace Cert.LibBatchDot

open Idealize.ShloMosaic Idealize.ShloMosaic.ValueIdx

/-- The general form: any three shapes, one contracted axis of extent `K`. `L k` and `R k` are the operand indices
    paired with the output index `j` at contraction index `k`; the two hypotheses say so for every contraction index
    whose one coordinate is `k`. -/
theorem dotGeneral_sum {sl sr so : Shape} {φ₁ φ₂ : FTy} (d : DotDims sl sr so) (prec : Option ContractPrecision)
    (sched : HostSchedule) (K : Nat) (hr : d.contr.rank = 1) (hs : d.contr.size ⟨0, by omega⟩ = K)
    (lhs : FVec Ideal sl φ₁) (rhs : FVec Ideal sr φ₂) (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k) :
    FloatOps.dotGeneral d prec sched lhs rhs j = ∑ k : Fin K, lhs (L k) * rhs (R k) := by
  rw [Ideal.dotGeneral_apply, ← Equiv.sum_comp (contrEquiv1 d K hr hs).symm]
  refine Finset.sum_congr rfl fun k _ => ?_
  have hk := contrEquiv1_symm_val d K hr hs k
  rw [hL _ k hk, hR _ k hk]

/-- One batch axis, `[B,a,K] × [B,K,b] → [B,a,b]`: at `(p, r, c)` the sum over `k` of `lhs (p, r, k) · rhs (p, k, c)`. The six
    coordinate facts say which axes the dimension numbers carry, keep and contract. -/
theorem dotGeneral_ix3 {B a K b : Nat} {φ₁ φ₂ : FTy}
    (d : DotDims ⟨3, ![B, a, K]⟩ ⟨3, ![B, K, b]⟩ ⟨3, ![B, a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (j 1).val)
    (hl2 : ∀ j q, (d.lhsIdx j q 2).val = (q ⟨0, by omega⟩).val)
    (hr0 : ∀ j q, (d.rhsIdx j q 0).val = (j 0).val)
    (hr1 : ∀ j q, (d.rhsIdx j q 1).val = (q ⟨0, by omega⟩).val)
    (hr2 : ∀ j q, (d.rhsIdx j q 2).val = (j 2).val)
    (lhs : FVec Ideal ⟨3, ![B, a, K]⟩ φ₁) (rhs : FVec Ideal ⟨3, ![B, K, b]⟩ φ₂) (j : (⟨3, ![B, a, b]⟩ : Shape).Idx) :
    FloatOps.dotGeneral d prec sched lhs rhs j = ∑ k : Fin K, lhs (ix3 (j 0) (j 1) k) * rhs (ix3 (j 0) k (j 2)) :=
  dotGeneral_sum d prec sched K hr hs lhs rhs j (fun k => ix3 (j 0) (j 1) k) (fun k => ix3 (j 0) k (j 2))
    (fun q k hk => funext fun x => Fin.ext (by
      match x with
      | ⟨0, _⟩ => exact hl0 _ _
      | ⟨1, _⟩ => exact hl1 _ _
      | ⟨2, _⟩ => exact (hl2 _ _).trans hk))
    (fun q k hk => funext fun x => Fin.ext (by
      match x with
      | ⟨0, _⟩ => exact hr0 _ _
      | ⟨1, _⟩ => exact (hr1 _ _).trans hk
      | ⟨2, _⟩ => exact hr2 _ _))

/-- One batch axis, both operands contracted on their LAST axis, `[B,a,K] × [B,b,K] → [B,a,b]` (a Gram matrix per batch
    entry): at `(p, r, c)` the sum over `k` of `lhs (p, r, k) · rhs (p, c, k)`. -/
theorem dotGeneral_ix3_gram {B a K b : Nat} {φ₁ φ₂ : FTy}
    (d : DotDims ⟨3, ![B, a, K]⟩ ⟨3, ![B, b, K]⟩ ⟨3, ![B, a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (j 1).val)
    (hl2 : ∀ j q, (d.lhsIdx j q 2).val = (q ⟨0, by omega⟩).val)
    (hr0 : ∀ j q, (d.rhsIdx j q 0).val = (j 0).val)
    (hr1 : ∀ j q, (d.rhsIdx j q 1).val = (j 2).val)
    (hr2 : ∀ j q, (d.rhsIdx j q 2).val = (q ⟨0, by omega⟩).val)
    (lhs : FVec Ideal ⟨3, ![B, a, K]⟩ φ₁) (rhs : FVec Ideal ⟨3, ![B, b, K]⟩ φ₂) (j : (⟨3, ![B, a, b]⟩ : Shape).Idx) :
    FloatOps.dotGeneral d prec sched lhs rhs j = ∑ k : Fin K, lhs (ix3 (j 0) (j 1) k) * rhs (ix3 (j 0) (j 2) k) :=
  dotGeneral_sum d prec sched K hr hs lhs rhs j (fun k => ix3 (j 0) (j 1) k) (fun k => ix3 (j 0) (j 2) k)
    (fun q k hk => funext fun x => Fin.ext (by
      match x with
      | ⟨0, _⟩ => exact hl0 _ _
      | ⟨1, _⟩ => exact hl1 _ _
      | ⟨2, _⟩ => exact (hl2 _ _).trans hk))
    (fun q k hk => funext fun x => Fin.ext (by
      match x with
      | ⟨0, _⟩ => exact hr0 _ _
      | ⟨1, _⟩ => exact hr1 _ _
      | ⟨2, _⟩ => exact (hr2 _ _).trans hk))

/-- Two batch axes, `[A,B,a,K] × [A,B,K,b] → [A,B,a,b]`: at `(g, p, r, c)` the sum over `k` of
    `lhs (g, p, r, k) · rhs (g, p, k, c)`. -/
theorem dotGeneral_ix4 {A B a K b : Nat} {φ₁ φ₂ : FTy}
    (d : DotDims ⟨4, ![A, B, a, K]⟩ ⟨4, ![A, B, K, b]⟩ ⟨4, ![A, B, a, b]⟩) (prec : Option ContractPrecision)
    (sched : HostSchedule) (hr : d.contr.rank = 1) (hs : d.contr.size ⟨0, by omega⟩ = K)
    (hl0 : ∀ j q, (d.lhsIdx j q 0).val = (j 0).val)
    (hl1 : ∀ j q, (d.lhsIdx j q 1).val = (j 1).val)
    (hl2 : ∀ j q, (d.lhsIdx j q 2).val = (j 2).val)
    (hl3 : ∀ j q, (d.lhsIdx j q 3).val = (q ⟨0, by omega⟩).val)
    (hr0 : ∀ j q, (d.rhsIdx j q 0).val = (j 0).val)
    (hr1 : ∀ j q, (d.rhsIdx j q 1).val = (j 1).val)
    (hr2 : ∀ j q, (d.rhsIdx j q 2).val = (q ⟨0, by omega⟩).val)
    (hr3 : ∀ j q, (d.rhsIdx j q 3).val = (j 3).val)
    (lhs : FVec Ideal ⟨4, ![A, B, a, K]⟩ φ₁) (rhs : FVec Ideal ⟨4, ![A, B, K, b]⟩ φ₂)
    (j : (⟨4, ![A, B, a, b]⟩ : Shape).Idx) :
    FloatOps.dotGeneral d prec sched lhs rhs j
      = ∑ k : Fin K, lhs (ix4 (j 0) (j 1) (j 2) k) * rhs (ix4 (j 0) (j 1) k (j 3)) :=
  dotGeneral_sum d prec sched K hr hs lhs rhs j (fun k => ix4 (j 0) (j 1) (j 2) k) (fun k => ix4 (j 0) (j 1) k (j 3))
    (fun q k hk => funext fun x => Fin.ext (by
      match x with
      | ⟨0, _⟩ => exact hl0 _ _
      | ⟨1, _⟩ => exact hl1 _ _
      | ⟨2, _⟩ => exact hl2 _ _
      | ⟨3, _⟩ => exact (hl3 _ _).trans hk))
    (fun q k hk => funext fun x => Fin.ext (by
      match x with
      | ⟨0, _⟩ => exact hr0 _ _
      | ⟨1, _⟩ => exact hr1 _ _
      | ⟨2, _⟩ => exact (hr2 _ _).trans hk
      | ⟨3, _⟩ => exact hr3 _ _))

/-- One batch axis, both operands contracted on their MIDDLE axis, `[B,K,a] × [B,K,b] → [B,a,b]` (a cross moment over the
    middle axis per batch entry): at `(p, r, c)` the sum over `k` of `lhs (p, k, r) · rhs (p, k, c)`. -/
theorem dotGeneral_ix3_mid {B a K b : Nat} {φ₁ φ₂ : FTy}
    (d : DotDims ⟨3, ![B, K, a]⟩ ⟨3, ![B, K, b]⟩ ⟨3, ![B, a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hl2 : ∀ j q, (d.lhsIdx j q 2).val = (j 1).val)
    (hr0 : ∀ j q, (d.rhsIdx j q 0).val = (j 0).val)
    (hr1 : ∀ j q, (d.rhsIdx j q 1).val = (q ⟨0, by omega⟩).val)
    (hr2 : ∀ j q, (d.rhsIdx j q 2).val = (j 2).val)
    (lhs : FVec Ideal ⟨3, ![B, K, a]⟩ φ₁) (rhs : FVec Ideal ⟨3, ![B, K, b]⟩ φ₂) (j : (⟨3, ![B, a, b]⟩ : Shape).Idx) :
    FloatOps.dotGeneral d prec sched lhs rhs j = ∑ k : Fin K, lhs (ix3 (j 0) k (j 1)) * rhs (ix3 (j 0) k (j 2)) :=
  dotGeneral_sum d prec sched K hr hs lhs rhs j (fun k => ix3 (j 0) k (j 1)) (fun k => ix3 (j 0) k (j 2))
    (fun q k hk => funext fun x => Fin.ext (by
      match x with
      | ⟨0, _⟩ => exact hl0 _ _
      | ⟨1, _⟩ => exact (hl1 _ _).trans hk
      | ⟨2, _⟩ => exact hl2 _ _))
    (fun q k hk => funext fun x => Fin.ext (by
      match x with
      | ⟨0, _⟩ => exact hr0 _ _
      | ⟨1, _⟩ => exact (hr1 _ _).trans hk
      | ⟨2, _⟩ => exact hr2 _ _))

end Cert.LibBatchDot

end
-- ==== Proof.RefSpec.lean ====
/-
  The reference's result as ONE function of its five arguments, index by index, over the extended reals.

  A [32, 256, 64, 64] array x is read as X n ch m (sample n, channel ch, position m = h * 64 + w); the 256 channels are
  16 groups of 16, channel (g, c) being g * 16 + c. Per group g the batch statistics (mean and covariance over all 32
  samples and 4096 positions) and per (g, n) the instance statistics (over the 4096 positions of sample n) are mixed by
  two pairs of weights (two softmaxes, kept as the array-level function softmax2), a multiple of the identity is added to the
  covariance, and the whitening matrix is five Newton-Schulz steps from the identity on the trace-normalized covariance,
  times the square root of the reciprocal trace. The tail from the mixed covariance on is stated for an ABSTRACT 16 × 16
  matrix (Mat), with no reference to x. Every operation is the program's own, in its own order and association: sums
  are written init + ∑ where the program reduces from an initial value, every constant is the bit pattern it is printed
  with, and a quotient is Ideal.div.
-/
import Idealize.ShloMosaic.PureOps.Ideal
import Idealize.ShloMosaic.PureOps.Ideal.Laws
import Idealize.ShloMosaic.Lib.ValueIdx

noncomputable section

open scoped BigOperators

namespace Cert.RefSpec

open Idealize.ShloMosaic Idealize.ShloMosaic.ValueIdx

/-- A 16 × 16 matrix over the extended reals. -/
abbrev Mat := Fin 16 → Fin 16 → EReal

/-! ## The softmax of a pair, as the array-level chain of operations -/

/-- The softmax of a two-element array: subtract the maximum (a reduction from -∞, then a maximum with -∞), exponentiate,
    divide by the sum (a reduction from 0). -/
def softmax2 (a : FVec Ideal ⟨1, ![2]⟩ .f32) : FVec Ideal ⟨1, ![2]⟩ .f32 :=
  Host.divf
    (Host.exp (subf a
      (broadcastInDim ⟨1, ![2]⟩ ![0] (show (⟨1, ![1]⟩ : Shape).BroadcastsInDim ⟨1, ![2]⟩ ![0] by decide)
        (broadcastInDim ⟨1, ![1]⟩ ![] (show (⟨0, ![]⟩ : Shape).BroadcastsInDim ⟨1, ![1]⟩ ![] by decide)
          (maximumf (constant (F := Ideal) ⟨0, ![]⟩ .f32 0xFF800000#32)
            (Host.reduce FloatOps.maximumf a (constant (F := Ideal) ⟨0, ![]⟩ .f32 0xFF800000#32)
              (show (⟨1, ![2]⟩ : Shape).ReducesTo [0] ⟨0, ![]⟩ by decide) (show 0 < (⟨0, ![]⟩ : Shape).numel by decide)))))))
    (broadcastInDim ⟨1, ![2]⟩ ![0] (show (⟨1, ![1]⟩ : Shape).BroadcastsInDim ⟨1, ![2]⟩ ![0] by decide)
      (broadcastInDim ⟨1, ![1]⟩ ![] (show (⟨0, ![]⟩ : Shape).BroadcastsInDim ⟨1, ![1]⟩ ![] by decide)
        (Host.reduceAdd
          (Host.exp (subf a
            (broadcastInDim ⟨1, ![2]⟩ ![0] (show (⟨1, ![1]⟩ : Shape).BroadcastsInDim ⟨1, ![2]⟩ ![0] by decide)
              (broadcastInDim ⟨1, ![1]⟩ ![] (show (⟨0, ![]⟩ : Shape).BroadcastsInDim ⟨1, ![1]⟩ ![] by decide)
                (maximumf (constant (F := Ideal) ⟨0, ![]⟩ .f32 0xFF800000#32)
                  (Host.reduce FloatOps.maximumf a (constant (F := Ideal) ⟨0, ![]⟩ .f32 0xFF800000#32)
                    (show (⟨1, ![2]⟩ : Shape).ReducesTo [0] ⟨0, ![]⟩ by decide)
                    (show 0 < (⟨0, ![]⟩ : Shape).numel by decide)))))))
          (constant (F := Ideal) ⟨0, ![]⟩ .f32 0x00000000#32)
          (show (⟨1, ![2]⟩ : Shape).ReducesTo [0] ⟨0, ![]⟩ by decide) (show 0 < (⟨0, ![]⟩ : Shape).numel by decide))))

/-! ## The tail, for an abstract matrix -/

/-- The identity matrix. -/
def eye : Mat := fun c d => if c = d then 1 else 0

/-- The mixed mean: the first weight times the batch mean plus the second times the instance mean. -/
def meanMix (mw : Fin 2 → EReal) (bn inn : EReal) : EReal := mw 0 * bn + mw 1 * inn

/-- The mixed covariance, plus 0x3727C5AC (about 1e-5) times the identity. -/
def covMix (vw : Fin 2 → EReal) (bn inn : Mat) : Mat :=
  fun c d => (vw 0 * bn c d + vw 1 * inn c d) + Ideal.ofBits .f32 0x3727C5AC#32 * eye c d

/-- The trace, as a sum from 0 over all entries with the off-diagonal ones replaced by 0. -/
def tr (M : Mat) : EReal :=
  Ideal.ofBits .f32 0x00000000#32 + ∑ c : Fin 16, ∑ d : Fin 16, if c = d then M c d else Ideal.ofBits .f32 0x00000000#32

/-- The reciprocal trace. -/
def rTr (M : Mat) : EReal := Ideal.div (Ideal.ofBits .f32 0x3F800000#32) (tr M)

/-- The trace-normalized matrix. -/
def covN (M : Mat) : Mat := fun c d => M c d * rTr M

/-- The matrix product. -/
def mmul (A B : Mat) : Mat := fun i k => ∑ j : Fin 16, A i j * B j k

/-- One Newton-Schulz step towards the inverse square root of C: 1.5 P - 0.5 ((P P) P) C. -/
def step (C P : Mat) : Mat :=
  fun i k => Ideal.ofBits .f32 0x3FC00000#32 * P i k - Ideal.ofBits .f32 0x3F000000#32 * mmul (mmul (mmul P P) P) C i k

/-- The whitening matrix of M: five steps from the identity on the normalized matrix, times the square root of the
    reciprocal trace. -/
def wmOf (M : Mat) : Mat :=
  fun c d => step (covN M) (step (covN M) (step (covN M) (step (covN M) (step (covN M) eye)))) c d * Ideal.sqrt (rTr M)

/-- The last line: scale and shift. -/
def outOf (xh w b : EReal) : EReal := xh * w + b

/-! ## The statistics of x -/

/-- Channel c of group g. -/
def chan (g c : Fin 16) : Fin 256 := ⟨g.val * 16 + c.val, by have := g.isLt; have := c.isLt; omega⟩

section Stats
variable (x : FVec Ideal ⟨4, ![32, 256, 64, 64]⟩ .f32)

/-- x at sample n, channel ch, position m = h * 64 + w. -/
def X (n : Fin 32) (ch : Fin 256) (m : Fin 4096) : EReal :=
  x (ix4 n ch ⟨m.val / 64, by have := m.isLt; omega⟩ ⟨m.val % 64, by omega⟩)

/-- Channel (g, c) over the whole batch, k = n * 4096 + m. -/
def Xbn (g c : Fin 16) (k : Fin 131072) : EReal :=
  X x ⟨k.val / 4096, by have := k.isLt; omega⟩ (chan g c) ⟨k.val % 4096, by omega⟩

/-- The batch mean of channel (g, c). -/
def meanBn (g c : Fin 16) : EReal :=
  Ideal.div (Ideal.ofBits .f32 0x00000000#32 + ∑ k : Fin 131072, Xbn x g c k) (Ideal.ofBits .f32 0x48000000#32)

/-- The batch covariance of group g. -/
def covBn (g : Fin 16) : Mat :=
  fun c d => Ideal.div (∑ k : Fin 131072, (Xbn x g c k - meanBn x g c) * (Xbn x g d k - meanBn x g d))
    (Ideal.ofBits .f32 0x48000000#32)

/-- The instance mean of channel (g, c) of sample n. -/
def meanIn (g : Fin 16) (n : Fin 32) (c : Fin 16) : EReal :=
  Ideal.div (Ideal.ofBits .f32 0x00000000#32 + ∑ m : Fin 4096, X x n (chan g c) m) (Ideal.ofBits .f32 0x45800000#32)

/-- The instance covariance of group g of sample n. -/
def covIn (g : Fin 16) (n : Fin 32) : Mat :=
  fun c d => Ideal.div (∑ m : Fin 4096, (X x n (chan g c) m - meanIn x g n c) * (X x n (chan g d) m - meanIn x g n d))
    (Ideal.ofBits .f32 0x45800000#32)

variable (mw vw : Fin 2 → EReal)

/-- The mixed mean of channel (g, c) of sample n. -/
def mean (g : Fin 16) (n : Fin 32) (c : Fin 16) : EReal := meanMix mw (meanBn x g c) (meanIn x g n c)

/-- The mixed, regularized covariance of group g of sample n. -/
def cov (g : Fin 16) (n : Fin 32) : Mat := covMix vw (covBn x g) (covIn x g n)

/-- The whitening matrix of group g of sample n. -/
def wm (g : Fin 16) (n : Fin 32) : Mat := wmOf (cov x vw g n)

/-- The whitened value. -/
def xhat (g : Fin 16) (n : Fin 32) (c : Fin 16) (m : Fin 4096) : EReal :=
  ∑ d : Fin 16, wm x vw g n c d * (X x n (chan g d) m - mean x mw g n d)

variable (weight bias : FVec Ideal ⟨1, ![256]⟩ .f32)

/-- The result at sample n, channel ch, position m. -/
def out (n : Fin 32) (ch : Fin 256) (m : Fin 4096) : EReal :=
  outOf (xhat x mw vw ⟨ch.val / 16, by have := ch.isLt; omega⟩ n ⟨ch.val % 16, by omega⟩ m) (weight (ix1 ch)) (bias (ix1 ch))

/-- The result as a [32, 256, 64, 64] array. -/
def outArr : FVec Ideal ⟨4, ![32, 256, 64, 64]⟩ .f32 :=
  fun i => out x mw vw weight bias (i 0) (i 1)
    ⟨(i 2).val * 64 + (i 3).val, by
      have h2 : (i 2).val < 64 := (i 2).isLt
      have h3 : (i 3).val < 64 := (i 3).isLt
      omega⟩

end Stats

end Cert.RefSpec

end
-- ==== Proof.HostMixAt.lean ====
/-
  The mixed mean and the mixed covariance read at an index: entry (g, n, c) of the mean array is the mixture of the batch
  mean of channel (g, c) and the instance mean at (g, n, c); entry (g, n, c, d) of the covariance array is the mixture of the
  batch covariance (by the law of total covariance, from the sums and the diagonal blocks) and the instance covariance, with
  ε on the diagonal.
-/
import proofs.«136164_j25769804234_2_alg».proof.Proof.HostMix
import proofs.«136164_j25769804234_2_alg».proof.Proof.LibBcast
import proofs.«136164_j25769804234_2_alg».proof.Proof.LibBatchDot
import proofs.«136164_j25769804234_2_alg».proof.Proof.RefSpec
import Idealize.ShloMosaic.Lib.IdealHost
import Idealize.ShloMosaic.Lib.Pipeline.Value
import Idealize.ShloMosaic.PureOps.Ideal.Laws

set_option maxRecDepth 16384

noncomputable section

namespace Cert.KernelIdeal.Mix

open Cert.KernelIdeal Cert.KernelIdeal.Gen Idealize.ShloMosaic Idealize.ShloMosaic.ValueIdx Idealize.ShloMosaic.TcCoe

/-- The one index of a rank-0 array sits at row-major position 0. -/
theorem rowMajor_rank0 : (S_.rowMajor ix0).val = 0 := by
  have h := (S_.rowMajor ix0).isLt
  have e : S_.numel = 1 := by decide
  omega

theorem sel0_at (v : FVec Ideal S2 .f32) : sel0 v ix0 = v (ix1 (0 : Fin 2)) := by
  unfold sel0
  refine (shapeCast_apply _ shapeCasts_S1_S_ ix0 (ix1 (0 : Fin 1)) ?_).trans ?_
  · rw [Shape.rowMajor_val_one, rowMajor_rank0]; rfl
  · exact extractStridedSlice_apply ![0] v slices_S2_S1_0 (ix1 (0 : Fin 1)) (ix1 (0 : Fin 2)) (fun a => by
      match a with
      | ⟨0, _⟩ => rfl)

theorem sel1_at (v : FVec Ideal S2 .f32) : sel1 v ix0 = v (ix1 (1 : Fin 2)) := by
  unfold sel1
  refine (shapeCast_apply _ shapeCasts_S1_S_ ix0 (ix1 (0 : Fin 1)) ?_).trans ?_
  · rw [Shape.rowMajor_val_one, rowMajor_rank0]; rfl
  · exact extractStridedSlice_apply ![1] v slices_S2_S1_1 (ix1 (0 : Fin 1)) (ix1 (1 : Fin 2)) (fun a => by
      match a with
      | ⟨0, _⟩ => rfl)

/-- The instance mean at (g, n, c). -/
theorem meanIn_at (S : FVec Ideal S16x32x16 .f32) (i : S16x32x16.Idx) :
    meanInArr S i = Ideal.div (S i) (Ideal.ofBits .f32 0x45800000#32) := by
  unfold meanInArr
  rw [hostDivf_apply, broadcastInDim_scalar_apply]
  rfl

/-- The batch mean of channel (g, c): the sums added over the 32 samples from zero, over 131072. -/
theorem meanBn_at (S : FVec Ideal S16x32x16 .f32) (g : Fin 16) (c : Fin 16) :
    meanBnArr S (ix3 g (0 : Fin 1) c)
      = Ideal.div (Ideal.ofBits .f32 0x00000000#32 + ∑ n' : Fin 32, S (ix3 g n' c)) (Ideal.ofBits .f32 0x48000000#32) := by
  unfold meanBnArr
  rw [hostDivf_apply, Cert.LibBcast.ac_a1c, broadcastInDim_scalar_apply, hostReduceAdd_apply,
    Ideal.hostReduceAdd_single reducesTo_S16x32x16_S16x16_d1 (by decide : S16x32x16.Reduces [1] S16x16)]
  congr 1
  congr 1
  exact Finset.sum_congr rfl fun k _ => congrArg S (funext fun a => Fin.ext (by
    match a with
    | ⟨0, _⟩ => rfl
    | ⟨1, _⟩ => rfl
    | ⟨2, _⟩ => rfl))

/-- The mixed mean at (g, n, c). -/
theorem mean_at (S v3 : FVec Ideal S16x32x16 .f32) (a1 : FVec Ideal S2 .f32) (g : Fin 16) (n : Fin 32) (c : Fin 16) :
    meanArr S v3 a1 (ix3 g n c) = Cert.RefSpec.meanMix (fun i => sm a1 (ix1 i))
      (Ideal.div (Ideal.ofBits .f32 0x00000000#32 + ∑ n' : Fin 32, S (ix3 g n' c)) (Ideal.ofBits .f32 0x48000000#32))
      (v3 (ix3 g n c)) := by
  unfold meanArr Cert.RefSpec.meanMix
  rw [addf_apply, mulf_apply, mulf_apply, broadcastInDim_scalar_apply, broadcastInDim_scalar_apply, sel0_at, sel1_at,
    Cert.LibBcast.a1c_abc, meanBn_at]

/-- The identity matrix the host builds (row number equal to column number, as a float) is 1 on the diagonal, 0 off it. -/
theorem eye_at (c d : Fin 16) : eyeArr (ix2 c d) = Cert.RefSpec.eye c d := by
  have key : ∀ c d : Fin 16, IntOp.cmpi .eq (IntOp.addi (BitVec.ofNat 32 c.val) 0#32) (BitVec.ofNat 32 d.val)
      = if c = d then 1#1 else 0#1 := by decide
  unfold eyeArr Cert.RefSpec.eye
  show FloatOps.uitofp (F := Ideal) .f32 (IntOp.cmpi .eq (IntOp.addi (BitVec.ofNat 32 c.val)
    (broadcastInDim S16x16 ![] bcast_S_S16x16 (constantI S_ 32 0#32) (ix2 c d))) (BitVec.ofNat 32 d.val)) = _
  rw [broadcastInDim_scalar_apply]
  show FloatOps.uitofp (F := Ideal) .f32 (IntOp.cmpi .eq (IntOp.addi (BitVec.ofNat 32 c.val) 0#32) (BitVec.ofNat 32 d.val)) = _
  rw [key]
  split
  · show (((1#1 : BitVec 1).toNat : ℝ) : EReal) = 1
    simp
  · show (((0#1 : BitVec 1).toNat : ℝ) : EReal) = 0
    simp

/-- The diagonal blocks with the sample axis second: entry (g, n, c, d) is entry (g, c, d, n) before the transpose. -/
theorem diag_at (v6 : FVec Ideal S16x16x16x32 .f32) (g : Fin 16) (n : Fin 32) (c d : Fin 16) :
    diagArr v6 (ix4 g n c d) = v6 (ix4 g c d n) := by
  unfold diagArr
  refine transpose_apply [0, 3, 1, 2] v6 transposes_S16x16x16x32_S16x32x16x16_0_3_1_2 (ix4 g n c d) (ix4 g c d n) fun b => ?_
  match b with
  | ⟨0, _⟩ => rfl
  | ⟨1, _⟩ => rfl
  | ⟨2, _⟩ => rfl
  | ⟨3, _⟩ => rfl

/-- The batch mean of channel (g, c) as the host computes it from the sums. -/
def mb (S : FVec Ideal S16x32x16 .f32) (g c : Fin 16) : EReal :=
  Ideal.div (Ideal.ofBits .f32 0x00000000#32 + ∑ n' : Fin 32, S (ix3 g n' c)) (Ideal.ofBits .f32 0x48000000#32)

/-- The batch covariance at (g, c, d): the diagonal blocks added over the samples from zero, plus 4096 times the cross
    moment over the samples of the instance means' deviations from the batch mean, over 131072. -/
theorem covBn_at (D : FVec Ideal S16x32x16x16 .f32) (S v3 : FVec Ideal S16x32x16 .f32) (g c d : Fin 16) :
    covBnArr D S v3 (ix3 g c d)
      = Ideal.div ((Ideal.ofBits .f32 0x00000000#32 + ∑ n' : Fin 32, D (ix4 g n' c d))
          + Ideal.ofBits .f32 0x45800000#32 * ∑ n' : Fin 32, (v3 (ix3 g n' c) - mb S g c) * (v3 (ix3 g n' d) - mb S g d))
        (Ideal.ofBits .f32 0x48000000#32) := by
  unfold covBnArr
  rw [hostDivf_apply, broadcastInDim_scalar_apply, addf_apply, mulf_apply, broadcastInDim_scalar_apply, hostReduceAdd_apply,
    Ideal.hostReduceAdd_single reducesTo_S16x32x16x16_S16x16x16_d1 (by decide : S16x32x16x16.Reduces [1] S16x16x16)]
  simp only [Host.dotGeneral]
  rw [Cert.LibBatchDot.dotGeneral_ix3_mid (B := 16) (a := 16) (K := 32) (b := 16) _ none _ rfl rfl
    (fun _ _ => rfl) (fun _ _ => rfl) (fun _ _ => rfl) (fun _ _ => rfl) (fun _ _ => rfl) (fun _ _ => rfl)]
  congr 1
  congr 1
  · congr 1
    exact Finset.sum_congr rfl fun k _ => congrArg D (funext fun a => Fin.ext (by
      match a with
      | ⟨0, _⟩ => rfl
      | ⟨1, _⟩ => rfl
      | ⟨2, _⟩ => rfl
      | ⟨3, _⟩ => rfl))
  · congr 1
    refine Finset.sum_congr rfl fun k _ => ?_
    rw [subf_apply, subf_apply, Cert.LibBcast.a1c_abc, Cert.LibBcast.a1c_abc, meanBn_at, meanBn_at]
    rfl

/-- The mixed covariance at (g, n, c, d), with the host's own batch covariance and instance covariance. -/
theorem cov_at (v6 : FVec Ideal S16x16x16x32 .f32) (S v3 : FVec Ideal S16x32x16 .f32) (a2 : FVec Ideal S2 .f32)
    (g : Fin 16) (n : Fin 32) (c d : Fin 16) :
    covArr v6 S v3 a2 (ix4 g n c d) = Cert.RefSpec.covMix (fun i => sm a2 (ix1 i))
      (fun c d => Ideal.div ((Ideal.ofBits .f32 0x00000000#32 + ∑ n' : Fin 32, v6 (ix4 g c d n'))
          + Ideal.ofBits .f32 0x45800000#32 * ∑ n' : Fin 32, (v3 (ix3 g n' c) - mb S g c) * (v3 (ix3 g n' d) - mb S g d))
        (Ideal.ofBits .f32 0x48000000#32))
      (fun c d => Ideal.div (v6 (ix4 g c d n)) (Ideal.ofBits .f32 0x45800000#32)) c d := by
  unfold covArr Cert.RefSpec.covMix
  rw [addf_apply, addf_apply, mulf_apply, mulf_apply, broadcastInDim_scalar_apply, broadcastInDim_scalar_apply,
    sel0_at, sel1_at, Cert.LibBcast.a1cd_abcd, Cert.LibBcast.acd_a1cd, covBn_at, hostDivf_apply,
    broadcastInDim_scalar_apply, diag_at, Cert.LibBcast.u11cd_abcd, mulf_apply, broadcastInDim_scalar_apply,
    Cert.LibBcast.cd_11cd, eye_at]
  simp only [diag_at]
  rfl

end Cert.KernelIdeal.Mix

end
-- ==== Proof.KSpec.lean ====
/-
  The statistics as the kernel program computes them, over the same reading X of the input as the reference's
  specification: the row sums, each row with its own mean (the sum times 1/4096) taken off, the Gram entries of a sample's
  centred rows, the instance mean and covariance from those, the batch mean from the row sums added over the samples, and
  the batch covariance by the law of total covariance.
-/
import proofs.«136164_j25769804234_2_alg».proof.Proof.RefSpec

noncomputable section

open scoped BigOperators

namespace Cert.KSpec

open Idealize.ShloMosaic Idealize.ShloMosaic.ValueIdx Cert.RefSpec

variable (x : FVec Ideal ⟨4, ![32, 256, 64, 64]⟩ .f32)

/-- The sum of the row of sample n, channel (g, c). -/
def kS (g : Fin 16) (n : Fin 32) (c : Fin 16) : EReal := ∑ m : Fin 4096, X x n (chan g c) m

/-- The row with its own mean taken off, at position k. -/
def kCen (g : Fin 16) (n : Fin 32) (c : Fin 16) (k : Fin 4096) : EReal :=
  X x n (chan g c) k - kS x g n c * Ideal.ofBits .f32 0x39800000#32

/-- The Gram entry of sample n's centred rows c and d. -/
def kD (g : Fin 16) (n : Fin 32) (c d : Fin 16) : EReal := ∑ k : Fin 4096, kCen x g n c k * kCen x g n d k

def kMeanIn (g : Fin 16) (n : Fin 32) (c : Fin 16) : EReal := Ideal.div (kS x g n c) (Ideal.ofBits .f32 0x45800000#32)

def kMb (g c : Fin 16) : EReal :=
  Ideal.div (Ideal.ofBits .f32 0x00000000#32 + ∑ n : Fin 32, kS x g n c) (Ideal.ofBits .f32 0x48000000#32)

def kCovIn (g : Fin 16) (n : Fin 32) : Mat := fun c d => Ideal.div (kD x g n c d) (Ideal.ofBits .f32 0x45800000#32)

def kCovBn (g : Fin 16) : Mat := fun c d =>
  Ideal.div ((Ideal.ofBits .f32 0x00000000#32 + ∑ n : Fin 32, kD x g n c d)
      + Ideal.ofBits .f32 0x45800000#32 * ∑ n : Fin 32, (kMeanIn x g n c - kMb x g c) * (kMeanIn x g n d - kMb x g d))
    (Ideal.ofBits .f32 0x48000000#32)

end Cert.KSpec

end
-- ==== Proof.KernelBridge.lean ====
/-
  The kernel program's arrays in the terms of the specification: the reshaped input is the reading X; the sums array
  holds the row sums; the gathered diagonal blocks hold the Gram entries of a sample's centred rows; the mixed means and
  the mixed covariances are the mixtures of the kernel's own forms of the statistics.
-/
import proofs.«136164_j25769804234_2_alg».proof.Proof.KernelValue
import proofs.«136164_j25769804234_2_alg».proof.Proof.HostMixAt
import proofs.«136164_j25769804234_2_alg».proof.Proof.KSpec

set_option maxRecDepth 16384

noncomputable section

namespace Cert.KernelIdeal.Value

open Cert.KernelIdeal Cert.KernelIdeal.Gen Idealize.ShloMosaic Idealize.ShloMosaic.ValueIdx Idealize.ShloMosaic.TcCoe
open Idealize.SL.Sem
open Cert.KernelIdeal.Mix (meanArr covArr meanInArr eyeArr sm mb mean_at cov_at meanIn_at)
open Cert.KernelIdeal.Diag (gathered gathered_at)
open Cert.KernelIdeal.Stats (sumsArr gramArr row cen)
open Cert.RefSpec (X Mat)
open Cert.KSpec

variable (m : (ℓ : Loc nD τ sig) → Buf (Elt Ideal) ℓ) (c : Dev nD)

/-- The input argument. -/
abbrev xArg : FVec Ideal ⟨4, ![32, 256, 64, 64]⟩ .f32 := m ((c : Thread nD τ).loc main_arg0)

/-- The reshaped input at (n, ch, k) is the reading X. -/
theorem x2_at (n : Fin 32) (ch : Fin 256) (k : Fin 4096) : x2 m c (ix3 n ch k) = X (xArg m c) n ch k := by
  unfold x2 X
  refine shapeCast_apply _ shapeCasts_S32x256x64x64_S32x256x4096 (ix3 n ch k) _ ?_
  rw [Shape.rowMajor_val_four, Shape.rowMajor_val_three]
  show ((n.val * 256 + ch.val) * 64 + k.val / 64) * 64 + k.val % 64 = (n.val * 256 + ch.val) * 4096 + k.val
  omega

theorem row_eq (g : Fin 16) (n : Fin 32) (ch : Fin 16) :
    row (x2 m c) g n ch = fun k => X (xArg m c) n (Cert.RefSpec.chan g ch) k := by
  funext k
  exact x2_at m c n _ k

/-- The sums array holds the row sums. -/
theorem S_at (g : Fin 16) (n : Fin 32) (ch : Fin 16) : SS m c (ix3 g n ch) = kS (xArg m c) g n ch := by
  show ∑ mm : Fin 4096, row (x2 m c) g n ch mm = _
  rw [row_eq]; rfl

theorem cen_eq (g : Fin 16) (n : Fin 32) (ch : Fin 16) (k : Fin 4096) :
    cen (row (x2 m c) g n ch) k = kCen (xArg m c) g n ch k := by
  unfold cen kCen kS
  rw [row_eq]

/-- The gathered diagonal blocks hold the Gram entries of a sample's centred rows. -/
theorem gath_at (g ch d : Fin 16) (n : Fin 32) :
    gathered (gramArr (x2 m c)) (ix4 g ch d n) = kD (xArg m c) g n ch d := by
  have hr : (⟨n.val * 16 + ch.val, by have := n.isLt; have := ch.isLt; omega⟩ : Fin 512).val = n.val * 16 + ch.val := rfl
  have hs : (⟨n.val * 16 + d.val, by have := n.isLt; have := d.isLt; omega⟩ : Fin 512).val = n.val * 16 + d.val := rfl
  rw [gathered_at _ g ch d n _ _ hr hs]
  unfold gramArr kD
  have e1 : (⟨(n.val * 16 + ch.val) / 16, by have := n.isLt; have := ch.isLt; omega⟩ : Fin 32) = n :=
    Fin.ext (by show (n.val * 16 + ch.val) / 16 = n.val; have := ch.isLt; omega)
  have e2 : (⟨(n.val * 16 + ch.val) % 16, by omega⟩ : Fin 16) = ch :=
    Fin.ext (by show (n.val * 16 + ch.val) % 16 = ch.val; have := ch.isLt; omega)
  have e3 : (⟨(n.val * 16 + d.val) / 16, by have := n.isLt; have := d.isLt; omega⟩ : Fin 32) = n :=
    Fin.ext (by show (n.val * 16 + d.val) / 16 = n.val; have := d.isLt; omega)
  have e4 : (⟨(n.val * 16 + d.val) % 16, by omega⟩ : Fin 16) = d :=
    Fin.ext (by show (n.val * 16 + d.val) % 16 = d.val; have := d.isLt; omega)
  show ∑ k : Fin 4096, cen (row (x2 m c) g ⟨(n.val * 16 + ch.val) / 16, _⟩ ⟨(n.val * 16 + ch.val) % 16, _⟩) k
      * cen (row (x2 m c) g ⟨(n.val * 16 + d.val) / 16, _⟩ ⟨(n.val * 16 + d.val) % 16, _⟩) k = _
  rw [e1, e2, e3, e4]
  exact Finset.sum_congr rfl fun k _ => by rw [cen_eq, cen_eq]

theorem v3_at (g : Fin 16) (n : Fin 32) (ch : Fin 16) : meanInArr (SS m c) (ix3 g n ch) = kMeanIn (xArg m c) g n ch := by
  rw [meanIn_at, S_at]; rfl

theorem mb_eq (g ch : Fin 16) : mb (SS m c) g ch = kMb (xArg m c) g ch := by
  unfold mb kMb
  simp only [S_at]

/-- The mixed mean at (g, n, c). -/
theorem MEAN_at (g : Fin 16) (n : Fin 32) (ch : Fin 16) :
    MEAN m c (ix3 g n ch) = Cert.RefSpec.meanMix (fun i => sm (m ((c : Thread nD τ).loc main_arg1)) (ix1 i))
      (kMb (xArg m c) g ch) (kMeanIn (xArg m c) g n ch) := by
  refine (mean_at (SS m c) (meanInArr (SS m c)) (m ((c : Thread nD τ).loc main_arg1)) g n ch).trans ?_
  rw [v3_at]
  show Cert.RefSpec.meanMix _ (mb (SS m c) g ch) _ = _
  rw [mb_eq]

/-- The mixed covariance at (g, n). -/
theorem COV_at (g : Fin 16) (n : Fin 32) (ch d : Fin 16) :
    COV m c (ix4 g n ch d) = Cert.RefSpec.covMix (fun i => sm (m ((c : Thread nD τ).loc main_arg2)) (ix1 i))
      (kCovBn (xArg m c) g) (kCovIn (xArg m c) g n) ch d := by
  refine (cov_at (gathered (gramArr (x2 m c))) (SS m c) (meanInArr (SS m c)) (m ((c : Thread nD τ).loc main_arg2)) g n ch d).trans ?_
  unfold kCovBn kCovIn
  simp only [gath_at, v3_at, mb_eq]

end Cert.KernelIdeal.Value

end
-- ==== Proof.LibTrail2.lean ====
/-
  A host reduction over the two trailing axes of a rank-4 array, read at the ideal values: the operand indices that
  reduce to the leading pair (p, q) are exactly the indices (p, q, k₀, k₁), so the float sum over those axes is the initial
  value plus the iterated sum over the two trailing extents of the operand at (p, q, k₀, k₁).
-/
import Idealize.ShloMosaic.Lib.ValueIdx
import Idealize.ShloMosaic.Lib.IdealHost
import Idealize.ShloMosaic.PureOps.Ideal.Laws
import Idealize.ShloMosaic.PureOps.Reduce

noncomputable section

namespace Cert.LibTrail2

open Idealize.ShloMosaic Idealize.ShloMosaic.ValueIdx

variable {m n a b : Nat}

/-- The index (p, q, k₀, k₁) of the rank-4 array. -/
abbrev ins (p : Fin m) (q : Fin n) (k : (⟨2, ![a, b]⟩ : Shape).Idx) : (⟨4, ![m, n, a, b]⟩ : Shape).Idx :=
  ix4 p q (k 0) (k 1)

/-- The two trailing coordinates of an index of the rank-4 array. -/
abbrev tail2 (i : (⟨4, ![m, n, a, b]⟩ : Shape).Idx) : (⟨2, ![a, b]⟩ : Shape).Idx := ix2 (i 2) (i 3)

theorem drop_val0 (h : (⟨4, ![m, n, a, b]⟩ : Shape).ReducesTo [2, 3] ⟨2, ![m, n]⟩)
    (i : (⟨4, ![m, n, a, b]⟩ : Shape).Idx) : (h.drop i 0 : Nat) = (i 0 : Nat) :=
  h.drop_apply_val_of_eq i 0 0 (of_decide_eq_true rfl) (of_decide_eq_true rfl)

theorem drop_val1 (h : (⟨4, ![m, n, a, b]⟩ : Shape).ReducesTo [2, 3] ⟨2, ![m, n]⟩)
    (i : (⟨4, ![m, n, a, b]⟩ : Shape).Idx) : (h.drop i 1 : Nat) = (i 1 : Nat) :=
  h.drop_apply_val_of_eq i 1 1 (of_decide_eq_true rfl) (of_decide_eq_true rfl)

theorem drop_ins (h : (⟨4, ![m, n, a, b]⟩ : Shape).ReducesTo [2, 3] ⟨2, ![m, n]⟩) (p : Fin m) (q : Fin n)
    (k : (⟨2, ![a, b]⟩ : Shape).Idx) : h.drop (ins p q k) = ix2 p q := by
  funext e
  match e with
  | ⟨0, _⟩ => exact Fin.ext (drop_val0 h (ins p q k))
  | ⟨1, _⟩ => exact Fin.ext (drop_val1 h (ins p q k))

theorem ins_tail2_of_drop (h : (⟨4, ![m, n, a, b]⟩ : Shape).ReducesTo [2, 3] ⟨2, ![m, n]⟩) (p : Fin m) (q : Fin n)
    (i : (⟨4, ![m, n, a, b]⟩ : Shape).Idx) (hi : h.drop i = ix2 p q) : ins p q (tail2 i) = i := by
  have h0 : (i 0 : Nat) = (p : Nat) := by rw [← drop_val0 h i, hi]; rfl
  have h1 : (i 1 : Nat) = (q : Nat) := by rw [← drop_val1 h i, hi]; rfl
  funext e
  match e with
  | ⟨0, _⟩ => exact Fin.ext h0.symm
  | ⟨1, _⟩ => exact Fin.ext h1.symm
  | ⟨2, _⟩ => rfl
  | ⟨3, _⟩ => rfl

theorem fiber_eq_image (h : (⟨4, ![m, n, a, b]⟩ : Shape).ReducesTo [2, 3] ⟨2, ![m, n]⟩) (p : Fin m) (q : Fin n) :
    (Finset.univ.filter fun i => h.drop i = ix2 p q) = Finset.univ.image (ins (a := a) (b := b) p q) := by
  ext i
  simp only [Finset.mem_filter, Finset.mem_univ, true_and, Finset.mem_image]
  constructor
  · intro hi; exact ⟨tail2 i, ins_tail2_of_drop h p q i hi⟩
  · rintro ⟨k, rfl⟩; exact drop_ins h p q k

theorem ins_injective (p : Fin m) (q : Fin n) : Function.Injective (ins (a := a) (b := b) p q) := by
  intro k k' hk
  have e : tail2 (ins p q k) = tail2 (ins p q k') := congrArg tail2 hk
  exact (eq_ix2 k).trans (e.trans (eq_ix2 k').symm)

/-- The host's float sum over the two trailing axes at (p, q): the initial value plus the iterated sum. -/
theorem hostReduceAdd_trail2 (h : (⟨4, ![m, n, a, b]⟩ : Shape).ReducesTo [2, 3] ⟨2, ![m, n]⟩)
    (x : (⟨4, ![m, n, a, b]⟩ : Shape).Idx → EReal) (init : EReal) (p : Fin m) (q : Fin n) :
    Ideal.hostReduceAdd h x init (ix2 p q) = init + ∑ c : Fin a, ∑ d : Fin b, x (ix4 p q c d) := by
  unfold Ideal.hostReduceAdd
  rw [fiber_eq_image h p q, Finset.sum_image fun k _ k' _ hk => ins_injective p q hk, sum_idx2]
  rfl

/-- The same for the printed operation. -/
theorem reduceAdd_trail2 {φ : FTy} {u : Shape} (x : FVec Ideal ⟨4, ![m, n, a, b]⟩ φ) (init : u.Idx → Ideal φ)
    (h : (⟨4, ![m, n, a, b]⟩ : Shape).ReducesTo [2, 3] ⟨2, ![m, n]⟩) (hu : 0 < u.numel) (p : Fin m) (q : Fin n) :
    Host.reduceAdd (F := Ideal) x init h hu (ix2 p q)
      = init (Shape.Idx.first hu) + ∑ c : Fin a, ∑ d : Fin b, x (ix4 p q c d) :=
  hostReduceAdd_trail2 h x (init (Shape.Idx.first hu)) p q

end Cert.LibTrail2

end
-- ==== Proof.HostWhitenAt.lean ====
/-
  The whitening matrices read per (group, sample): the 16 × 16 matrix the arrays hold at (g, n) goes through the trace, the
  normalization, the five Newton-Schulz steps and the final scaling exactly as an abstract 16 × 16 matrix does.
-/
import proofs.«136164_j25769804234_2_alg».proof.Proof.HostWhiten
import proofs.«136164_j25769804234_2_alg».proof.Proof.HostMixAt
import proofs.«136164_j25769804234_2_alg».proof.Proof.LibTrail2

set_option maxRecDepth 16384

noncomputable section

namespace Cert.KernelIdeal.Whiten

open Cert.KernelIdeal Cert.KernelIdeal.Gen Idealize.ShloMosaic Idealize.ShloMosaic.ValueIdx Idealize.ShloMosaic.TcCoe
open Cert.KernelIdeal.Mix (cst eyeArr eye_at)
open Cert.RefSpec (Mat)

/-- The 16 × 16 matrix an array of matrices holds at (group, sample). -/
def matAt (A : FVec Ideal S16x32x16x16 .f32) (g : Fin 16) (n : Fin 32) : Mat := fun c d => A (ix4 g n c d)

/-- The trace the host computes at (g, n) is the trace of the matrix held there. -/
theorem trace_at (cov : FVec Ideal S16x32x16x16 .f32) (g : Fin 16) (n : Fin 32) :
    traceArr cov (ix2 g n) = Cert.RefSpec.tr (matAt cov g n) := by
  have key : ∀ c d : Fin 16, IntOp.cmpi .eq (IntOp.addi (BitVec.ofNat 32 c.val) 0#32) (BitVec.ofNat 32 d.val)
      = if c = d then 1#1 else 0#1 := by decide
  unfold traceArr Cert.RefSpec.tr
  rw [Cert.LibTrail2.reduceAdd_trail2]
  refine congrArg₂ (· + ·) rfl (Finset.sum_congr rfl fun c _ => Finset.sum_congr rfl fun d _ => ?_)
  rw [select_apply, Cert.LibBcast.cd_abcd, broadcastInDim_scalar_apply]
  show Scalar.select (IntOp.cmpi .eq (IntOp.addi (BitVec.ofNat 32 c.val)
    (broadcastInDim S16x16 ![] bcast_S_S16x16 (constantI S_ 32 0#32) (ix2 c d))) (BitVec.ofNat 32 d.val)) _ _ = _
  rw [broadcastInDim_scalar_apply]
  show Scalar.select (IntOp.cmpi .eq (IntOp.addi (BitVec.ofNat 32 c.val) 0#32) (BitVec.ofNat 32 d.val)) _ _ = _
  rw [key]
  split
  · rw [select_one]; rfl
  · rw [select_zero]; rfl

theorem spread_at (v : FVec Ideal S16x32 .f32) (g : Fin 16) (n : Fin 32) (c d : Fin 16) :
    spread v (ix4 g n c d) = v (ix2 g n) := by
  unfold spread
  rw [Cert.LibBcast.ab11_abcd, Cert.LibBcast.ab_ab11]

theorem rTr_at (tr : FVec Ideal S16x32 .f32) (g : Fin 16) (n : Fin 32) :
    rTrArr tr (ix2 g n) = Ideal.div (Ideal.ofBits .f32 0x3F800000#32) (tr (ix2 g n)) := by
  unfold rTrArr
  rw [hostDivf_apply, broadcastInDim_scalar_apply]
  rfl

/-- The normalized covariance at (g, n) is the normalization of the matrix held there. -/
theorem covN_at (cov : FVec Ideal S16x32x16x16 .f32) (g : Fin 16) (n : Fin 32) :
    matAt (covNArr cov (traceArr cov)) g n = Cert.RefSpec.covN (matAt cov g n) := by
  funext c d
  unfold matAt covNArr Cert.RefSpec.covN Cert.RefSpec.rTr
  rw [mulf_apply, spread_at, rTr_at, trace_at]
  rfl

theorem P0_at (g : Fin 16) (n : Fin 32) : matAt (P0Arr eyeArr) g n = Cert.RefSpec.eye := by
  funext c d
  unfold matAt P0Arr
  rw [Cert.LibBcast.cd_abcd, eye_at]

/-- The product carried along (group, sample) is, at (g, n), the product of the two matrices held there. -/
theorem dot4_at (l r : FVec Ideal S16x32x16x16 .f32) (g : Fin 16) (n : Fin 32) :
    matAt (dot4 l r) g n = Cert.RefSpec.mmul (matAt l g n) (matAt r g n) := by
  funext i k
  unfold matAt Cert.RefSpec.mmul
  simp only [dot4, Host.dotGeneral]
  exact Cert.LibBatchDot.dotGeneral_ix4 (A := 16) (B := 32) (a := 16) (K := 16) (b := 16) _ none _ rfl rfl
    (fun _ _ => rfl) (fun _ _ => rfl) (fun _ _ => rfl) (fun _ _ => rfl) (fun _ _ => rfl) (fun _ _ => rfl) (fun _ _ => rfl)
    (fun _ _ => rfl) l r (ix4 g n i k)

/-- One step at (g, n) is one step on the matrices held there. -/
theorem step_at (C P : FVec Ideal S16x32x16x16 .f32) (g : Fin 16) (n : Fin 32) :
    matAt (stepArr C P) g n = Cert.RefSpec.step (matAt C g n) (matAt P g n) := by
  funext i k
  have h3 : matAt (dot4 (dot4 (dot4 P P) P) C) g n
      = Cert.RefSpec.mmul (Cert.RefSpec.mmul (Cert.RefSpec.mmul (matAt P g n) (matAt P g n)) (matAt P g n)) (matAt C g n) := by
    rw [dot4_at, dot4_at, dot4_at]
  unfold Cert.RefSpec.step
  rw [← h3]
  unfold matAt stepArr
  rw [subf_apply, mulf_apply, mulf_apply, broadcastInDim_scalar_apply, broadcastInDim_scalar_apply]
  rfl

/-- The whitening matrix at (g, n) is the whitening matrix of the covariance held there. -/
theorem wm_at (cov : FVec Ideal S16x32x16x16 .f32) (g : Fin 16) (n : Fin 32) :
    matAt (wmArr cov (traceArr cov) eyeArr) g n = Cert.RefSpec.wmOf (matAt cov g n) := by
  funext c d
  have h5 : matAt (stepArr (covNArr cov (traceArr cov)) (stepArr (covNArr cov (traceArr cov)) (stepArr (covNArr cov (traceArr cov))
      (stepArr (covNArr cov (traceArr cov)) (stepArr (covNArr cov (traceArr cov)) (P0Arr eyeArr)))))) g n
      = Cert.RefSpec.step (Cert.RefSpec.covN (matAt cov g n)) (Cert.RefSpec.step (Cert.RefSpec.covN (matAt cov g n))
          (Cert.RefSpec.step (Cert.RefSpec.covN (matAt cov g n)) (Cert.RefSpec.step (Cert.RefSpec.covN (matAt cov g n))
            (Cert.RefSpec.step (Cert.RefSpec.covN (matAt cov g n)) Cert.RefSpec.eye)))) := by
    rw [step_at, step_at, step_at, step_at, step_at, covN_at, P0_at]
  unfold Cert.RefSpec.wmOf
  rw [← h5]
  unfold Cert.RefSpec.rTr
  rw [← trace_at, ← rTr_at]
  show wmArr cov (traceArr cov) eyeArr (ix4 g n c d) = _
  unfold wmArr
  rw [mulf_apply, spread_at]
  rfl

end Cert.KernelIdeal.Whiten

end
-- ==== Proof.BlockDiag.lean ====
/-
  The block-diagonal whitening matrices read at an index. Sixteen samples' 16 × 16 matrices sit on the diagonal of a
  256 × 256 matrix: with row `r = 16 p + c` and column `s = 16 q + d`, entry (g, h, r, s) is entry (c, d) of the matrix of sample
  `16 h + p` of group g when p = q, and zero times it otherwise — the entry times the identity's entry (p, q).
-/
import proofs.«136164_j25769804234_2_alg».proof.Proof.HostWhitenAt
import Idealize.ShloMosaic.Lib.ValueIdxRank6

set_option maxRecDepth 16384

noncomputable section

namespace Cert.KernelIdeal.Whiten

open Cert.KernelIdeal Cert.KernelIdeal.Gen Idealize.ShloMosaic Idealize.ShloMosaic.ValueIdx Idealize.ShloMosaic.TcCoe
open Cert.KernelIdeal.Mix (eyeArr eye_at)

/-- A 16 × 16 matrix placed on axes (2, 4) of [1, 1, 16, 1, 16, 1]. -/
theorem bcast_24 (e : FVec Ideal S16x16 .f32) (p q : Fin 16) :
    broadcastInDim S1x1x16x1x16x1 ![2, 4] bcast_S16x16_S1x1x16x1x16x1_2_4 e
      (ix6 (0 : Fin 1) (0 : Fin 1) p (0 : Fin 1) q (0 : Fin 1)) = e (ix2 p q) := by
  refine broadcastInDim_apply ![2, 4] bcast_S16x16_S1x1x16x1x16x1_2_4 e
    (ix6 (0 : Fin 1) (0 : Fin 1) p (0 : Fin 1) q (0 : Fin 1)) (ix2 p q) fun a => ?_
  match a with
  | ⟨0, _⟩ => rfl
  | ⟨1, _⟩ => rfl

theorem bd_at (wm : FVec Ideal S16x32x16x16 .f32) (g : Fin 16) (h : Fin 2) (p c q d : Fin 16) (r s : Fin 256) (n : Fin 32)
    (hr : r.val = p.val * 16 + c.val) (hs : s.val = q.val * 16 + d.val) (hn : n.val = h.val * 16 + p.val) :
    bdArr wm (ix4 g h r s) = wm (ix4 g n c d) * Cert.RefSpec.eye p q := by
  unfold bdArr
  refine (shapeCast_apply _ shapeCasts_S16x2x16x16x16x16_S16x2x256x256 (ix4 g h r s) (ix6 g h p c q d) ?_).trans ?_
  · rw [Shape.rowMajor_val_six, Shape.rowMajor_val_four]
    show ((((g.val * 2 + h.val) * 16 + p.val) * 16 + c.val) * 16 + q.val) * 16 + d.val = ((g.val * 2 + h.val) * 256 + r.val) * 256 + s.val
    omega
  · rw [mulf_apply]
    congr 1
    · refine (broadcastInDim_apply ![0, 1, 2, 3, 4, 5] bcast_S16x2x16x16x1x16_S16x2x16x16x16x16_0_1_2_3_4_5 _ (ix6 g h p c q d)
        (ix6 g h p c (0 : Fin 1) d) fun a => ?_).trans ?_
      · match a with
        | ⟨0, _⟩ => rfl
        | ⟨1, _⟩ => rfl
        | ⟨2, _⟩ => rfl
        | ⟨3, _⟩ => rfl
        | ⟨4, _⟩ => rfl
        | ⟨5, _⟩ => rfl
      · refine (broadcastInDim_apply ![0, 1, 2, 3, 5] bcast_S16x2x16x16x16_S16x2x16x16x1x16_0_1_2_3_5 _ (ix6 g h p c (0 : Fin 1) d)
          (ix5 g h p c d) fun a => ?_).trans ?_
        · match a with
          | ⟨0, _⟩ => rfl
          | ⟨1, _⟩ => rfl
          | ⟨2, _⟩ => rfl
          | ⟨3, _⟩ => rfl
          | ⟨4, _⟩ => rfl
        · refine shapeCast_apply wm shapeCasts_S16x32x16x16_S16x2x16x16x16 (ix5 g h p c d) (ix4 g n c d) ?_
          rw [Shape.rowMajor_val_four, Shape.rowMajor_val_five]
          show ((g.val * 32 + n.val) * 16 + c.val) * 16 + d.val = (((g.val * 2 + h.val) * 16 + p.val) * 16 + c.val) * 16 + d.val
          omega
    · refine (broadcastInDim_apply ![0, 1, 2, 3, 4, 5] bcast_S1x1x16x1x16x1_S16x2x16x16x16x16_0_1_2_3_4_5 _ (ix6 g h p c q d)
        (ix6 (0 : Fin 1) (0 : Fin 1) p (0 : Fin 1) q (0 : Fin 1)) fun a => ?_).trans ?_
      · match a with
        | ⟨0, _⟩ => rfl
        | ⟨1, _⟩ => rfl
        | ⟨2, _⟩ => rfl
        | ⟨3, _⟩ => rfl
        | ⟨4, _⟩ => rfl
        | ⟨5, _⟩ => rfl
      · exact (bcast_24 eyeArr p q).trans (eye_at p q)

end Cert.KernelIdeal.Whiten

end
-- ==== Proof.LibVariance.lean ====
/-
  The law of total covariance for finitely many samples of equally many positions, over the reals, and the collapse of a
  product with a block-diagonal matrix. With `μ n` the mean of sample `n` over its positions, the cross moment of two
  families about ANY two centres `a`, `b` splits into the within-sample cross moments about the sample means plus the
  number of positions times the cross moment of the sample means about `a`, `b`: the mixed terms vanish because a sample's
  deviations from its own mean sum to zero. (With `a`, `b` the grand means this is the usual statement; nothing in the
  proof uses that.)
-/
import Mathlib.Algebra.BigOperators.Field
import Mathlib.Data.Real.Basic
import Mathlib.Tactic.Ring
import Mathlib.Tactic.FieldSimp

namespace Cert.LibVariance

open Finset

variable {N M : Type*} [Fintype N] [Fintype M]

/-- A sample's deviations from its own mean sum to zero. -/
theorem sum_sub_mean (x : M → ℝ) (c : ℝ) (hc : c ≠ 0) (hcard : (Fintype.card M : ℝ) = c) :
    ∑ m, (x m - (∑ m', x m') / c) = 0 := by
  rw [Finset.sum_sub_distrib, Finset.sum_const, Finset.card_univ, nsmul_eq_mul, hcard]
  field_simp
  ring

/-- Within one sample: the cross moment about `a`, `b` is the cross moment about the sample's own means plus the number
    of positions times the product of the means' deviations. -/
theorem sum_mul_split (x y : M → ℝ) (a b c : ℝ) (hc : c ≠ 0) (hcard : (Fintype.card M : ℝ) = c) :
    ∑ m, (x m - a) * (y m - b)
      = ∑ m, (x m - (∑ m', x m') / c) * (y m - (∑ m', y m') / c)
        + c * (((∑ m', x m') / c - a) * ((∑ m', y m') / c - b)) := by
  set μ := (∑ m', x m') / c with hμ
  set ν := (∑ m', y m') / c with hν
  have hx : ∑ m, (x m - μ) = 0 := sum_sub_mean x c hc hcard
  have hy : ∑ m, (y m - ν) = 0 := sum_sub_mean y c hc hcard
  have key : ∀ m, (x m - a) * (y m - b)
      = (x m - μ) * (y m - ν) + (ν - b) * (x m - μ) + (μ - a) * (y m - ν) + (μ - a) * (ν - b) := fun m => by ring
  simp only [key, Finset.sum_add_distrib, ← Finset.mul_sum, hx, hy, mul_zero, add_zero, Finset.sum_const, Finset.card_univ,
    nsmul_eq_mul, hcard]
  ring

/-- The law of total covariance: over all samples, the cross moment about `a`, `b` is the sum of the within-sample cross
    moments about the sample means plus the number of positions times the cross moment of the sample means about
    `a`, `b`. -/
theorem total_covariance (x y : N → M → ℝ) (a b c : ℝ) (hc : c ≠ 0) (hcard : (Fintype.card M : ℝ) = c) :
    ∑ n, ∑ m, (x n m - a) * (y n m - b)
      = ∑ n, ∑ m, (x n m - (∑ m', x n m') / c) * (y n m - (∑ m', y n m') / c)
        + c * ∑ n, ((∑ m', x n m') / c - a) * ((∑ m', y n m') / c - b) := by
  rw [Finset.mul_sum, ← Finset.sum_add_distrib]
  exact Finset.sum_congr rfl fun n _ => sum_mul_split (x n) (y n) a b c hc hcard

/-- A row of a block-diagonal matrix times a column: with the matrix entry at block `(p, p')` the block's entry times
    one on the diagonal and zero off it, the double sum over blocks and positions keeps the diagonal block only. No
    distributivity is used, only that one is a right unit and zero absorbs on both sides (the three hypotheses), so it
    applies to the extended reals, which are not a semiring. -/
theorem sum_block_diag {R : Type*} [AddCommMonoid R] [Mul R] [One R] (hmul1 : ∀ a : R, a * 1 = a)
    (hmul0 : ∀ a : R, a * 0 = 0) (h0mul : ∀ a : R, 0 * a = 0) {P D : Type*} [Fintype P] [Fintype D] [DecidableEq P]
    (p : P) (w : D → R) (e : P → R) (z : P → D → R) (he1 : e p = 1) (he0 : ∀ p', p' ≠ p → e p' = 0) :
    ∑ p', ∑ d, (w d * e p') * z p' d = ∑ d, w d * z p d := by
  rw [Finset.sum_eq_single p]
  · simp only [he1, hmul1]
  · intro p' _ hp'
    simp only [he0 p' hp', hmul0, h0mul, Finset.sum_const_zero]
  · intro h; exact absurd (Finset.mem_univ p) h

end Cert.LibVariance
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.KernelFinal.lean ====
/-
  The kernel program's result is the specification's. Per output entry (sample n = 16 h + s, channel 16 g + c, position m)
  the second call multiplies row `16 s + c` of the block-diagonal matrix into the 256 centred rows of the half-batch: the
  sum over the 16 × 16 pairs (sample q of the half, channel d) keeps the pairs with q = s only, because the other blocks
  are the whitening entry times zero; what is left is the whitening row of sample n against its own 16 centred channels.
  The mixed mean, the mixed covariance and everything after them are the specification's once the kernel's forms of the
  four statistics are (hypotheses here; the batch covariance is the one that needs real inputs).
-/
import proofs.«136164_j25769804234_2_alg».proof.Proof.KernelBridge
import proofs.«136164_j25769804234_2_alg».proof.Proof.BlockDiag
import proofs.«136164_j25769804234_2_alg».proof.Proof.LibVariance
import proofs.«136164_j25769804234_2_alg».proof.Proof.LibBlocks

set_option maxRecDepth 16384

noncomputable section

namespace Cert.KernelIdeal.Value

open Cert.KernelIdeal Cert.KernelIdeal.Gen Idealize.ShloMosaic Idealize.ShloMosaic.ValueIdx Idealize.ShloMosaic.TcCoe
open Idealize.SL.Sem
open Cert.KernelIdeal.Mix (sm eyeArr)
open Cert.KernelIdeal.Whiten (traceArr wmArr bdArr matAt wm_at bd_at)
open Cert.KernelIdeal.Apply (outArrK outK outArrK_at)
open Cert.RefSpec (X Mat)
open Cert.KSpec

variable (m : (ℓ : Loc nD τ sig) → Buf (Elt Ideal) ℓ) (c : Dev nD)

/-- The two weight pairs. -/
abbrev mwK : Fin 2 → EReal := fun i => sm (m ((c : Thread nD τ).loc main_arg1)) (ix1 i)
abbrev vwK : Fin 2 → EReal := fun i => sm (m ((c : Thread nD τ).loc main_arg2)) (ix1 i)

/-- The weight of channel (g, ch). -/
theorem WV_at (g ch : Fin 16) (u : Fin 1) (cg : Fin 256) (hc : cg.val = g.val * 16 + ch.val) :
    WV m c (ix3 g u ch) = m ((c : Thread nD τ).loc main_arg3) (ix1 cg) := by
  have hu : u.val = 0 := by omega
  refine shapeCast_apply _ shapeCasts_S256_S16x1x16 (ix3 g u ch) (ix1 cg) ?_
  rw [Shape.rowMajor_val_one, Shape.rowMajor_val_three]
  show cg.val = (g.val * 1 + u.val) * 16 + ch.val
  omega

theorem BV_at (g ch : Fin 16) (u : Fin 1) (cg : Fin 256) (hc : cg.val = g.val * 16 + ch.val) :
    BV m c (ix3 g u ch) = m ((c : Thread nD τ).loc main_arg4) (ix1 cg) := by
  have hu : u.val = 0 := by omega
  refine shapeCast_apply _ shapeCasts_S256_S16x1x16 (ix3 g u ch) (ix1 cg) ?_
  rw [Shape.rowMajor_val_one, Shape.rowMajor_val_three]
  show cg.val = (g.val * 1 + u.val) * 16 + ch.val
  omega

/-- The matrix held at (g, n), entry (c, d). -/
theorem matAt_apply (A : FVec Ideal S16x32x16x16 .f32) (g : Fin 16) (n : Fin 32) (ch d : Fin 16) :
    matAt A g n ch d = A (ix4 g n ch d) := rfl

section Spec

variable (hMeanIn : ∀ g n ch, kMeanIn (xArg m c) g n ch = Cert.RefSpec.meanIn (xArg m c) g n ch)
  (hMb : ∀ g ch, kMb (xArg m c) g ch = Cert.RefSpec.meanBn (xArg m c) g ch)
  (hCovIn : ∀ g n, kCovIn (xArg m c) g n = Cert.RefSpec.covIn (xArg m c) g n)
  (hCovBn : ∀ g, kCovBn (xArg m c) g = Cert.RefSpec.covBn (xArg m c) g)

include hMeanIn hMb in
theorem MEAN_spec (g : Fin 16) (n : Fin 32) (ch : Fin 16) :
    MEAN m c (ix3 g n ch) = Cert.RefSpec.mean (xArg m c) (mwK m c) g n ch := by
  rw [MEAN_at, hMb, hMeanIn]; rfl

include hCovIn hCovBn in
theorem COV_spec (g : Fin 16) (n : Fin 32) : matAt (COV m c) g n = Cert.RefSpec.cov (xArg m c) (vwK m c) g n := by
  funext ch d
  refine (matAt_apply (COV m c) g n ch d).trans ?_
  rw [COV_at, hCovBn, hCovIn]; rfl

include hCovIn hCovBn in
/-- The whitening matrix the block-diagonal array is built from, at (g, n). -/
theorem WM_spec (g : Fin 16) (n : Fin 32) (ch d : Fin 16) :
    wmArr (COV m c) (traceArr (COV m c)) eyeArr (ix4 g n ch d) = Cert.RefSpec.wm (xArg m c) (vwK m c) g n ch d := by
  unfold Cert.RefSpec.wm
  refine (matAt_apply (wmArr (COV m c) (traceArr (COV m c)) eyeArr) g n ch d).symm.trans ?_
  rw [wm_at, COV_spec m c hCovIn hCovBn g n]

include hMeanIn hMb hCovIn hCovBn in
/-- One output entry. -/
theorem outK_spec (g : Fin 16) (h : Fin 2) (s ch : Fin 16) (mm : Fin 4096) (n : Fin 32) (cg : Fin 256)
    (hn : n.val = h.val * 16 + s.val) (hc : cg.val = g.val * 16 + ch.val) :
    outK (x2 m c) (MEAN m c) (BD m c) (WV m c) (BV m c) g h s ch mm
      = Cert.RefSpec.out (xArg m c) (mwK m c) (vwK m c) (m ((c : Thread nD τ).loc main_arg3)) (m ((c : Thread nD τ).loc main_arg4)) n cg mm := by
  unfold outK Cert.RefSpec.out Cert.RefSpec.outOf Cert.RefSpec.xhat
  have eg : (⟨cg.val / 16, by have := cg.isLt; omega⟩ : Fin 16) = g := Fin.ext (by show cg.val / 16 = g.val; have := ch.isLt; omega)
  have ec : (⟨cg.val % 16, by omega⟩ : Fin 16) = ch := Fin.ext (by show cg.val % 16 = ch.val; have := ch.isLt; omega)
  rw [eg, ec, WV_at m c g ch 0 cg hc, BV_at m c g ch 0 cg hc]
  refine congrArg (fun t : EReal => t * m ((c : Thread nD τ).loc main_arg3) (ix1 cg) + m ((c : Thread nD τ).loc main_arg4) (ix1 cg)) ?_
  rw [Cert.LibBlocks.sum_blocks_of_eq (show 256 = 16 * 16 from rfl)]
  have key : ∀ (q d : Fin 16),
      BD m c (ix4 g h (⟨s.val * 16 + ch.val, by have := s.isLt; have := ch.isLt; omega⟩ : Fin 256)
          (⟨q.val * 16 + d.val, (show 256 = 16 * 16 from rfl) ▸ Cert.LibBlocks.pos_lt q d⟩ : Fin 256))
        * (x2 m c (ix3 (⟨h.val * 16 + (q.val * 16 + d.val) / 16, by have := h.isLt; have := q.isLt; have := d.isLt; omega⟩ : Fin 32)
              (⟨g.val * 16 + (q.val * 16 + d.val) % 16, by have := g.isLt; omega⟩ : Fin 256) mm)
            - MEAN m c (ix3 g (⟨h.val * 16 + (q.val * 16 + d.val) / 16, by have := h.isLt; have := q.isLt; have := d.isLt; omega⟩ : Fin 32)
                (⟨(q.val * 16 + d.val) % 16, by omega⟩ : Fin 16)))
      = (Cert.RefSpec.wm (xArg m c) (vwK m c) g n ch d * Cert.RefSpec.eye s q)
        * (X (xArg m c) (⟨h.val * 16 + q.val, by have := h.isLt; have := q.isLt; omega⟩ : Fin 32) (Cert.RefSpec.chan g d) mm
            - Cert.RefSpec.mean (xArg m c) (mwK m c) g (⟨h.val * 16 + q.val, by have := h.isLt; have := q.isLt; omega⟩ : Fin 32) d) := by
    intro q d
    have e1 : (⟨h.val * 16 + (q.val * 16 + d.val) / 16, by have := h.isLt; have := q.isLt; have := d.isLt; omega⟩ : Fin 32)
        = ⟨h.val * 16 + q.val, by have := h.isLt; have := q.isLt; omega⟩ :=
      Fin.ext (by show h.val * 16 + (q.val * 16 + d.val) / 16 = h.val * 16 + q.val; have := d.isLt; omega)
    have e2 : (⟨(q.val * 16 + d.val) % 16, by omega⟩ : Fin 16) = d :=
      Fin.ext (by show (q.val * 16 + d.val) % 16 = d.val; have := d.isLt; omega)
    have e3 : (⟨g.val * 16 + (q.val * 16 + d.val) % 16, by have := g.isLt; omega⟩ : Fin 256) = Cert.RefSpec.chan g d :=
      Fin.ext (by show g.val * 16 + (q.val * 16 + d.val) % 16 = g.val * 16 + d.val; have := d.isLt; omega)
    rw [e1, e2, e3, x2_at, MEAN_spec m c hMeanIn hMb]
    refine congrArg (fun t : EReal => t * (X (xArg m c) (⟨h.val * 16 + q.val, by have := h.isLt; have := q.isLt; omega⟩ : Fin 32) (Cert.RefSpec.chan g d) mm
            - Cert.RefSpec.mean (xArg m c) (mwK m c) g (⟨h.val * 16 + q.val, by have := h.isLt; have := q.isLt; omega⟩ : Fin 32) d)) ?_
    rw [show BD m c = bdArr (wmArr (COV m c) (traceArr (COV m c)) eyeArr) from rfl,
      bd_at _ g h s ch q d _ _ n rfl rfl hn, WM_spec m c hCovIn hCovBn]
  simp only [key]
  have hns : (⟨h.val * 16 + s.val, by have := h.isLt; have := s.isLt; omega⟩ : Fin 32) = n := Fin.ext hn.symm
  rw [Cert.LibVariance.sum_block_diag mul_one mul_zero zero_mul s (fun d => Cert.RefSpec.wm (xArg m c) (vwK m c) g n ch d) (fun q => Cert.RefSpec.eye s q)
    (fun q d => X (xArg m c) (⟨h.val * 16 + q.val, by have := h.isLt; have := q.isLt; omega⟩ : Fin 32) (Cert.RefSpec.chan g d) mm
      - Cert.RefSpec.mean (xArg m c) (mwK m c) g (⟨h.val * 16 + q.val, by have := h.isLt; have := q.isLt; omega⟩ : Fin 32) d)
    (by unfold Cert.RefSpec.eye; rw [if_pos rfl])
    (fun q hq => by unfold Cert.RefSpec.eye; rw [if_neg (fun e => hq e.symm)])]
  rw [hns]

include hMeanIn hMb hCovIn hCovBn in
/-- The kernel program's result array is the specification's. -/
theorem result_spec :
    shapeCast S32x256x64x64 (outArrK (x2 m c) (MEAN m c) (BD m c) (WV m c) (BV m c)) shapeCasts_S32x256x4096_S32x256x64x64
      = Cert.RefSpec.outArr (xArg m c) (mwK m c) (vwK m c) (m ((c : Thread nD τ).loc main_arg3)) (m ((c : Thread nD τ).loc main_arg4)) := by
  funext i
  obtain ⟨n, cg, hh, ww, rfl⟩ : ∃ (n : Fin 32) (cg : Fin 256) (hh ww : Fin 64), i = ix4 n cg hh ww := ⟨i 0, i 1, i 2, i 3, eq_ix4 i⟩
  have hmm : hh.val * 64 + ww.val < 4096 := by have := hh.isLt; have := ww.isLt; omega
  refine (shapeCast_apply _ shapeCasts_S32x256x4096_S32x256x64x64 (ix4 n cg hh ww) (ix3 n cg ⟨hh.val * 64 + ww.val, hmm⟩) ?_).trans ?_
  · rw [Shape.rowMajor_val_three, Shape.rowMajor_val_four]
    show (n.val * 256 + cg.val) * 4096 + (hh.val * 64 + ww.val) = ((n.val * 256 + cg.val) * 64 + hh.val) * 64 + ww.val
    omega
  · have hn : n.val = (⟨n.val / 16, by have := n.isLt; omega⟩ : Fin 2).val * 16 + (⟨n.val % 16, by omega⟩ : Fin 16).val := by
      show n.val = n.val / 16 * 16 + n.val % 16; omega
    have hc : cg.val = (⟨cg.val / 16, by have := cg.isLt; omega⟩ : Fin 16).val * 16 + (⟨cg.val % 16, by omega⟩ : Fin 16).val := by
      show cg.val = cg.val / 16 * 16 + cg.val % 16; omega
    rw [outArrK_at _ _ _ _ _ _ _ _ _ _ n cg hn hc, outK_spec m c hMeanIn hMb hCovIn hCovBn _ _ _ _ _ n cg hn hc]
    rfl

end Spec

end Cert.KernelIdeal.Value

end
-- ==== Proof.RefArr.lean ====
/-
  The reference program's stages as ARRAY-level functions: each definition is the program's own chain of operations
  for one stage (the batch statistics, the instance statistics, the identity mask, the two mixing lines, the trace and
  the normalization, one Newton-Schulz step, the whitening and the affine line), over the extended reals, as a function
  of the arrays the stage reads. Nothing is proved here; the next modules read these at an index and place them in the
  program's run.
-/
import proofs.«136164_j25769804234_2_alg».proof.Proof.Gen.ReferenceIdeal
import proofs.«136164_j25769804234_2_alg».proof.Proof.RefSpec

noncomputable section

namespace Cert.ReferenceIdeal.Hand

open Cert.ReferenceIdeal Cert.ReferenceIdeal.Gen Idealize.ShloMosaic Idealize.ShloMosaic.ValueIdx

/-- An f32 array read over the extended reals. -/
abbrev FA (s : Shape) : Type := FVec Idealize.ShloMosaic.Ideal s .f32

/-- x with the channel axis first, as [group, channel in group, sample * 4096 + position]. -/
def aXbn (x : FA S32x256x64x64) : FA S16x16x131072 :=
  shapeCast S16x16x131072 (transpose S256x32x64x64 [1, 0, 2, 3] x transposes_S32x256x64x64_S256x32x64x64_1_0_2_3)
    shapeCasts_S256x32x64x64_S16x16x131072

/-- The batch means, [16, 16, 1]. -/
def aMeanBn (x : FA S32x256x64x64) : FA S16x16x1 :=
  Host.divf
    (broadcastInDim S16x16x1 ![0, 1] bcast_S16x16_S16x16x1_0_1
      (Host.reduceAdd (aXbn x) (constant S_ .f32 0x00000000#32) reducesTo_S16x16x131072_S16x16_d2 h_S_))
    (broadcastInDim S16x16x1 ![] bcast_S_S16x16x1 (constant S_ .f32 0x48000000#32))

/-- x centred by the batch means. -/
def aCenBn (x : FA S32x256x64x64) : FA S16x16x131072 :=
  subf (aXbn x) (broadcastInDim S16x16x131072 ![0, 1, 2] bcast_S16x16x1_S16x16x131072_0_1_2 (aMeanBn x))

/-- The batch covariances, [16, 16, 16]. -/
def aCovBn (x : FA S32x256x64x64) : FA S16x16x16 :=
  Host.divf (Host.dotGeneral dot_S16x16x131072_S16x16x131072_S16x16x16_2_2_1_1_0_0 none (aCenBn x) (aCenBn x))
    (broadcastInDim S16x16x16 ![] bcast_S_S16x16x16 (constant S_ .f32 0x48000000#32))

/-- The batch means repeated for every sample, [512, 16, 1]. -/
def aMeanBnB (x : FA S32x256x64x64) : FA S512x16x1 :=
  shapeCast S512x16x1
    (broadcastInDim S32x16x16x1 ![0, 1, 2, 3] bcast_S1x16x16x1_S32x16x16x1_0_1_2_3
      (broadcastInDim S1x16x16x1 ![1, 2, 3] bcast_S16x16x1_S1x16x16x1_1_2_3 (aMeanBn x)))
    shapeCasts_S32x16x16x1_S512x16x1

/-- The batch covariances repeated for every sample, [512, 16, 16]. -/
def aCovBnB (x : FA S32x256x64x64) : FA S512x16x16 :=
  shapeCast S512x16x16
    (broadcastInDim S32x16x16x16 ![0, 1, 2, 3] bcast_S1x16x16x16_S32x16x16x16_0_1_2_3
      (broadcastInDim S1x16x16x16 ![1, 2, 3] bcast_S16x16x16_S1x16x16x16_1_2_3 (aCovBn x)))
    shapeCasts_S32x16x16x16_S512x16x16

/-- x as [sample * 16 + group, channel in group, position]. -/
def aXin (x : FA S32x256x64x64) : FA S512x16x4096 := shapeCast S512x16x4096 x shapeCasts_S32x256x64x64_S512x16x4096

/-- The instance means, [512, 16, 1]. -/
def aMeanIn (x : FA S32x256x64x64) : FA S512x16x1 :=
  Host.divf
    (broadcastInDim S512x16x1 ![0, 1] bcast_S512x16_S512x16x1_0_1
      (Host.reduceAdd (aXin x) (constant S_ .f32 0x00000000#32) reducesTo_S512x16x4096_S512x16_d2 h_S_))
    (broadcastInDim S512x16x1 ![] bcast_S_S512x16x1 (constant S_ .f32 0x45800000#32))

/-- x centred by a [512, 16, 1] array of means. -/
def aCenIn (x : FA S32x256x64x64) (M : FA S512x16x1) : FA S512x16x4096 :=
  subf (aXin x) (broadcastInDim S512x16x4096 ![0, 1, 2] bcast_S512x16x1_S512x16x4096_0_1_2 M)

/-- The instance covariances, [512, 16, 16]. -/
def aCovIn (x : FA S32x256x64x64) : FA S512x16x16 :=
  Host.divf
    (Host.dotGeneral dot_S512x16x4096_S512x16x4096_S512x16x16_2_2_1_1_0_0 none (aCenIn x (aMeanIn x)) (aCenIn x (aMeanIn x)))
    (broadcastInDim S512x16x16 ![] bcast_S_S512x16x16 (constant S_ .f32 0x45800000#32))

/-- The diagonal mask: row index (plus 0) equal to column index. -/
def aMask : IVec S16x16 1 :=
  cmpi .eq (addi (iotaInDim S16x16 32 0) (broadcastInDim S16x16 ![] bcast_S_S16x16 (constantI S_ 32 0#32))) (iotaInDim S16x16 32 1)

/-- The identity matrix: the mask converted. -/
def aEye : FA S16x16 := uitofp .f32 aMask

/-- The first and the second element of a pair, as scalars. -/
def aPick0 (s : FA S2) : FA S_ := shapeCast S_ (extractStridedSlice S1 ![0] s slices_S2_S1_0) shapeCasts_S1_S_
def aPick1 (s : FA S2) : FA S_ := shapeCast S_ (extractStridedSlice S1 ![1] s slices_S2_S1_1) shapeCasts_S1_S_

/-- The mixed means, [512, 16, 1]. -/
def aMean (x : FA S32x256x64x64) (sm : FA S2) : FA S512x16x1 :=
  addf (mulf (broadcastInDim S512x16x1 ![] bcast_S_S512x16x1 (aPick0 sm)) (aMeanBnB x))
    (mulf (broadcastInDim S512x16x1 ![] bcast_S_S512x16x1 (aPick1 sm)) (aMeanIn x))

/-- The mixed, regularized covariances, [512, 16, 16]. -/
def aCov (x : FA S32x256x64x64) (sv : FA S2) : FA S512x16x16 :=
  addf
    (addf (mulf (broadcastInDim S512x16x16 ![] bcast_S_S512x16x16 (aPick0 sv)) (aCovBnB x))
      (mulf (broadcastInDim S512x16x16 ![] bcast_S_S512x16x16 (aPick1 sv)) (aCovIn x)))
    (broadcastInDim S512x16x16 ![0, 1, 2] bcast_S1x16x16_S512x16x16_0_1_2
      (broadcastInDim S1x16x16 ![1, 2] bcast_S16x16_S1x16x16_1_2
        (mulf (broadcastInDim S16x16 ![] bcast_S_S16x16 (constant S_ .f32 0x3727C5AC#32)) aEye)))

/-- The traces, [512]. -/
def aTr (C : FA S512x16x16) : FA S512 :=
  Host.reduceAdd
    (select (broadcastInDim S512x16x16 ![1, 2] bcast_S16x16_S512x16x16_1_2 aMask) C
      (broadcastInDim S512x16x16 ![] bcast_S_S512x16x16 (constant S_ .f32 0x00000000#32)))
    (constant S_ .f32 0x00000000#32) reducesTo_S512x16x16_S512_d1_2 h_S_

/-- The reciprocal traces, [512, 1, 1]. -/
def aRTr (C : FA S512x16x16) : FA S512x1x1 :=
  Host.divf (broadcastInDim S512x1x1 ![] bcast_S_S512x1x1 (constant S_ .f32 0x3F800000#32))
    (broadcastInDim S512x1x1 ![0] bcast_S512_S512x1x1_0 (aTr C))

/-- The trace-normalized covariances. -/
def aCovN (C : FA S512x16x16) : FA S512x16x16 :=
  mulf C (broadcastInDim S512x16x16 ![0, 1, 2] bcast_S512x1x1_S512x16x16_0_1_2 (aRTr C))

/-- The identity repeated for every batch entry. -/
def aP0 : FA S512x16x16 := broadcastInDim S512x16x16 ![1, 2] bcast_S16x16_S512x16x16_1_2 aEye

/-- The batched matrix product. -/
def aDot (A B : FA S512x16x16) : FA S512x16x16 :=
  Host.dotGeneral dot_S512x16x16_S512x16x16_S512x16x16_2_1_1_2_0_0 none A B

/-- One Newton-Schulz step. -/
def aStep (C P : FA S512x16x16) : FA S512x16x16 :=
  subf (mulf (broadcastInDim S512x16x16 ![] bcast_S_S512x16x16 (constant S_ .f32 0x3FC00000#32)) P)
    (mulf (broadcastInDim S512x16x16 ![] bcast_S_S512x16x16 (constant S_ .f32 0x3F000000#32)) (aDot (aDot (aDot P P) P) C))

/-- The whitening matrices: the last iterate times the square root of the reciprocal trace. -/
def aWm (R : FA S512x1x1) (P : FA S512x16x16) : FA S512x16x16 :=
  mulf P (broadcastInDim S512x16x16 ![0, 1, 2] bcast_S512x1x1_S512x16x16_0_1_2 (Host.sqrt R))

/-- The whitened values, [512, 16, 4096]. -/
def aXhat (W : FA S512x16x16) (Xi : FA S512x16x4096) (M : FA S512x16x1) : FA S512x16x4096 :=
  Host.dotGeneral dot_S512x16x16_S512x16x4096_S512x16x4096_2_1_1_2_0_0 none W
    (subf Xi (broadcastInDim S512x16x4096 ![0, 1, 2] bcast_S512x16x1_S512x16x4096_0_1_2 M))

/-- The affine line, back in x's shape. -/
def aOut (xh : FA S512x16x4096) (w b : FA S256) : FA S32x256x64x64 :=
  addf
    (mulf (shapeCast S32x256x64x64 xh shapeCasts_S512x16x4096_S32x256x64x64)
      (broadcastInDim S32x256x64x64 ![0, 1, 2, 3] bcast_S1x256x1x1_S32x256x64x64_0_1_2_3
        (broadcastInDim S1x256x1x1 ![1] bcast_S256_S1x256x1x1_1 w)))
    (broadcastInDim S32x256x64x64 ![0, 1, 2, 3] bcast_S1x256x1x1_S32x256x64x64_0_1_2_3
      (broadcastInDim S1x256x1x1 ![1] bcast_S256_S1x256x1x1_1 b))

end Cert.ReferenceIdeal.Hand

end
-- ==== Proof.RefSeg.lean ====
/-
  The reference program's line of operations cut into consecutive pieces — everything up to the normalized covariance
  and the first iterate, the five Newton-Schulz steps, the whitening and affine tail — and, for each piece, what it
  leaves at the buffers later pieces read, as the array-level stage functions of what it found at the buffers it reads.
-/
import proofs.«136164_j25769804234_2_alg».proof.Proof.RefOps
import proofs.«136164_j25769804234_2_alg».proof.Proof.RefSpec
import proofs.«136164_j25769804234_2_alg».proof.Proof.RefArr
import Idealize.ShloMosaic.Lib.StableHlo.Run

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

local notation "𝕀" => Idealize.ShloMosaic.Ideal

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 1 to 109: the statistics, the two softmaxes, the mixing, the trace, the normalization, the first iterate. -/
abbrev segA : List (HloOp τ sig (Elt F)) :=
  [ StableHlo.unary main_arg0 main_v0 ((transpose S256x32x64x64 [1, 0, 2, 3] · transposes_S32x256x64x64_S256x32x64x64_1_0_2_3) : (⟨S32x256x64x64, .f32⟩ : BufTy).Contents (Elt F) → (⟨S256x32x64x64, .f32⟩ : BufTy).Contents (Elt F)),
    StableHlo.reshape main_v0 main_v1 rfl shapeCasts_S256x32x64x64_S16x16x131072,
    StableHlo.nullary main_cst (constant S_ .f32 0x00000000#32),
    StableHlo.binary main_v1 main_cst main_v2 ((fun x v => Host.reduceAdd x v reducesTo_S16x16x131072_S16x16_d2 h_S_) : (⟨S16x16x131072, .f32⟩ : BufTy).Contents (Elt F) → (⟨S_, .f32⟩ : BufTy).Contents (Elt F) → (⟨S16x16, .f32⟩ : BufTy).Contents (Elt F)),
    StableHlo.unary main_v2 main_v3 (broadcastInDim S16x16x1 ![0, 1] bcast_S16x16_S16x16x1_0_1 : (⟨S16x16, .f32⟩ : BufTy).Contents (Elt F) → (⟨S16x16x1, .f32⟩ : BufTy).Contents (Elt F)),
    StableHlo.nullary main_cst_0 (constant S_ .f32 0x48000000#32),
    StableHlo.unary main_cst_0 main_v4 (broadcastInDim S16x16x1 ![] bcast_S_S16x16x1 : (⟨S_, .f32⟩ : BufTy).Contents (Elt F) → (⟨S16x16x1, .f32⟩ : BufTy).Contents (Elt F)),
    StableHlo.binary main_v3 main_v4 main_v5 (Host.divf : (⟨S16x16x1, .f32⟩ : BufTy).Contents (Elt F) → (⟨S16x16x1, .f32⟩ : BufTy).Contents (Elt F) → (⟨S16x16x1, .f32⟩ : BufTy).Contents (Elt F)),
    StableHlo.unary main_v5 main_v6 (broadcastInDim S16x16x131072 ![0, 1, 2] bcast_S16x16x1_S16x16x131072_0_1_2 : (⟨S16x16x1, .f32⟩ : BufTy).Contents (Elt F) → (⟨S16x16x131072, .f32⟩ : BufTy).Contents (Elt F)),
    StableHlo.binary main_v1 main_v6 main_v7 (subf : (⟨S16x16x131072, .f32⟩ : BufTy).Contents (Elt F) → (⟨S16x16x131072, .f32⟩ : BufTy).Contents (Elt F) → (⟨S16x16x131072, .f32⟩ : BufTy).Contents (Elt F)),
    StableHlo.binary main_v7 main_v7 main_v8 ((fun l r => Host.dotGeneral dot_S16x16x131072_S16x16x131072_S16x16x16_2_2_1_1_0_0 none l r) : (⟨S16x16x131072, .f32⟩ : BufTy).Contents (Elt F) → (⟨S16x16x131072, .f32⟩ : BufTy).Contents (Elt F) → (⟨S16x16x16, .f32⟩ : BufTy).Contents (Elt F)),
    StableHlo.nullary main_cst_1 (constant S_ .f32 0x48000000#32),
    StableHlo.unary main_cst_1 main_v9 (broadcastInDim S16x16x16 ![] bcast_S_S16x16x16 : (⟨S_, .f32⟩ : BufTy).Contents (Elt F) → (⟨S16x16x16, .f32⟩ : BufTy).Contents (Elt F)),
    StableHlo.binary main_v8 main_v9 main_v10 (Host.divf : (⟨S16x16x16, .f32⟩ : BufTy).Contents (Elt F) → (⟨S16x16x16, .f32⟩ : BufTy).Contents (Elt F) → (⟨S16x16x16, .f32⟩ : BufTy).Contents (Elt F)),
    StableHlo.unary main_v5 main_v11 (broadcastInDim S1x16x16x1 ![1, 2, 3] bcast_S16x16x1_S1x16x16x1_1_2_3 : (⟨S16x16x1, .f32⟩ : BufTy).Contents (Elt F) → (⟨S1x16x16x1, .f32⟩ : BufTy).Contents (Elt F)),
    StableHlo.unary main_v11 main_v12 (broadcastInDim S32x16x16x1 ![0, 1, 2, 3] bcast_S1x16x16x1_S32x16x16x1_0_1_2_3 : (⟨S1x16x16x1, .f32⟩ : BufTy).Contents (Elt F) → (⟨S32x16x16x1, .f32⟩ : BufTy).Contents (Elt F)),
    StableHlo.reshape main_v12 main_v13 rfl shapeCasts_S32x16x16x1_S512x16x1,
    StableHlo.unary main_v10 main_v14 (broadcastInDim S1x16x16x16 ![1, 2, 3] bcast_S16x16x16_S1x16x16x16_1_2_3 : (⟨S16x16x16, .f32⟩ : BufTy).Contents (Elt F) → (⟨S1x16x16x16, .f32⟩ : BufTy).Contents (Elt F)),
    StableHlo.unary main_v14 main_v15 (broadcastInDim S32x16x16x16 ![0, 1, 2, 3] bcast_S1x16x16x16_S32x16x16x16_0_1_2_3 : (⟨S1x16x16x16, .f32⟩ : BufTy).Contents (Elt F) → (⟨S32x16x16x16, .f32⟩ : BufTy).Contents (Elt F)),
    StableHlo.reshape main_v15 main_v16 rfl shapeCasts_S32x16x16x16_S512x16x16,
    StableHlo.reshape main_arg0 main_v17 rfl shapeCasts_S32x256x64x64_S512x16x4096,
    StableHlo.nullary main_cst_2 (constant S_ .f32 0x00000000#32),
    StableHlo.binary main_v17 main_cst_2 main_v18 ((fun x v => Host.reduceAdd x v reducesTo_S512x16x4096_S512x16_d2 h_S_) : (⟨S512x16x4096, .f32⟩ : BufTy).Contents (Elt F) → (⟨S_, .f32⟩ : BufTy).Contents (Elt F) → (⟨S512x16, .f32⟩ : BufTy).Contents (Elt F)),
    StableHlo.unary main_v18 main_v19 (broadcastInDim S512x16x1 ![0, 1] bcast_S512x16_S512x16x1_0_1 : (⟨S512x16, .f32⟩ : BufTy).Contents (Elt F) → (⟨S512x16x1, .f32⟩ : BufTy).Contents (Elt F)),
    StableHlo.nullary main_cst_3 (constant S_ .f32 0x45800000#32),
    StableHlo.unary main_cst_3 main_v20 (broadcastInDim S512x16x1 ![] bcast_S_S512x16x1 : (⟨S_, .f32⟩ : BufTy).Contents (Elt F) → (⟨S512x16x1, .f32⟩ : BufTy).Contents (Elt F)),
    StableHlo.binary main_v19 main_v20 main_v21 (Host.divf : (⟨S512x16x1, .f32⟩ : BufTy).Contents (Elt F) → (⟨S512x16x1, .f32⟩ : BufTy).Contents (Elt F) → (⟨S512x16x1, .f32⟩ : BufTy).Contents (Elt F)),
    StableHlo.unary main_v21 main_v22 (broadcastInDim S512x16x4096 ![0, 1, 2] bcast_S512x16x1_S512x16x4096_0_1_2 : (⟨S512x16x1, .f32⟩ : BufTy).Contents (Elt F) → (⟨S512x16x4096, .f32⟩ : BufTy).Contents (Elt F)),
    StableHlo.binary main_v17 main_v22 main_v23 (subf : (⟨S512x16x4096, .f32⟩ : BufTy).Contents (Elt F) → (⟨S512x16x4096, .f32⟩ : BufTy).Contents (Elt F) → (⟨S512x16x4096, .f32⟩ : BufTy).Contents (Elt F)),
    StableHlo.binary main_v23 main_v23 main_v24 ((fun l r => Host.dotGeneral dot_S512x16x4096_S512x16x4096_S512x16x16_2_2_1_1_0_0 none l r) : (⟨S512x16x4096, .f32⟩ : BufTy).Contents (Elt F) → (⟨S512x16x4096, .f32⟩ : BufTy).Contents (Elt F) → (⟨S512x16x16, .f32⟩ : BufTy).Contents (Elt F)),
    StableHlo.nullary main_cst_4 (constant S_ .f32 0x45800000#32),
    StableHlo.unary main_cst_4 main_v25 (broadcastInDim S512x16x16 ![] bcast_S_S512x16x16 : (⟨S_, .f32⟩ : BufTy).Contents (Elt F) → (⟨S512x16x16, .f32⟩ : BufTy).Contents (Elt F)),
    StableHlo.binary main_v24 main_v25 main_v26 (Host.divf : (⟨S512x16x16, .f32⟩ : BufTy).Contents (Elt F) → (⟨S512x16x16, .f32⟩ : BufTy).Contents (Elt F) → (⟨S512x16x16, .f32⟩ : BufTy).Contents (Elt F)),
    StableHlo.nullary main_v27 (iotaInDim S16x16 32 0),
    StableHlo.nullary main_v28 (iotaInDim S16x16 32 1),
    StableHlo.nullary main_c (constantI S_ 32 0#32),
    StableHlo.unary main_c main_v29 (broadcastInDim S16x16 ![] bcast_S_S16x16 : (⟨S_, .i32⟩ : BufTy).Contents (Elt F) → (⟨S16x16, .i32⟩ : BufTy).Contents (Elt F)),
    StableHlo.binary main_v27 main_v29 main_v30 (addi : (⟨S16x16, .i32⟩ : BufTy).Contents (Elt F) → (⟨S16x16, .i32⟩ : BufTy).Contents (Elt F) → (⟨S16x16, .i32⟩ : BufTy).Contents (Elt F)),
    StableHlo.binary main_v30 main_v28 main_v31 (cmpi .eq : (⟨S16x16, .i32⟩ : BufTy).Contents (Elt F) → (⟨S16x16, .i32⟩ : BufTy).Contents (Elt F) → (⟨S16x16, .i1⟩ : BufTy).Contents (Elt F)),
    StableHlo.unary main_v31 main_v32 (uitofp .f32 : (⟨S16x16, .i1⟩ : BufTy).Contents (Elt F) → (⟨S16x16, .f32⟩ : BufTy).Contents (Elt F)),
    StableHlo.nullary main_cst_5 (constant S_ .f32 0xFF800000#32),
    StableHlo.binary main_arg1 main_cst_5 main_v33 ((fun x v => Host.reduce FloatOps.maximumf x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_6 (constant S_ .f32 0xFF800000#32),
    StableHlo.binary main_cst_6 main_v33 main_v34 (maximumf : (⟨S_, .f32⟩ : BufTy).Contents (Elt F) → (⟨S_, .f32⟩ : BufTy).Contents (Elt F) → (⟨S_, .f32⟩ : BufTy).Contents (Elt F)),
    StableHlo.unary main_v34 main_v35 (broadcastInDim S1 ![] bcast_S_S1 : (⟨S_, .f32⟩ : BufTy).Contents (Elt F) → (⟨S1, .f32⟩ : BufTy).Contents (Elt F)),
    StableHlo.unary main_v35 main_v36 (broadcastInDim S2 ![0] bcast_S1_S2_0 : (⟨S1, .f32⟩ : BufTy).Contents (Elt F) → (⟨S2, .f32⟩ : BufTy).Contents (Elt F)),
    StableHlo.binary main_arg1 main_v36 main_v37 (subf : (⟨S2, .f32⟩ : BufTy).Contents (Elt F) → (⟨S2, .f32⟩ : BufTy).Contents (Elt F) → (⟨S2, .f32⟩ : BufTy).Contents (Elt F)),
    StableHlo.unary main_v37 main_v38 (Host.exp : (⟨S2, .f32⟩ : BufTy).Contents (Elt F) → (⟨S2, .f32⟩ : BufTy).Contents (Elt F)),
    StableHlo.nullary main_cst_7 (constant S_ .f32 0x00000000#32),
    StableHlo.binary main_v38 main_cst_7 main_v39 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.unary main_v39 main_v40 (broadcastInDim S1 ![] bcast_S_S1 : (⟨S_, .f32⟩ : BufTy).Contents (Elt F) → (⟨S1, .f32⟩ : BufTy).Contents (Elt F)),
    StableHlo.unary main_v40 main_v41 (broadcastInDim S2 ![0] bcast_S1_S2_0 : (⟨S1, .f32⟩ : BufTy).Contents (Elt F) → (⟨S2, .f32⟩ : BufTy).Contents (Elt F)),
    StableHlo.binary main_v38 main_v41 main_v42 (Host.divf : (⟨S2, .f32⟩ : BufTy).Contents (Elt F) → (⟨S2, .f32⟩ : BufTy).Contents (Elt F) → (⟨S2, .f32⟩ : BufTy).Contents (Elt F)),
    StableHlo.nullary main_cst_8 (constant S_ .f32 0xFF800000#32),
    StableHlo.binary main_arg2 main_cst_8 main_v43 ((fun x v => Host.reduce FloatOps.maximumf x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_9 (constant S_ .f32 0xFF800000#32),
    StableHlo.binary main_cst_9 main_v43 main_v44 (maximumf : (⟨S_, .f32⟩ : BufTy).Contents (Elt F) → (⟨S_, .f32⟩ : BufTy).Contents (Elt F) → (⟨S_, .f32⟩ : BufTy).Contents (Elt F)),
    StableHlo.unary main_v44 main_v45 (broadcastInDim S1 ![] bcast_S_S1 : (⟨S_, .f32⟩ : BufTy).Contents (Elt F) → (⟨S1, .f32⟩ : BufTy).Contents (Elt F)),
    StableHlo.unary main_v45 main_v46 (broadcastInDim S2 ![0] bcast_S1_S2_0 : (⟨S1, .f32⟩ : BufTy).Contents (Elt F) → (⟨S2, .f32⟩ : BufTy).Contents (Elt F)),
    StableHlo.binary main_arg2 main_v46 main_v47 (subf : (⟨S2, .f32⟩ : BufTy).Contents (Elt F) → (⟨S2, .f32⟩ : BufTy).Contents (Elt F) → (⟨S2, .f32⟩ : BufTy).Contents (Elt F)),
    StableHlo.unary main_v47 main_v48 (Host.exp : (⟨S2, .f32⟩ : BufTy).Contents (Elt F) → (⟨S2, .f32⟩ : BufTy).Contents (Elt F)),
    StableHlo.nullary main_cst_10 (constant S_ .f32 0x00000000#32),
    StableHlo.binary main_v48 main_cst_10 main_v49 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.unary main_v49 main_v50 (broadcastInDim S1 ![] bcast_S_S1 : (⟨S_, .f32⟩ : BufTy).Contents (Elt F) → (⟨S1, .f32⟩ : BufTy).Contents (Elt F)),
    StableHlo.unary main_v50 main_v51 (broadcastInDim S2 ![0] bcast_S1_S2_0 : (⟨S1, .f32⟩ : BufTy).Contents (Elt F) → (⟨S2, .f32⟩ : BufTy).Contents (Elt F)),
    StableHlo.binary main_v48 main_v51 main_v52 (Host.divf : (⟨S2, .f32⟩ : BufTy).Contents (Elt F) → (⟨S2, .f32⟩ : BufTy).Contents (Elt F) → (⟨S2, .f32⟩ : BufTy).Contents (Elt F)),
    StableHlo.unary main_v42 main_v53 ((extractStridedSlice S1 ![0] · slices_S2_S1_0) : (⟨S2, .f32⟩ : BufTy).Contents (Elt F) → (⟨S1, .f32⟩ : BufTy).Contents (Elt F)),
    StableHlo.reshape main_v53 main_v54 rfl shapeCasts_S1_S_,
    StableHlo.unary main_v54 main_v55 (broadcastInDim S512x16x1 ![] bcast_S_S512x16x1 : (⟨S_, .f32⟩ : BufTy).Contents (Elt F) → (⟨S512x16x1, .f32⟩ : BufTy).Contents (Elt F)),
    StableHlo.binary main_v55 main_v13 main_v56 (mulf : (⟨S512x16x1, .f32⟩ : BufTy).Contents (Elt F) → (⟨S512x16x1, .f32⟩ : BufTy).Contents (Elt F) → (⟨S512x16x1, .f32⟩ : BufTy).Contents (Elt F)),
    StableHlo.unary main_v42 main_v57 ((extractStridedSlice S1 ![1] · slices_S2_S1_1) : (⟨S2, .f32⟩ : BufTy).Contents (Elt F) → (⟨S1, .f32⟩ : BufTy).Contents (Elt F)),
    StableHlo.reshape main_v57 main_v58 rfl shapeCasts_S1_S_,
    StableHlo.unary main_v58 main_v59 (broadcastInDim S512x16x1 ![] bcast_S_S512x16x1 : (⟨S_, .f32⟩ : BufTy).Contents (Elt F) → (⟨S512x16x1, .f32⟩ : BufTy).Contents (Elt F)),
    StableHlo.binary main_v59 main_v21 main_v60 (mulf : (⟨S512x16x1, .f32⟩ : BufTy).Contents (Elt F) → (⟨S512x16x1, .f32⟩ : BufTy).Contents (Elt F) → (⟨S512x16x1, .f32⟩ : BufTy).Contents (Elt F)),
    StableHlo.binary main_v56 main_v60 main_v61 (addf : (⟨S512x16x1, .f32⟩ : BufTy).Contents (Elt F) → (⟨S512x16x1, .f32⟩ : BufTy).Contents (Elt F) → (⟨S512x16x1, .f32⟩ : BufTy).Contents (Elt F)),
    StableHlo.unary main_v52 main_v62 ((extractStridedSlice S1 ![0] · slices_S2_S1_0) : (⟨S2, .f32⟩ : BufTy).Contents (Elt F) → (⟨S1, .f32⟩ : BufTy).Contents (Elt F)),
    StableHlo.reshape main_v62 main_v63 rfl shapeCasts_S1_S_,
    StableHlo.unary main_v63 main_v64 (broadcastInDim S512x16x16 ![] bcast_S_S512x16x16 : (⟨S_, .f32⟩ : BufTy).Contents (Elt F) → (⟨S512x16x16, .f32⟩ : BufTy).Contents (Elt F)),
    StableHlo.binary main_v64 main_v16 main_v65 (mulf : (⟨S512x16x16, .f32⟩ : BufTy).Contents (Elt F) → (⟨S512x16x16, .f32⟩ : BufTy).Contents (Elt F) → (⟨S512x16x16, .f32⟩ : BufTy).Contents (Elt F)),
    StableHlo.unary main_v52 main_v66 ((extractStridedSlice S1 ![1] · slices_S2_S1_1) : (⟨S2, .f32⟩ : BufTy).Contents (Elt F) → (⟨S1, .f32⟩ : BufTy).Contents (Elt F)),
    StableHlo.reshape main_v66 main_v67 rfl shapeCasts_S1_S_,
    StableHlo.unary main_v67 main_v68 (broadcastInDim S512x16x16 ![] bcast_S_S512x16x16 : (⟨S_, .f32⟩ : BufTy).Contents (Elt F) → (⟨S512x16x16, .f32⟩ : BufTy).Contents (Elt F)),
    StableHlo.binary main_v68 main_v26 main_v69 (mulf : (⟨S512x16x16, .f32⟩ : BufTy).Contents (Elt F) → (⟨S512x16x16, .f32⟩ : BufTy).Contents (Elt F) → (⟨S512x16x16, .f32⟩ : BufTy).Contents (Elt F)),
    StableHlo.binary main_v65 main_v69 main_v70 (addf : (⟨S512x16x16, .f32⟩ : BufTy).Contents (Elt F) → (⟨S512x16x16, .f32⟩ : BufTy).Contents (Elt F) → (⟨S512x16x16, .f32⟩ : BufTy).Contents (Elt F)),
    StableHlo.nullary main_cst_11 (constant S_ .f32 0x3727C5AC#32),
    StableHlo.unary main_cst_11 main_v71 (broadcastInDim S16x16 ![] bcast_S_S16x16 : (⟨S_, .f32⟩ : BufTy).Contents (Elt F) → (⟨S16x16, .f32⟩ : BufTy).Contents (Elt F)),
    StableHlo.binary main_v71 main_v32 main_v72 (mulf : (⟨S16x16, .f32⟩ : BufTy).Contents (Elt F) → (⟨S16x16, .f32⟩ : BufTy).Contents (Elt F) → (⟨S16x16, .f32⟩ : BufTy).Contents (Elt F)),
    StableHlo.unary main_v72 main_v73 (broadcastInDim S1x16x16 ![1, 2] bcast_S16x16_S1x16x16_1_2 : (⟨S16x16, .f32⟩ : BufTy).Contents (Elt F) → (⟨S1x16x16, .f32⟩ : BufTy).Contents (Elt F)),
    StableHlo.unary main_v73 main_v74 (broadcastInDim S512x16x16 ![0, 1, 2] bcast_S1x16x16_S512x16x16_0_1_2 : (⟨S1x16x16, .f32⟩ : BufTy).Contents (Elt F) → (⟨S512x16x16, .f32⟩ : BufTy).Contents (Elt F)),
    StableHlo.binary main_v70 main_v74 main_v75 (addf : (⟨S512x16x16, .f32⟩ : BufTy).Contents (Elt F) → (⟨S512x16x16, .f32⟩ : BufTy).Contents (Elt F) → (⟨S512x16x16, .f32⟩ : BufTy).Contents (Elt F)),
    StableHlo.TRef.nullary main_call0.v0 (iotaInDim S16x16 32 0),
    StableHlo.TRef.nullary main_call0.v1 (iotaInDim S16x16 32 1),
    StableHlo.TRef.nullary main_call0.c (constantI S_ 32 0#32),
    StableHlo.TRef.unary main_call0.c main_call0.v2 (broadcastInDim S16x16 ![] bcast_S_S16x16),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S512x16x16 ![] bcast_S_S512x16x16),
    StableHlo.TRef.unary main_call0.v4 main_call0.call0.v0 (broadcastInDim S512x16x16 ![1, 2] bcast_S16x16_S512x16x16_1_2),
    StableHlo.TRef.ternary main_call0.call0.v0 (.of main_v75) main_call0.v5 main_call0.call0.v1 select,
    StableHlo.TRef.nullary main_call0.cst_0 (constant S_ .f32 0x00000000#32),
    StableHlo.TRef.binary main_call0.call0.v1 main_call0.cst_0 main_call0.v7 (fun x v => Host.reduceAdd x v reducesTo_S512x16x16_S512_d1_2 h_S_),
    StableHlo.unary main_v76 main_v77 (broadcastInDim S512x1x1 ![0] bcast_S512_S512x1x1_0 : (⟨S512, .f32⟩ : BufTy).Contents (Elt F) → (⟨S512x1x1, .f32⟩ : BufTy).Contents (Elt F)),
    StableHlo.nullary main_cst_12 (constant S_ .f32 0x3F800000#32),
    StableHlo.unary main_cst_12 main_v78 (broadcastInDim S512x1x1 ![] bcast_S_S512x1x1 : (⟨S_, .f32⟩ : BufTy).Contents (Elt F) → (⟨S512x1x1, .f32⟩ : BufTy).Contents (Elt F)),
    StableHlo.binary main_v78 main_v77 main_v79 (Host.divf : (⟨S512x1x1, .f32⟩ : BufTy).Contents (Elt F) → (⟨S512x1x1, .f32⟩ : BufTy).Contents (Elt F) → (⟨S512x1x1, .f32⟩ : BufTy).Contents (Elt F)),
    StableHlo.unary main_v79 main_v80 (broadcastInDim S512x16x16 ![0, 1, 2] bcast_S512x1x1_S512x16x16_0_1_2 : (⟨S512x1x1, .f32⟩ : BufTy).Contents (Elt F) → (⟨S512x16x16, .f32⟩ : BufTy).Contents (Elt F)),
    StableHlo.binary main_v75 main_v80 main_v81 (mulf : (⟨S512x16x16, .f32⟩ : BufTy).Contents (Elt F) → (⟨S512x16x16, .f32⟩ : BufTy).Contents (Elt F) → (⟨S512x16x16, .f32⟩ : BufTy).Contents (Elt F)),
    StableHlo.unary main_v32 main_v82 (broadcastInDim S512x16x16 ![1, 2] bcast_S16x16_S512x16x16_1_2 : (⟨S16x16, .f32⟩ : BufTy).Contents (Elt F) → (⟨S512x16x16, .f32⟩ : BufTy).Contents (Elt F)) ]

/-- Newton-Schulz step 1. -/
abbrev segN1 : List (HloOp τ sig (Elt F)) :=
  [ StableHlo.binary main_v82 main_v82 main_v83 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.binary main_v83 main_v82 main_v84 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_13 (constant S_ .f32 0x3FC00000#32),
    StableHlo.unary main_cst_13 main_v85 (broadcastInDim S512x16x16 ![] bcast_S_S512x16x16 : (⟨S_, .f32⟩ : BufTy).Contents (Elt F) → (⟨S512x16x16, .f32⟩ : BufTy).Contents (Elt F)),
    StableHlo.binary main_v85 main_v82 main_v86 (mulf : (⟨S512x16x16, .f32⟩ : BufTy).Contents (Elt F) → (⟨S512x16x16, .f32⟩ : BufTy).Contents (Elt F) → (⟨S512x16x16, .f32⟩ : BufTy).Contents (Elt F)),
    StableHlo.binary main_v84 main_v81 main_v87 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_14 (constant S_ .f32 0x3F000000#32),
    StableHlo.unary main_cst_14 main_v88 (broadcastInDim S512x16x16 ![] bcast_S_S512x16x16 : (⟨S_, .f32⟩ : BufTy).Contents (Elt F) → (⟨S512x16x16, .f32⟩ : BufTy).Contents (Elt F)),
    StableHlo.binary main_v88 main_v87 main_v89 (mulf : (⟨S512x16x16, .f32⟩ : BufTy).Contents (Elt F) → (⟨S512x16x16, .f32⟩ : BufTy).Contents (Elt F) → (⟨S512x16x16, .f32⟩ : BufTy).Contents (Elt F)),
    StableHlo.binary main_v86 main_v89 main_v90 (subf : (⟨S512x16x16, .f32⟩ : BufTy).Contents (Elt F) → (⟨S512x16x16, .f32⟩ : BufTy).Contents (Elt F) → (⟨S512x16x16, .f32⟩ : BufTy).Contents (Elt F)) ]

/-- Newton-Schulz step 2. -/
abbrev segN2 : List (HloOp τ sig (Elt F)) :=
  [ StableHlo.binary main_v90 main_v90 main_v91 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.binary main_v91 main_v90 main_v92 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_15 (constant S_ .f32 0x3FC00000#32),
    StableHlo.unary main_cst_15 main_v93 (broadcastInDim S512x16x16 ![] bcast_S_S512x16x16 : (⟨S_, .f32⟩ : BufTy).Contents (Elt F) → (⟨S512x16x16, .f32⟩ : BufTy).Contents (Elt F)),
    StableHlo.binary main_v93 main_v90 main_v94 (mulf : (⟨S512x16x16, .f32⟩ : BufTy).Contents (Elt F) → (⟨S512x16x16, .f32⟩ : BufTy).Contents (Elt F) → (⟨S512x16x16, .f32⟩ : BufTy).Contents (Elt F)),
    StableHlo.binary main_v92 main_v81 main_v95 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_16 (constant S_ .f32 0x3F000000#32),
    StableHlo.unary main_cst_16 main_v96 (broadcastInDim S512x16x16 ![] bcast_S_S512x16x16 : (⟨S_, .f32⟩ : BufTy).Contents (Elt F) → (⟨S512x16x16, .f32⟩ : BufTy).Contents (Elt F)),
    StableHlo.binary main_v96 main_v95 main_v97 (mulf : (⟨S512x16x16, .f32⟩ : BufTy).Contents (Elt F) → (⟨S512x16x16, .f32⟩ : BufTy).Contents (Elt F) → (⟨S512x16x16, .f32⟩ : BufTy).Contents (Elt F)),
    StableHlo.binary main_v94 main_v97 main_v98 (subf : (⟨S512x16x16, .f32⟩ : BufTy).Contents (Elt F) → (⟨S512x16x16, .f32⟩ : BufTy).Contents (Elt F) → (⟨S512x16x16, .f32⟩ : BufTy).Contents (Elt F)) ]

/-- Newton-Schulz step 3. -/
abbrev segN3 : List (HloOp τ sig (Elt F)) :=
  [ StableHlo.binary main_v98 main_v98 main_v99 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.binary main_v99 main_v98 main_v100 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_17 (constant S_ .f32 0x3FC00000#32),
    StableHlo.unary main_cst_17 main_v101 (broadcastInDim S512x16x16 ![] bcast_S_S512x16x16 : (⟨S_, .f32⟩ : BufTy).Contents (Elt F) → (⟨S512x16x16, .f32⟩ : BufTy).Contents (Elt F)),
    StableHlo.binary main_v101 main_v98 main_v102 (mulf : (⟨S512x16x16, .f32⟩ : BufTy).Contents (Elt F) → (⟨S512x16x16, .f32⟩ : BufTy).Contents (Elt F) → (⟨S512x16x16, .f32⟩ : BufTy).Contents (Elt F)),
    StableHlo.binary main_v100 main_v81 main_v103 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_18 (constant S_ .f32 0x3F000000#32),
    StableHlo.unary main_cst_18 main_v104 (broadcastInDim S512x16x16 ![] bcast_S_S512x16x16 : (⟨S_, .f32⟩ : BufTy).Contents (Elt F) → (⟨S512x16x16, .f32⟩ : BufTy).Contents (Elt F)),
    StableHlo.binary main_v104 main_v103 main_v105 (mulf : (⟨S512x16x16, .f32⟩ : BufTy).Contents (Elt F) → (⟨S512x16x16, .f32⟩ : BufTy).Contents (Elt F) → (⟨S512x16x16, .f32⟩ : BufTy).Contents (Elt F)),
    StableHlo.binary main_v102 main_v105 main_v106 (subf : (⟨S512x16x16, .f32⟩ : BufTy).Contents (Elt F) → (⟨S512x16x16, .f32⟩ : BufTy).Contents (Elt F) → (⟨S512x16x16, .f32⟩ : BufTy).Contents (Elt F)) ]

/-- Newton-Schulz step 4. -/
abbrev segN4 : List (HloOp τ sig (Elt F)) :=
  [ StableHlo.binary main_v106 main_v106 main_v107 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.binary main_v107 main_v106 main_v108 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_19 (constant S_ .f32 0x3FC00000#32),
    StableHlo.unary main_cst_19 main_v109 (broadcastInDim S512x16x16 ![] bcast_S_S512x16x16 : (⟨S_, .f32⟩ : BufTy).Contents (Elt F) → (⟨S512x16x16, .f32⟩ : BufTy).Contents (Elt F)),
    StableHlo.binary main_v109 main_v106 main_v110 (mulf : (⟨S512x16x16, .f32⟩ : BufTy).Contents (Elt F) → (⟨S512x16x16, .f32⟩ : BufTy).Contents (Elt F) → (⟨S512x16x16, .f32⟩ : BufTy).Contents (Elt F)),
    StableHlo.binary main_v108 main_v81 main_v111 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_20 (constant S_ .f32 0x3F000000#32),
    StableHlo.unary main_cst_20 main_v112 (broadcastInDim S512x16x16 ![] bcast_S_S512x16x16 : (⟨S_, .f32⟩ : BufTy).Contents (Elt F) → (⟨S512x16x16, .f32⟩ : BufTy).Contents (Elt F)),
    StableHlo.binary main_v112 main_v111 main_v113 (mulf : (⟨S512x16x16, .f32⟩ : BufTy).Contents (Elt F) → (⟨S512x16x16, .f32⟩ : BufTy).Contents (Elt F) → (⟨S512x16x16, .f32⟩ : BufTy).Contents (Elt F)),
    StableHlo.binary main_v110 main_v113 main_v114 (subf : (⟨S512x16x16, .f32⟩ : BufTy).Contents (Elt F) → (⟨S512x16x16, .f32⟩ : BufTy).Contents (Elt F) → (⟨S512x16x16, .f32⟩ : BufTy).Contents (Elt F)) ]

/-- Newton-Schulz step 5. -/
abbrev segN5 : List (HloOp τ sig (Elt F)) :=
  [ StableHlo.binary main_v114 main_v114 main_v115 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.binary main_v115 main_v114 main_v116 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_21 (constant S_ .f32 0x3FC00000#32),
    StableHlo.unary main_cst_21 main_v117 (broadcastInDim S512x16x16 ![] bcast_S_S512x16x16 : (⟨S_, .f32⟩ : BufTy).Contents (Elt F) → (⟨S512x16x16, .f32⟩ : BufTy).Contents (Elt F)),
    StableHlo.binary main_v117 main_v114 main_v118 (mulf : (⟨S512x16x16, .f32⟩ : BufTy).Contents (Elt F) → (⟨S512x16x16, .f32⟩ : BufTy).Contents (Elt F) → (⟨S512x16x16, .f32⟩ : BufTy).Contents (Elt F)),
    StableHlo.binary main_v116 main_v81 main_v119 ((fun l r => Host.dotGeneral dot_S512x16x16_S512x16x16_S512x16x16_2_1_1_2_0_0 none l r) : (⟨S512x16x16, .f32⟩ : BufTy).Contents (Elt F) → (⟨S512x16x16, .f32⟩ : BufTy).Contents (Elt F) → (⟨S512x16x16, .f32⟩ : BufTy).Contents (Elt F)),
    StableHlo.nullary main_cst_22 (constant S_ .f32 0x3F000000#32),
    StableHlo.unary main_cst_22 main_v120 (broadcastInDim S512x16x16 ![] bcast_S_S512x16x16 : (⟨S_, .f32⟩ : BufTy).Contents (Elt F) → (⟨S512x16x16, .f32⟩ : BufTy).Contents (Elt F)),
    StableHlo.binary main_v120 main_v119 main_v121 (mulf : (⟨S512x16x16, .f32⟩ : BufTy).Contents (Elt F) → (⟨S512x16x16, .f32⟩ : BufTy).Contents (Elt F) → (⟨S512x16x16, .f32⟩ : BufTy).Contents (Elt F)),
    StableHlo.binary main_v118 main_v121 main_v122 (subf : (⟨S512x16x16, .f32⟩ : BufTy).Contents (Elt F) → (⟨S512x16x16, .f32⟩ : BufTy).Contents (Elt F) → (⟨S512x16x16, .f32⟩ : BufTy).Contents (Elt F)) ]

/-- The tail: the whitening matrices, the whitened values, the affine line. -/
abbrev segZ : List (HloOp τ sig (Elt F)) :=
  [ StableHlo.unary main_v79 main_v123 (Host.sqrt : (⟨S512x1x1, .f32⟩ : BufTy).Contents (Elt F) → (⟨S512x1x1, .f32⟩ : BufTy).Contents (Elt F)),
    StableHlo.unary main_v123 main_v124 (broadcastInDim S512x16x16 ![0, 1, 2] bcast_S512x1x1_S512x16x16_0_1_2 : (⟨S512x1x1, .f32⟩ : BufTy).Contents (Elt F) → (⟨S512x16x16, .f32⟩ : BufTy).Contents (Elt F)),
    StableHlo.binary main_v122 main_v124 main_v125 (mulf : (⟨S512x16x16, .f32⟩ : BufTy).Contents (Elt F) → (⟨S512x16x16, .f32⟩ : BufTy).Contents (Elt F) → (⟨S512x16x16, .f32⟩ : BufTy).Contents (Elt F)),
    StableHlo.unary main_v61 main_v126 (broadcastInDim S512x16x4096 ![0, 1, 2] bcast_S512x16x1_S512x16x4096_0_1_2 : (⟨S512x16x1, .f32⟩ : BufTy).Contents (Elt F) → (⟨S512x16x4096, .f32⟩ : BufTy).Contents (Elt F)),
    StableHlo.binary main_v17 main_v126 main_v127 (subf : (⟨S512x16x4096, .f32⟩ : BufTy).Contents (Elt F) → (⟨S512x16x4096, .f32⟩ : BufTy).Contents (Elt F) → (⟨S512x16x4096, .f32⟩ : BufTy).Contents (Elt F)),
    StableHlo.binary main_v125 main_v127 main_v128 ((fun l r => Host.dotGeneral dot_S512x16x16_S512x16x4096_S512x16x4096_2_1_1_2_0_0 none l r) : (⟨S512x16x16, .f32⟩ : BufTy).Contents (Elt F) → (⟨S512x16x4096, .f32⟩ : BufTy).Contents (Elt F) → (⟨S512x16x4096, .f32⟩ : BufTy).Contents (Elt F)),
    StableHlo.reshape main_v128 main_v129 rfl shapeCasts_S512x16x4096_S32x256x64x64,
    StableHlo.unary main_arg3 main_v130 (broadcastInDim S1x256x1x1 ![1] bcast_S256_S1x256x1x1_1 : (⟨S256, .f32⟩ : BufTy).Contents (Elt F) → (⟨S1x256x1x1, .f32⟩ : BufTy).Contents (Elt F)),
    StableHlo.unary main_v130 main_v131 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    StableHlo.binary main_v129 main_v131 main_v132 (mulf : (⟨S32x256x64x64, .f32⟩ : BufTy).Contents (Elt F) → (⟨S32x256x64x64, .f32⟩ : BufTy).Contents (Elt F) → (⟨S32x256x64x64, .f32⟩ : BufTy).Contents (Elt F)),
    StableHlo.unary main_arg4 main_v133 (broadcastInDim S1x256x1x1 ![1] bcast_S256_S1x256x1x1_1 : (⟨S256, .f32⟩ : BufTy).Contents (Elt F) → (⟨S1x256x1x1, .f32⟩ : BufTy).Contents (Elt F)),
    StableHlo.unary main_v133 main_v134 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    StableHlo.binary main_v132 main_v134 main_v135 (addf : (⟨S32x256x64x64, .f32⟩ : BufTy).Contents (Elt F) → (⟨S32x256x64x64, .f32⟩ : BufTy).Contents (Elt F) → (⟨S32x256x64x64, .f32⟩ : BufTy).Contents (Elt F)) ]

/-- The whole line is the pieces in order. -/
theorem ops_eq : (ops : List (HloOp τ sig (Elt F))) = segA ++ (segN1 ++ (segN2 ++ (segN3 ++ (segN4 ++ (segN5 ++ segZ))))) := rfl

section Pieces
variable (V : Valuation τ sig (Elt 𝕀))

/-! ### The first piece -/

set_option maxRecDepth 16384 in
set_option maxHeartbeats 4000000 in
theorem segA_v81 : after (segA (F := 𝕀)) V (Proc.devRef .tc main_v81)
    = aCovN (aCov (V (Proc.devRef .tc main_arg0)) (Cert.RefSpec.softmax2 (V (Proc.devRef .tc main_arg2)))) := by
  after_results_simp
  rfl

set_option maxRecDepth 16384 in
set_option maxHeartbeats 4000000 in
theorem segA_v79 : after (segA (F := 𝕀)) V (Proc.devRef .tc main_v79)
    = aRTr (aCov (V (Proc.devRef .tc main_arg0)) (Cert.RefSpec.softmax2 (V (Proc.devRef .tc main_arg2)))) := by
  after_results_simp
  rfl

set_option maxRecDepth 16384 in
set_option maxHeartbeats 4000000 in
theorem segA_v61 : after (segA (F := 𝕀)) V (Proc.devRef .tc main_v61)
    = aMean (V (Proc.devRef .tc main_arg0)) (Cert.RefSpec.softmax2 (V (Proc.devRef .tc main_arg1))) := by
  after_results_simp
  rfl

set_option maxRecDepth 16384 in
set_option maxHeartbeats 4000000 in
theorem segA_v17 : after (segA (F := 𝕀)) V (Proc.devRef .tc main_v17) = aXin (V (Proc.devRef .tc main_arg0)) := by
  after_results_simp
  rfl

set_option maxRecDepth 16384 in
set_option maxHeartbeats 4000000 in
theorem segA_v82 : after (segA (F := 𝕀)) V (Proc.devRef .tc main_v82) = aP0 := by
  after_results_simp
  rfl

set_option maxRecDepth 16384 in
set_option maxHeartbeats 4000000 in
theorem segA_arg3 : after (segA (F := 𝕀)) V (Proc.devRef .tc main_arg3) = V (Proc.devRef .tc main_arg3) := by
  after_results_simp

set_option maxRecDepth 16384 in
set_option maxHeartbeats 4000000 in
theorem segA_arg4 : after (segA (F := 𝕀)) V (Proc.devRef .tc main_arg4) = V (Proc.devRef .tc main_arg4) := by
  after_results_simp

/-! ### The five steps -/

theorem segN1_out : after (segN1 (F := 𝕀)) V (Proc.devRef .tc main_v90) = aStep (V (Proc.devRef .tc main_v81)) (V (Proc.devRef .tc main_v82)) := by
  after_results_simp
  rfl
theorem segN1_v81 : after (segN1 (F := 𝕀)) V (Proc.devRef .tc main_v81) = V (Proc.devRef .tc main_v81) := by
  after_results_simp
theorem segN1_v79 : after (segN1 (F := 𝕀)) V (Proc.devRef .tc main_v79) = V (Proc.devRef .tc main_v79) := by
  after_results_simp
theorem segN1_v61 : after (segN1 (F := 𝕀)) V (Proc.devRef .tc main_v61) = V (Proc.devRef .tc main_v61) := by
  after_results_simp
theorem segN1_v17 : after (segN1 (F := 𝕀)) V (Proc.devRef .tc main_v17) = V (Proc.devRef .tc main_v17) := by
  after_results_simp
theorem segN1_arg3 : after (segN1 (F := 𝕀)) V (Proc.devRef .tc main_arg3) = V (Proc.devRef .tc main_arg3) := by
  after_results_simp
theorem segN1_arg4 : after (segN1 (F := 𝕀)) V (Proc.devRef .tc main_arg4) = V (Proc.devRef .tc main_arg4) := by
  after_results_simp

theorem segN2_out : after (segN2 (F := 𝕀)) V (Proc.devRef .tc main_v98) = aStep (V (Proc.devRef .tc main_v81)) (V (Proc.devRef .tc main_v90)) := by
  after_results_simp
  rfl
theorem segN2_v81 : after (segN2 (F := 𝕀)) V (Proc.devRef .tc main_v81) = V (Proc.devRef .tc main_v81) := by
  after_results_simp
theorem segN2_v79 : after (segN2 (F := 𝕀)) V (Proc.devRef .tc main_v79) = V (Proc.devRef .tc main_v79) := by
  after_results_simp
theorem segN2_v61 : after (segN2 (F := 𝕀)) V (Proc.devRef .tc main_v61) = V (Proc.devRef .tc main_v61) := by
  after_results_simp
theorem segN2_v17 : after (segN2 (F := 𝕀)) V (Proc.devRef .tc main_v17) = V (Proc.devRef .tc main_v17) := by
  after_results_simp
theorem segN2_arg3 : after (segN2 (F := 𝕀)) V (Proc.devRef .tc main_arg3) = V (Proc.devRef .tc main_arg3) := by
  after_results_simp
theorem segN2_arg4 : after (segN2 (F := 𝕀)) V (Proc.devRef .tc main_arg4) = V (Proc.devRef .tc main_arg4) := by
  after_results_simp

theorem segN3_out : after (segN3 (F := 𝕀)) V (Proc.devRef .tc main_v106) = aStep (V (Proc.devRef .tc main_v81)) (V (Proc.devRef .tc main_v98)) := by
  after_results_simp
  rfl
theorem segN3_v81 : after (segN3 (F := 𝕀)) V (Proc.devRef .tc main_v81) = V (Proc.devRef .tc main_v81) := by
  after_results_simp
theorem segN3_v79 : after (segN3 (F := 𝕀)) V (Proc.devRef .tc main_v79) = V (Proc.devRef .tc main_v79) := by
  after_results_simp
theorem segN3_v61 : after (segN3 (F := 𝕀)) V (Proc.devRef .tc main_v61) = V (Proc.devRef .tc main_v61) := by
  after_results_simp
theorem segN3_v17 : after (segN3 (F := 𝕀)) V (Proc.devRef .tc main_v17) = V (Proc.devRef .tc main_v17) := by
  after_results_simp
theorem segN3_arg3 : after (segN3 (F := 𝕀)) V (Proc.devRef .tc main_arg3) = V (Proc.devRef .tc main_arg3) := by
  after_results_simp
theorem segN3_arg4 : after (segN3 (F := 𝕀)) V (Proc.devRef .tc main_arg4) = V (Proc.devRef .tc main_arg4) := by
  after_results_simp

theorem segN4_out : after (segN4 (F := 𝕀)) V (Proc.devRef .tc main_v114) = aStep (V (Proc.devRef .tc main_v81)) (V (Proc.devRef .tc main_v106)) := by
  after_results_simp
  rfl
theorem segN4_v81 : after (segN4 (F := 𝕀)) V (Proc.devRef .tc main_v81) = V (Proc.devRef .tc main_v81) := by
  after_results_simp
theorem segN4_v79 : after (segN4 (F := 𝕀)) V (Proc.devRef .tc main_v79) = V (Proc.devRef .tc main_v79) := by
  after_results_simp
theorem segN4_v61 : after (segN4 (F := 𝕀)) V (Proc.devRef .tc main_v61) = V (Proc.devRef .tc main_v61) := by
  after_results_simp
theorem segN4_v17 : after (segN4 (F := 𝕀)) V (Proc.devRef .tc main_v17) = V (Proc.devRef .tc main_v17) := by
  after_results_simp
theorem segN4_arg3 : after (segN4 (F := 𝕀)) V (Proc.devRef .tc main_arg3) = V (Proc.devRef .tc main_arg3) := by
  after_results_simp
theorem segN4_arg4 : after (segN4 (F := 𝕀)) V (Proc.devRef .tc main_arg4) = V (Proc.devRef .tc main_arg4) := by
  after_results_simp

theorem segN5_out : after (segN5 (F := 𝕀)) V (Proc.devRef .tc main_v122) = aStep (V (Proc.devRef .tc main_v81)) (V (Proc.devRef .tc main_v114)) := by
  after_results_simp
  rfl
theorem segN5_v81 : after (segN5 (F := 𝕀)) V (Proc.devRef .tc main_v81) = V (Proc.devRef .tc main_v81) := by
  after_results_simp
theorem segN5_v79 : after (segN5 (F := 𝕀)) V (Proc.devRef .tc main_v79) = V (Proc.devRef .tc main_v79) := by
  after_results_simp
theorem segN5_v61 : after (segN5 (F := 𝕀)) V (Proc.devRef .tc main_v61) = V (Proc.devRef .tc main_v61) := by
  after_results_simp
theorem segN5_v17 : after (segN5 (F := 𝕀)) V (Proc.devRef .tc main_v17) = V (Proc.devRef .tc main_v17) := by
  after_results_simp
theorem segN5_arg3 : after (segN5 (F := 𝕀)) V (Proc.devRef .tc main_arg3) = V (Proc.devRef .tc main_arg3) := by
  after_results_simp
theorem segN5_arg4 : after (segN5 (F := 𝕀)) V (Proc.devRef .tc main_arg4) = V (Proc.devRef .tc main_arg4) := by
  after_results_simp

/-! ### The tail -/

theorem segZ_v135 : after (segZ (F := 𝕀)) V (Proc.devRef .tc main_v135)
    = aOut (aXhat (aWm (V (Proc.devRef .tc main_v79)) (V (Proc.devRef .tc main_v122))) (V (Proc.devRef .tc main_v17)) (V (Proc.devRef .tc main_v61)))
        (V (Proc.devRef .tc main_arg3)) (V (Proc.devRef .tc main_arg4)) := by
  after_results_simp
  rfl

end Pieces

end Cert.ReferenceIdeal.Hand

end
-- ==== Proof.RefIdxStats.lean ====
/-
  The batch and instance statistics read at an index: each array-level stage of the statistics, at an index given by
  its coordinates, is the corresponding scalar of the index-by-index statement. The batch of 512 matrices is indexed by
  b = n * 16 + g (sample n, group g); the reshapes' row-major arithmetic is done here, once per reshape.
-/
import proofs.«136164_j25769804234_2_alg».proof.Proof.RefArr
import proofs.«136164_j25769804234_2_alg».proof.Proof.LibBatchDot
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

local notation "𝕀" => Idealize.ShloMosaic.Ideal

/-- The batch index of sample n and group g. -/
def bIdx (n : Fin 32) (g : Fin 16) : Fin 512 := ⟨n.val * 16 + g.val, by have := n.isLt; have := g.isLt; omega⟩

section Stats
variable (x : FA S32x256x64x64)

/-- The channel-major view at (g, c, k) is x at sample k / 4096, channel (g, c), position k % 4096. -/
theorem aXbn_apply (g c : Fin 16) (k : Fin 131072) : aXbn x (ix3 g c k) = RefSpec.Xbn x g c k := by
  have hk := k.isLt
  unfold aXbn
  refine (shapeCast_apply _ _ (ix3 g c k)
    (ix4 (RefSpec.chan g c) (⟨k.val / 4096, by omega⟩ : Fin 32) (⟨k.val % 4096 / 64, by omega⟩ : Fin 64)
      (⟨k.val % 4096 % 64, by omega⟩ : Fin 64)) ?_).trans ?_
  · rw [Shape.rowMajor_val_four, Shape.rowMajor_val_three]
    show (((g.val * 16 + c.val) * 32 + k.val / 4096) * 64 + k.val % 4096 / 64) * 64 + k.val % 4096 % 64
      = (g.val * 16 + c.val) * 131072 + k.val
    omega
  · refine (transpose_apply _ _ _ _
      (ix4 (⟨k.val / 4096, by omega⟩ : Fin 32) (RefSpec.chan g c) (⟨k.val % 4096 / 64, by omega⟩ : Fin 64)
        (⟨k.val % 4096 % 64, by omega⟩ : Fin 64)) ?_).trans rfl
    intro b
    match b with
    | ⟨0, _⟩ => rfl
    | ⟨1, _⟩ => rfl
    | ⟨2, _⟩ => rfl
    | ⟨3, _⟩ => rfl

/-- The batch mean at (g, c). -/
theorem aMeanBn_apply (g c : Fin 16) : aMeanBn x (ix3 g c (0 : Fin 1)) = RefSpec.meanBn x g c := by
  unfold aMeanBn RefSpec.meanBn
  rw [hostDivf_apply]
  refine congrArg₂ Ideal.div ?_ ?_
  · refine (broadcastInDim_apply _ _ _ _ (ix2 g c) ?_).trans ?_
    · intro a
      match a with
      | ⟨0, _⟩ => rfl
      | ⟨1, _⟩ => rfl
    · rw [hostReduceAdd_apply]
      refine (Ideal.hostReduceAdd_single _ (by decide : S16x16x131072.Reduces [2] S16x16) _ _ _).trans ?_
      refine congrArg₂ (· + ·) rfl (Finset.sum_congr rfl fun k _ => ?_)
      exact (congrArg (aXbn x) (funext fun a => Fin.ext (by
        match a with
        | ⟨0, _⟩ => rfl
        | ⟨1, _⟩ => rfl
        | ⟨2, _⟩ => rfl))).trans (aXbn_apply x g c k)
  · exact broadcastInDim_scalar_apply _ _ _

/-- The channel-major view centred by the batch means. -/
theorem aCenBn_apply (g c : Fin 16) (k : Fin 131072) :
    aCenBn x (ix3 g c k) = RefSpec.Xbn x g c k - RefSpec.meanBn x g c := by
  unfold aCenBn
  rw [subf_apply, aXbn_apply]
  refine congrArg (RefSpec.Xbn x g c k - ·) ?_
  refine (broadcastInDim_apply _ _ _ _ (ix3 g c (0 : Fin 1)) ?_).trans (aMeanBn_apply x g c)
  intro a
  match a with
      | ⟨0, _⟩ => rfl
      | ⟨1, _⟩ => rfl
      | ⟨2, _⟩ => rfl

/-- The batch covariance at (g, c, d). -/
theorem aCovBn_apply (g c d : Fin 16) : aCovBn x (ix3 g c d) = RefSpec.covBn x g c d := by
  unfold aCovBn RefSpec.covBn
  rw [hostDivf_apply]
  refine congrArg₂ Ideal.div ?_ (broadcastInDim_scalar_apply _ _ _)
  simp only [Host.dotGeneral]
  refine (Cert.LibBatchDot.dotGeneral_ix3_gram (B := 16) (a := 16) (K := 131072) (b := 16) _ none _ rfl rfl
    (fun _ _ => rfl) (fun _ _ => rfl) (fun _ _ => rfl) (fun _ _ => rfl) (fun _ _ => rfl) (fun _ _ => rfl) _ _ _).trans ?_
  refine Finset.sum_congr rfl fun k _ => ?_
  exact congrArg₂ (· * ·) (aCenBn_apply x g c k) (aCenBn_apply x g d k)

/-- The batch mean repeated for every sample: at batch entry (n, g) it is group g's. -/
theorem aMeanBnB_apply (n : Fin 32) (g c : Fin 16) :
    aMeanBnB x (ix3 (bIdx n g) c (0 : Fin 1)) = RefSpec.meanBn x g c := by
  unfold aMeanBnB
  refine (shapeCast_apply _ _ _ (ix4 n g c (0 : Fin 1)) ?_).trans ?_
  · rw [Shape.rowMajor_val_four, Shape.rowMajor_val_three]
    rfl
  · refine (broadcastInDim_apply _ _ _ _ (ix4 (0 : Fin 1) g c (0 : Fin 1)) ?_).trans ?_
    · intro a
      match a with
      | ⟨0, _⟩ => rfl
      | ⟨1, _⟩ => rfl
      | ⟨2, _⟩ => rfl
      | ⟨3, _⟩ => rfl
    · refine (broadcastInDim_apply _ _ _ _ (ix3 g c (0 : Fin 1)) ?_).trans (aMeanBn_apply x g c)
      intro a
      match a with
      | ⟨0, _⟩ => rfl
      | ⟨1, _⟩ => rfl
      | ⟨2, _⟩ => rfl

/-- The batch covariance repeated for every sample. -/
theorem aCovBnB_apply (n : Fin 32) (g c d : Fin 16) :
    aCovBnB x (ix3 (bIdx n g) c d) = RefSpec.covBn x g c d := by
  unfold aCovBnB
  refine (shapeCast_apply _ _ _ (ix4 n g c d) ?_).trans ?_
  · rw [Shape.rowMajor_val_four, Shape.rowMajor_val_three]
    rfl
  · refine (broadcastInDim_apply _ _ _ _ (ix4 (0 : Fin 1) g c d) ?_).trans ?_
    · intro a
      match a with
      | ⟨0, _⟩ => rfl
      | ⟨1, _⟩ => rfl
      | ⟨2, _⟩ => rfl
      | ⟨3, _⟩ => rfl
    · refine (broadcastInDim_apply _ _ _ _ (ix3 g c d) ?_).trans (aCovBn_apply x g c d)
      intro a
      match a with
      | ⟨0, _⟩ => rfl
      | ⟨1, _⟩ => rfl
      | ⟨2, _⟩ => rfl

/-- The per-sample view at batch entry (n, g), channel c, position m. -/
theorem aXin_apply (n : Fin 32) (g c : Fin 16) (m : Fin 4096) :
    aXin x (ix3 (bIdx n g) c m) = RefSpec.X x n (RefSpec.chan g c) m := by
  have hm := m.isLt
  unfold aXin
  refine (shapeCast_apply _ _ _
    (ix4 n (RefSpec.chan g c) (⟨m.val / 64, by omega⟩ : Fin 64) (⟨m.val % 64, by omega⟩ : Fin 64)) ?_).trans rfl
  rw [Shape.rowMajor_val_four, Shape.rowMajor_val_three]
  show ((n.val * 256 + (g.val * 16 + c.val)) * 64 + m.val / 64) * 64 + m.val % 64
    = ((n.val * 16 + g.val) * 16 + c.val) * 4096 + m.val
  omega

/-- The instance mean at batch entry (n, g), channel c. -/
theorem aMeanIn_apply (n : Fin 32) (g c : Fin 16) :
    aMeanIn x (ix3 (bIdx n g) c (0 : Fin 1)) = RefSpec.meanIn x g n c := by
  unfold aMeanIn RefSpec.meanIn
  rw [hostDivf_apply]
  refine congrArg₂ Ideal.div ?_ ?_
  · refine (broadcastInDim_apply _ _ _ _ (ix2 (bIdx n g) c) ?_).trans ?_
    · intro a
      match a with
      | ⟨0, _⟩ => rfl
      | ⟨1, _⟩ => rfl
    · rw [hostReduceAdd_apply]
      refine (Ideal.hostReduceAdd_single _ (by decide : S512x16x4096.Reduces [2] S512x16) _ _ _).trans ?_
      refine congrArg₂ (· + ·) rfl (Finset.sum_congr rfl fun m _ => ?_)
      exact (congrArg (aXin x) (funext fun a => Fin.ext (by
        match a with
        | ⟨0, _⟩ => rfl
        | ⟨1, _⟩ => rfl
        | ⟨2, _⟩ => rfl))).trans (aXin_apply x n g c m)
  · exact broadcastInDim_scalar_apply _ _ _

/-- The per-sample view centred by a [512, 16, 1] array of means. -/
theorem aCenIn_apply (M : FA S512x16x1) (n : Fin 32) (g c : Fin 16) (m : Fin 4096) :
    aCenIn x M (ix3 (bIdx n g) c m) = RefSpec.X x n (RefSpec.chan g c) m - M (ix3 (bIdx n g) c (0 : Fin 1)) := by
  unfold aCenIn
  rw [subf_apply, aXin_apply]
  refine congrArg (RefSpec.X x n (RefSpec.chan g c) m - ·) ?_
  refine (broadcastInDim_apply _ _ _ _ (ix3 (bIdx n g) c (0 : Fin 1)) ?_).trans rfl
  intro a
  match a with
      | ⟨0, _⟩ => rfl
      | ⟨1, _⟩ => rfl
      | ⟨2, _⟩ => rfl

/-- The instance covariance at batch entry (n, g). -/
theorem aCovIn_apply (n : Fin 32) (g c d : Fin 16) :
    aCovIn x (ix3 (bIdx n g) c d) = RefSpec.covIn x g n c d := by
  unfold aCovIn RefSpec.covIn
  rw [hostDivf_apply]
  refine congrArg₂ Ideal.div ?_ (broadcastInDim_scalar_apply _ _ _)
  simp only [Host.dotGeneral]
  refine (Cert.LibBatchDot.dotGeneral_ix3_gram (B := 512) (a := 16) (K := 4096) (b := 16) _ none _ rfl rfl
    (fun _ _ => rfl) (fun _ _ => rfl) (fun _ _ => rfl) (fun _ _ => rfl) (fun _ _ => rfl) (fun _ _ => rfl) _ _ _).trans ?_
  refine Finset.sum_congr rfl fun m _ => ?_
  refine congrArg₂ (· * ·) ((aCenIn_apply x _ n g c m).trans ?_) ((aCenIn_apply x _ n g d m).trans ?_)
  · rw [aMeanIn_apply]
  · rw [aMeanIn_apply]

end Stats

end Cert.ReferenceIdeal.Hand

end
-- ==== Proof.RefIdxMix.lean ====
/-
  The identity mask, the two picked softmax weights and the two mixing lines read at an index.
-/
import proofs.«136164_j25769804234_2_alg».proof.Proof.RefIdxStats
import proofs.«136164_j25769804234_2_alg».proof.Proof.LibBatchDot
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

local notation "𝕀" => Idealize.ShloMosaic.Ideal

/-- Row index plus 0 equal to column index, as 32-bit words below 16: the bit 1 on the diagonal, 0 off it. -/
theorem mask_word : ∀ c d : Fin 16,
    IntOp.cmpi .eq (IntOp.addi (BitVec.ofNat 32 c.val) 0#32) (BitVec.ofNat 32 d.val) = if c = d then 1#1 else 0#1 := by
  decide

/-- The mask at (c, d). -/
theorem aMask_apply (c d : Fin 16) : aMask (ix2 c d) = if c = d then 1#1 else 0#1 := mask_word c d

/-- The converted mask is the identity matrix. -/
theorem aEye_apply (c d : Fin 16) : aEye (ix2 c d) = RefSpec.eye c d := by
  show ((((aMask (ix2 c d)).toNat : ℕ) : ℝ) : EReal) = if c = d then 1 else 0
  rw [aMask_apply]
  by_cases h : c = d
  · rw [if_pos h, if_pos h]; simp
  · rw [if_neg h, if_neg h]; simp

/-- The first element of a pair, as a scalar. -/
theorem aPick0_apply (s : FA S2) (j : S_.Idx) : aPick0 s j = s (ix1 (0 : Fin 2)) := by
  unfold aPick0
  refine (shapeCast_apply _ _ j (ix1 (0 : Fin 1)) ?_).trans ?_
  · rw [Shape.rowMajor_val_one]
    have h1 : S_.numel = 1 := by decide
    have h2 := (S_.rowMajor j).isLt
    show (0 : ℕ) = (S_.rowMajor j).val
    omega
  · refine (extractStridedSlice_apply _ _ _ _ (ix1 (0 : Fin 2)) ?_).trans rfl
    intro a
    match a with
    | ⟨0, _⟩ => rfl

/-- The second element of a pair, as a scalar. -/
theorem aPick1_apply (s : FA S2) (j : S_.Idx) : aPick1 s j = s (ix1 (1 : Fin 2)) := by
  unfold aPick1
  refine (shapeCast_apply _ _ j (ix1 (0 : Fin 1)) ?_).trans ?_
  · rw [Shape.rowMajor_val_one]
    have h1 : S_.numel = 1 := by decide
    have h2 := (S_.rowMajor j).isLt
    show (0 : ℕ) = (S_.rowMajor j).val
    omega
  · refine (extractStridedSlice_apply _ _ _ _ (ix1 (1 : Fin 2)) ?_).trans rfl
    intro a
    match a with
    | ⟨0, _⟩ => rfl

section Mix
variable (x : FA S32x256x64x64)

/-- The mixed mean at batch entry (n, g), channel c. -/
theorem aMean_apply (sm : FA S2) (n : Fin 32) (g c : Fin 16) :
    aMean x sm (ix3 (bIdx n g) c (0 : Fin 1)) = RefSpec.mean x (fun i => sm (ix1 i)) g n c := by
  unfold aMean RefSpec.mean RefSpec.meanMix
  rw [addf_apply, mulf_apply, mulf_apply, aMeanBnB_apply, aMeanIn_apply, broadcastInDim_scalar_apply,
    broadcastInDim_scalar_apply, aPick0_apply, aPick1_apply]

/-- The mixed, regularized covariance at batch entry (n, g). -/
theorem aCov_apply (sv : FA S2) (n : Fin 32) (g c d : Fin 16) :
    aCov x sv (ix3 (bIdx n g) c d) = RefSpec.cov x (fun i => sv (ix1 i)) g n c d := by
  unfold aCov RefSpec.cov RefSpec.covMix
  rw [addf_apply, addf_apply, mulf_apply, mulf_apply, aCovBnB_apply, aCovIn_apply, broadcastInDim_scalar_apply,
    broadcastInDim_scalar_apply, aPick0_apply, aPick1_apply]
  refine congrArg₂ (· + ·) rfl ?_
  refine (broadcastInDim_apply _ _ _ _ (ix3 (0 : Fin 1) c d) ?_).trans ?_
  · intro a
    match a with
      | ⟨0, _⟩ => rfl
      | ⟨1, _⟩ => rfl
      | ⟨2, _⟩ => rfl
  · refine (broadcastInDim_apply _ _ _ _ (ix2 c d) ?_).trans ?_
    · intro a
      match a with
      | ⟨0, _⟩ => rfl
      | ⟨1, _⟩ => rfl
    · rw [mulf_apply, broadcastInDim_scalar_apply, constant_apply, aEye_apply]

end Mix

end Cert.ReferenceIdeal.Hand

end
-- ==== Proof.RefIdxTail.lean ====
/-
  The trace, the normalization, the Newton-Schulz step, the whitening and the affine line read at an index. A
  [512, 16, 16] array is read as 512 matrices (matAt); each stage on the arrays is then the corresponding function of
  the abstract matrix, batch entry by batch entry.
-/
import proofs.«136164_j25769804234_2_alg».proof.Proof.RefIdxMix
import proofs.«136164_j25769804234_2_alg».proof.Proof.LibBatchDot
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

local notation "𝕀" => Idealize.ShloMosaic.Ideal

/-- The matrix of batch entry b. -/
def matAt (A : FA S512x16x16) (b : Fin 512) : RefSpec.Mat := fun c d => A (ix3 b c d)

/-- The trace of batch entry b: the reduction over both matrix axes is the double sum over rows and columns, and the
    masked entry is the entry on the diagonal and 0 off it. -/
theorem aTr_apply (C : FA S512x16x16) (b : Fin 512) : aTr C (ix1 b) = RefSpec.tr (matAt C b) := by
  unfold aTr RefSpec.tr
  rw [hostReduceAdd_apply]
  unfold Ideal.hostReduceAdd
  refine congrArg₂ (· + ·) rfl ?_
  refine Eq.trans ?_ (Finset.sum_product' Finset.univ Finset.univ
    (fun c d : Fin 16 => if c = d then matAt C b c d else Ideal.ofBits .f32 0x00000000#32))
  refine (Finset.sum_bij' (fun (p : Fin 16 × Fin 16) _ => (ix3 b p.1 p.2 : S512x16x16.Idx))
    (fun (i : S512x16x16.Idx) _ => ((i 1 : Fin 16), (i 2 : Fin 16))) ?_ ?_ ?_ ?_ ?_).symm
  · intro p _
    exact Finset.mem_filter.mpr ⟨Finset.mem_univ _, funext fun a => Fin.ext (by
      match a with
      | ⟨0, _⟩ => rfl)⟩
  · intro i _
    exact Finset.mem_product.mpr ⟨Finset.mem_univ _, Finset.mem_univ _⟩
  · intro p _
    rfl
  · intro i hi
    have h0 : (i 0).val = b.val := by
      have e := congrArg (fun j : S512.Idx => (j 0).val) (Finset.mem_filter.mp hi).2
      exact e
    funext a
    match a with
    | ⟨0, _⟩ => exact Fin.ext h0.symm
    | ⟨1, _⟩ => rfl
    | ⟨2, _⟩ => rfl
  · intro p _
    obtain ⟨c, d⟩ := p
    show (if c = d then matAt C b c d else Ideal.ofBits .f32 0x00000000#32) = _
    rw [select_apply]
    have hm : broadcastInDim S512x16x16 ![1, 2] bcast_S16x16_S512x16x16_1_2 aMask (ix3 b c d) = if c = d then 1#1 else 0#1 := by
      refine (broadcastInDim_apply _ _ _ _ (ix2 c d) ?_).trans (aMask_apply c d)
      intro a
      match a with
      | ⟨0, _⟩ => rfl
      | ⟨1, _⟩ => rfl
    rw [hm]
    by_cases h : c = d
    · rw [if_pos h, if_pos h, select_one]; rfl
    · rw [if_neg h, if_neg h, select_zero]
      exact Eq.symm (broadcastInDim_scalar_apply bcast_S_S512x16x16 (constant (F := 𝕀) S_ .f32 0x00000000#32) (ix3 b c d))

/-- The reciprocal trace of batch entry b. -/
theorem aRTr_apply (C : FA S512x16x16) (b : Fin 512) :
    aRTr C (ix3 b (0 : Fin 1) (0 : Fin 1)) = RefSpec.rTr (matAt C b) := by
  unfold aRTr RefSpec.rTr
  rw [hostDivf_apply]
  refine congrArg₂ Ideal.div (broadcastInDim_scalar_apply _ _ _) ?_
  refine (broadcastInDim_apply _ _ _ _ (ix1 b) ?_).trans (aTr_apply C b)
  intro a
  match a with
  | ⟨0, _⟩ => rfl

/-- The normalized matrix of batch entry b. -/
theorem aCovN_mat (C : FA S512x16x16) (b : Fin 512) : matAt (aCovN C) b = RefSpec.covN (matAt C b) := by
  funext c d
  show aCovN C (ix3 b c d) = C (ix3 b c d) * RefSpec.rTr (matAt C b)
  unfold aCovN
  rw [mulf_apply]
  refine congrArg (C (ix3 b c d) * ·) ?_
  refine (broadcastInDim_apply _ _ _ _ (ix3 b (0 : Fin 1) (0 : Fin 1)) ?_).trans (aRTr_apply C b)
  intro a
  match a with
      | ⟨0, _⟩ => rfl
      | ⟨1, _⟩ => rfl
      | ⟨2, _⟩ => rfl

/-- The first iterate is the identity at every batch entry. -/
theorem aP0_mat (b : Fin 512) : matAt aP0 b = RefSpec.eye := by
  funext c d
  show aP0 (ix3 b c d) = RefSpec.eye c d
  unfold aP0
  refine (broadcastInDim_apply _ _ _ _ (ix2 c d) ?_).trans (aEye_apply c d)
  intro a
  match a with
  | ⟨0, _⟩ => rfl
  | ⟨1, _⟩ => rfl

/-- The batched product is the matrix product at every batch entry. -/
theorem aDot_mat (A B : FA S512x16x16) (b : Fin 512) : matAt (aDot A B) b = RefSpec.mmul (matAt A b) (matAt B b) := by
  funext i k
  show aDot A B (ix3 b i k) = ∑ j : Fin 16, A (ix3 b i j) * B (ix3 b j k)
  unfold aDot
  simp only [Host.dotGeneral]
  exact Cert.LibBatchDot.dotGeneral_ix3 (B := 512) (a := 16) (K := 16) (b := 16) _ none _ rfl rfl
    (fun _ _ => rfl) (fun _ _ => rfl) (fun _ _ => rfl) (fun _ _ => rfl) (fun _ _ => rfl) (fun _ _ => rfl) A B (ix3 b i k)

/-- One Newton-Schulz step on the arrays is the step on the matrices of every batch entry. -/
theorem aStep_mat (C P : FA S512x16x16) (b : Fin 512) :
    matAt (aStep C P) b = RefSpec.step (matAt C b) (matAt P b) := by
  funext i k
  show aStep C P (ix3 b i k) = Ideal.ofBits .f32 0x3FC00000#32 * P (ix3 b i k)
    - Ideal.ofBits .f32 0x3F000000#32
      * RefSpec.mmul (RefSpec.mmul (RefSpec.mmul (matAt P b) (matAt P b)) (matAt P b)) (matAt C b) i k
  rw [← aDot_mat, ← aDot_mat, ← aDot_mat]
  unfold aStep
  rw [subf_apply, mulf_apply, mulf_apply, broadcastInDim_scalar_apply, broadcastInDim_scalar_apply]
  rfl

/-- The whitening matrix at an index: the iterate's entry times the square root of the batch entry's scalar. -/
theorem aWm_apply (R : FA S512x1x1) (P : FA S512x16x16) (b : Fin 512) (c d : Fin 16) :
    aWm R P (ix3 b c d) = P (ix3 b c d) * Ideal.sqrt (R (ix3 b (0 : Fin 1) (0 : Fin 1))) := by
  unfold aWm
  rw [mulf_apply]
  refine congrArg (P (ix3 b c d) * ·) ?_
  refine (broadcastInDim_apply _ _ _ _ (ix3 b (0 : Fin 1) (0 : Fin 1)) ?_).trans rfl
  intro a
  match a with
      | ⟨0, _⟩ => rfl
      | ⟨1, _⟩ => rfl
      | ⟨2, _⟩ => rfl

/-- The whitened value at (b, c, m): the row of the whitening matrix against the centred column. -/
theorem aXhat_apply (W : FA S512x16x16) (Xi : FA S512x16x4096) (M : FA S512x16x1) (b : Fin 512) (c : Fin 16) (m : Fin 4096) :
    aXhat W Xi M (ix3 b c m) = ∑ d : Fin 16, W (ix3 b c d) * (Xi (ix3 b d m) - M (ix3 b d (0 : Fin 1))) := by
  unfold aXhat
  simp only [Host.dotGeneral]
  refine (Cert.LibBatchDot.dotGeneral_ix3 (B := 512) (a := 16) (K := 16) (b := 4096) _ none _ rfl rfl
    (fun _ _ => rfl) (fun _ _ => rfl) (fun _ _ => rfl) (fun _ _ => rfl) (fun _ _ => rfl) (fun _ _ => rfl) _ _ _).trans ?_
  refine Finset.sum_congr rfl fun d _ => ?_
  refine congrArg (W (ix3 b c d) * ·) ?_
  rw [subf_apply]
  refine congrArg (Xi (ix3 b d m) - ·) ?_
  refine (broadcastInDim_apply _ _ _ _ (ix3 b d (0 : Fin 1)) ?_).trans rfl
  intro a
  match a with
      | ⟨0, _⟩ => rfl
      | ⟨1, _⟩ => rfl
      | ⟨2, _⟩ => rfl

/-- The affine line at (n, ch, h, w): the whitened value of batch entry (n, ch / 16), channel ch % 16, position
    h * 64 + w, times the channel's weight plus the channel's bias. -/
theorem aOut_apply (xh : FA S512x16x4096) (w bias : FA S256) (n : Fin 32) (ch : Fin 256) (h w' : Fin 64) :
    aOut xh w bias (ix4 n ch h w')
      = xh (ix3 (bIdx n ⟨ch.val / 16, by have := ch.isLt; omega⟩) (⟨ch.val % 16, by omega⟩ : Fin 16)
            (⟨h.val * 64 + w'.val, by have := h.isLt; have := w'.isLt; omega⟩ : Fin 4096)) * w (ix1 ch) + bias (ix1 ch) := by
  have hch := ch.isLt
  have hh := h.isLt
  have hw := w'.isLt
  unfold aOut
  rw [addf_apply, mulf_apply]
  refine congrArg₂ (· + ·) (congrArg₂ (· * ·) ?_ ?_) ?_
  · refine shapeCast_apply _ _ _ _ ?_
    rw [Shape.rowMajor_val_four, Shape.rowMajor_val_three]
    show ((n.val * 16 + ch.val / 16) * 16 + ch.val % 16) * 4096 + (h.val * 64 + w'.val)
      = ((n.val * 256 + ch.val) * 64 + h.val) * 64 + w'.val
    omega
  · refine (broadcastInDim_apply _ _ _ _ (ix4 (0 : Fin 1) ch (0 : Fin 1) (0 : Fin 1)) ?_).trans ?_
    · intro a
      match a with
      | ⟨0, _⟩ => rfl
      | ⟨1, _⟩ => rfl
      | ⟨2, _⟩ => rfl
      | ⟨3, _⟩ => rfl
    · refine (broadcastInDim_apply _ _ _ _ (ix1 ch) ?_).trans rfl
      intro a
      match a with
      | ⟨0, _⟩ => rfl
  · refine (broadcastInDim_apply _ _ _ _ (ix4 (0 : Fin 1) ch (0 : Fin 1) (0 : Fin 1)) ?_).trans ?_
    · intro a
      match a with
      | ⟨0, _⟩ => rfl
      | ⟨1, _⟩ => rfl
      | ⟨2, _⟩ => rfl
      | ⟨3, _⟩ => rfl
    · refine (broadcastInDim_apply _ _ _ _ (ix1 ch) ?_).trans rfl
      intro a
      match a with
      | ⟨0, _⟩ => rfl

end Cert.ReferenceIdeal.Hand

end
-- ==== Proof.RefValue.lean ====
/-
  The reference program's value. The result buffer after the whole line of operations is, index by index, the
  statement's function of the five argument arrays: the pieces of the line give it as the array-level stages composed,
  and the stages read at an index are the statement's scalars — the program's own arithmetic re-indexed, nothing
  distributed and nothing cancelled.
-/
import proofs.«136164_j25769804234_2_alg».proof.Proof.RefSeg
import proofs.«136164_j25769804234_2_alg».proof.Proof.RefIdxTail

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

local notation "𝕀" => Idealize.ShloMosaic.Ideal

section Whiten
variable (x : FA S32x256x64x64) (sm sv : FA S2)

/-- The whitening matrix of batch entry (n, g): five steps from the identity on the normalized mixed covariance,
    times the square root of the reciprocal trace. -/
theorem aWm_whiten (n : Fin 32) (g c d : Fin 16) :
    aWm (aRTr (aCov x sv))
        (aStep (aCovN (aCov x sv)) (aStep (aCovN (aCov x sv)) (aStep (aCovN (aCov x sv))
          (aStep (aCovN (aCov x sv)) (aStep (aCovN (aCov x sv)) aP0))))) (ix3 (bIdx n g) c d)
      = RefSpec.wm x (fun i => sv (ix1 i)) g n c d := by
  have hC : matAt (aCov x sv) (bIdx n g) = RefSpec.cov x (fun i => sv (ix1 i)) g n :=
    funext fun c => funext fun d => aCov_apply x sv n g c d
  have hP : matAt (aStep (aCovN (aCov x sv)) (aStep (aCovN (aCov x sv)) (aStep (aCovN (aCov x sv))
        (aStep (aCovN (aCov x sv)) (aStep (aCovN (aCov x sv)) aP0))))) (bIdx n g)
      = RefSpec.step (RefSpec.covN (RefSpec.cov x (fun i => sv (ix1 i)) g n))
          (RefSpec.step (RefSpec.covN (RefSpec.cov x (fun i => sv (ix1 i)) g n))
            (RefSpec.step (RefSpec.covN (RefSpec.cov x (fun i => sv (ix1 i)) g n))
              (RefSpec.step (RefSpec.covN (RefSpec.cov x (fun i => sv (ix1 i)) g n))
                (RefSpec.step (RefSpec.covN (RefSpec.cov x (fun i => sv (ix1 i)) g n)) RefSpec.eye)))) := by
    rw [aStep_mat, aStep_mat, aStep_mat, aStep_mat, aStep_mat, aP0_mat, aCovN_mat, hC]
  rw [aWm_apply, aRTr_apply, hC]
  unfold RefSpec.wm RefSpec.wmOf
  exact congrArg (· * Ideal.sqrt (RefSpec.rTr (RefSpec.cov x (fun i => sv (ix1 i)) g n))) (congrFun (congrFun hP c) d)

/-- The whitened value of batch entry (n, g), channel c, position m. -/
theorem aXhat_whiten (n : Fin 32) (g c : Fin 16) (m : Fin 4096) :
    aXhat (aWm (aRTr (aCov x sv))
        (aStep (aCovN (aCov x sv)) (aStep (aCovN (aCov x sv)) (aStep (aCovN (aCov x sv))
          (aStep (aCovN (aCov x sv)) (aStep (aCovN (aCov x sv)) aP0))))))
        (aXin x) (aMean x sm) (ix3 (bIdx n g) c m)
      = RefSpec.xhat x (fun i => sm (ix1 i)) (fun i => sv (ix1 i)) g n c m := by
  rw [aXhat_apply]
  unfold RefSpec.xhat
  refine Finset.sum_congr rfl fun d _ => ?_
  rw [aWm_whiten, aXin_apply, aMean_apply]

end Whiten

set_option maxRecDepth 8192 in
/-- THE REFERENCE'S VALUE: after the whole line of operations the result buffer holds, index by index, the statement's
    function of the five arguments (the two softmaxes kept as the array-level chains). -/
theorem ref_value (V : Valuation τ sig (Elt 𝕀)) :
    after ops V (Proc.devRef .tc main_v135)
      = Cert.RefSpec.outArr (V (Proc.devRef .tc main_arg0))
          (fun i => Cert.RefSpec.softmax2 (V (Proc.devRef .tc main_arg1)) (ix1 i))
          (fun i => Cert.RefSpec.softmax2 (V (Proc.devRef .tc main_arg2)) (ix1 i))
          (V (Proc.devRef .tc main_arg3)) (V (Proc.devRef .tc main_arg4)) := by
  rw [ops_eq, after_append, after_append, after_append, after_append, after_append, after_append]
  rw [segZ_v135]
  rw [segN5_out, segN5_v79, segN5_v61, segN5_v17, segN5_arg3, segN5_arg4]
  rw [segN4_out, segN4_v81, segN4_v79, segN4_v61, segN4_v17, segN4_arg3, segN4_arg4]
  rw [segN3_out, segN3_v81, segN3_v79, segN3_v61, segN3_v17, segN3_arg3, segN3_arg4]
  rw [segN2_out, segN2_v81, segN2_v79, segN2_v61, segN2_v17, segN2_arg3, segN2_arg4]
  rw [segN1_out, segN1_v81, segN1_v79, segN1_v61, segN1_v17, segN1_arg3, segN1_arg4]
  rw [segA_v82, segA_v81, segA_v79, segA_v61, segA_v17, segA_arg3, segA_arg4]
  funext i
  obtain ⟨n, ch, h, w, rfl⟩ : ∃ (n : Fin 32) (ch : Fin 256) (h w : Fin 64), i = ix4 n ch h w :=
    ⟨i 0, i 1, i 2, i 3, eq_ix4 i⟩
  rw [aOut_apply, aXhat_whiten]
  rfl

end Cert.ReferenceIdeal.Hand

end
-- ==== Proof.Consts.lean ====
/-
  The float constants this proof evaluates, as the extended reals their patterns denote: zero, 4096 and its reciprocal,
  131072. Every other constant of the two programs meets the same pattern on the other side and is never evaluated.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_131072 : Ideal.ofBits .f32 0x48000000#32 = ((131072 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

end Cert.Consts

end
-- ==== Proof.BridgeMean.lean ====
/-
  The statistics as the kernel program computes them are the statement's, as far as that holds for EVERY extended real
  input: the instance mean (a sum from 0 is the sum), the batch mean (a sum over all 131072 = 32 * 4096 positions of a
  channel is the sum over the samples of the sums over a sample's positions), and the instance covariance (a product
  with the reciprocal 1/4096 is the quotient by 4096).
-/
import proofs.«136164_j25769804234_2_alg».proof.Proof.KSpec
import proofs.«136164_j25769804234_2_alg».proof.Proof.Consts

noncomputable section

open scoped BigOperators

namespace Cert.Bridge

open Idealize.ShloMosaic Idealize.ShloMosaic.ValueIdx Cert.RefSpec Cert.KSpec

/-- A position k of a channel over the whole batch is the pair (sample k / 4096, position k % 4096). -/
def splitEquiv : Fin 131072 ≃ Fin 32 × Fin 4096 where
  toFun k := (⟨k.val / 4096, by have := k.isLt; omega⟩, ⟨k.val % 4096, by omega⟩)
  invFun p := ⟨p.1.val * 4096 + p.2.val, by have := p.1.isLt; have := p.2.isLt; omega⟩
  left_inv k := Fin.ext (by show k.val / 4096 * 4096 + k.val % 4096 = k.val; omega)
  right_inv p := by
    have h1 := p.1.isLt
    have h2 := p.2.isLt
    refine Prod.ext (Fin.ext ?_) (Fin.ext ?_)
    · show (p.1.val * 4096 + p.2.val) / 4096 = p.1.val
      omega
    · show (p.1.val * 4096 + p.2.val) % 4096 = p.2.val
      omega

/-- A sum over the 131072 positions of a channel is the sum over the samples of the sums over a sample's positions. -/
theorem sum_split {M : Type*} [AddCommMonoid M] (f : Fin 32 → Fin 4096 → M) :
    ∑ k : Fin 131072, f ⟨k.val / 4096, by have := k.isLt; omega⟩ ⟨k.val % 4096, by omega⟩
      = ∑ n : Fin 32, ∑ m : Fin 4096, f n m := by
  rw [← Fintype.sum_prod_type']
  exact Fintype.sum_equiv splitEquiv _ _ fun _ => rfl

variable (x : FVec Ideal ⟨4, ![32, 256, 64, 64]⟩ .f32)

/-- The instance mean. -/
theorem kMeanIn_eq (g : Fin 16) (n : Fin 32) (c : Fin 16) : kMeanIn x g n c = meanIn x g n c := by
  unfold kMeanIn meanIn kS
  rw [Cert.Consts.ofBits_zero, zero_add]

/-- The batch mean. -/
theorem kMb_eq (g c : Fin 16) : kMb x g c = meanBn x g c := by
  unfold kMb meanBn kS
  refine congrArg (fun s => Ideal.div (Ideal.ofBits .f32 0x00000000#32 + s) (Ideal.ofBits .f32 0x48000000#32)) ?_
  exact (sum_split fun n m => X x n (chan g c) m).symm

/-- A product with the reciprocal of 4096 is the quotient of the sum from 0 by 4096. -/
theorem mul_inv4096 (s : EReal) :
    s * Ideal.ofBits .f32 0x39800000#32 = Ideal.div (Ideal.ofBits .f32 0x00000000#32 + s) (Ideal.ofBits .f32 0x45800000#32) := by
  rw [Cert.Consts.ofBits_zero, zero_add, Cert.Consts.ofBits_4096, Cert.Consts.ofBits_inv4096,
    Ideal.div_coe (by norm_num : (4096 : ℝ) ≠ 0)]

/-- A row with its own mean taken off is the row centred by the instance mean. -/
theorem kCen_eq (g : Fin 16) (n : Fin 32) (c : Fin 16) (k : Fin 4096) :
    kCen x g n c k = X x n (chan g c) k - meanIn x g n c := by
  unfold kCen meanIn kS
  rw [mul_inv4096]

/-- The instance covariance. -/
theorem kCovIn_eq (g : Fin 16) (n : Fin 32) : kCovIn x g n = covIn x g n := by
  funext c d
  unfold kCovIn covIn kD
  simp only [kCen_eq]

end Cert.Bridge

end
-- ==== Proof.BridgeCov.lean ====
/-
  The batch covariance as the kernel program computes it — the within-sample Gram entries added over the samples, plus
  4096 times the cross moment of the sample means about the batch means, over 131072 — is the statement's, the cross
  moment of all 131072 positions about the batch means: the law of total covariance. It is a law of the reals (the mixed
  terms cancel), so it is stated for an input whose entries are all real: the coercions are pushed out of every sum,
  difference and product, the law is applied once, over the reals, with the batch means as the two centres.
-/
import proofs.«136164_j25769804234_2_alg».proof.Proof.BridgeMean
import proofs.«136164_j25769804234_2_alg».proof.Proof.LibVariance

noncomputable section

open scoped BigOperators

namespace Cert.Bridge

open Idealize.ShloMosaic Idealize.ShloMosaic.ValueIdx Cert.RefSpec Cert.KSpec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (x : FVec Ideal ⟨4, ![32, 256, 64, 64]⟩ .f32)

section Real
variable (r : Fin 32 → Fin 256 → Fin 4096 → ℝ) (hr : ∀ n ch m, X x n ch m = (r n ch m : EReal))
include hr

/-- A row sum of real entries is the real row sum. -/
theorem kS_real (g : Fin 16) (n : Fin 32) (c : Fin 16) : kS x g n c = ((∑ m, r n (chan g c) m : ℝ) : EReal) := by
  unfold kS
  rw [coe_sum]
  exact Finset.sum_congr rfl fun m _ => hr n (chan g c) m

/-- A centred entry. -/
theorem kCen_real (g : Fin 16) (n : Fin 32) (c : Fin 16) (k : Fin 4096) :
    kCen x g n c k = ((r n (chan g c) k - (∑ m, r n (chan g c) m) * (1 / 4096) : ℝ) : EReal) := by
  unfold kCen
  rw [hr, kS_real x r hr, Cert.Consts.ofBits_inv4096, ← EReal.coe_mul, ← EReal.coe_sub]

/-- A within-sample Gram entry. -/
theorem kD_real (g : Fin 16) (n : Fin 32) (c d : Fin 16) :
    kD x g n c d = ((∑ k, (r n (chan g c) k - (∑ m, r n (chan g c) m) * (1 / 4096))
      * (r n (chan g d) k - (∑ m, r n (chan g d) m) * (1 / 4096)) : ℝ) : EReal) := by
  unfold kD
  rw [coe_sum]
  refine Finset.sum_congr rfl fun k _ => ?_
  rw [kCen_real x r hr, kCen_real x r hr, ← EReal.coe_mul]

/-- A sample mean. -/
theorem kMeanIn_real (g : Fin 16) (n : Fin 32) (c : Fin 16) :
    kMeanIn x g n c = (((∑ m, r n (chan g c) m) * (1 / 4096) : ℝ) : EReal) := by
  unfold kMeanIn
  rw [kS_real x r hr, Cert.Consts.ofBits_4096, Ideal.div_coe (by norm_num : (4096 : ℝ) ≠ 0), ← EReal.coe_mul]

/-- The batch mean is a real. -/
theorem kMb_real (g c : Fin 16) : ∃ A : ℝ, kMb x g c = (A : EReal) := by
  refine ⟨(∑ n, ∑ m, r n (chan g c) m) * (1 / 131072), ?_⟩
  unfold kMb
  rw [Cert.Consts.ofBits_zero, zero_add, Cert.Consts.ofBits_131072, Ideal.div_coe (by norm_num : (131072 : ℝ) ≠ 0),
    EReal.coe_mul, coe_sum]
  exact congrArg (· * (((1 / 131072 : ℝ)) : EReal)) (Finset.sum_congr rfl fun n _ => kS_real x r hr g n c)

end Real

/-- THE BATCH COVARIANCE, for an input of real entries: the law of total covariance. -/
theorem kCovBn_eq (hfin : ∀ n ch m, ∃ r : ℝ, X x n ch m = (r : EReal)) (g : Fin 16) : kCovBn x g = covBn x g := by
  choose r hr using hfin
  funext c d
  obtain ⟨A, hA⟩ := kMb_real x r hr g c
  obtain ⟨B, hB⟩ := kMb_real x r hr g d
  have key := Cert.LibVariance.total_covariance (N := Fin 32) (M := Fin 4096) (fun n m => r n (chan g c) m)
    (fun n m => r n (chan g d) m) A B 4096 (by norm_num) (by simp)
  -- the statement's cross moment, as a real
  have href : ∑ k : Fin 131072, (Xbn x g c k - (A : EReal)) * (Xbn x g d k - (B : EReal))
      = ((∑ n, ∑ m, (r n (chan g c) m - A) * (r n (chan g d) m - B) : ℝ) : EReal) := by
    refine (sum_split fun n m => (X x n (chan g c) m - (A : EReal)) * (X x n (chan g d) m - (B : EReal))).trans ?_
    rw [coe_sum]
    refine Finset.sum_congr rfl fun n _ => ?_
    rw [coe_sum]
    refine Finset.sum_congr rfl fun m _ => ?_
    rw [hr, hr, ← EReal.coe_sub, ← EReal.coe_sub, ← EReal.coe_mul]
  -- the kernel's two terms, as a real
  have hker : (Ideal.ofBits .f32 0x00000000#32 + ∑ n : Fin 32, kD x g n c d)
        + Ideal.ofBits .f32 0x45800000#32 * ∑ n : Fin 32, (kMeanIn x g n c - (A : EReal)) * (kMeanIn x g n d - (B : EReal))
      = (((0 + ∑ n, ∑ k, (r n (chan g c) k - (∑ m, r n (chan g c) m) * (1 / 4096))
              * (r n (chan g d) k - (∑ m, r n (chan g d) m) * (1 / 4096)))
          + 4096 * ∑ n, ((∑ m, r n (chan g c) m) * (1 / 4096) - A) * ((∑ m, r n (chan g d) m) * (1 / 4096) - B) : ℝ) : EReal) := by
    rw [Cert.Consts.ofBits_zero, Cert.Consts.ofBits_4096, EReal.coe_add, EReal.coe_add, EReal.coe_zero, EReal.coe_mul,
      coe_sum, coe_sum]
    refine congrArg₂ (· + ·) (congrArg₂ (· + ·) rfl (Finset.sum_congr rfl fun n _ => kD_real x r hr g n c d))
      (congrArg₂ (· * ·) rfl (Finset.sum_congr rfl fun n _ => ?_))
    rw [kMeanIn_real x r hr, kMeanIn_real x r hr, ← EReal.coe_sub, ← EReal.coe_sub, ← EReal.coe_mul]
  unfold kCovBn covBn
  rw [← kMb_eq x g c, ← kMb_eq x g d, hA, hB, href, hker]
  refine congrArg (fun t : ℝ => Ideal.div (t : EReal) (Ideal.ofBits .f32 0x48000000#32)) ?_
  simp only [zero_add, mul_one_div]
  exact key.symm

end Cert.Bridge

end
-- ==== Proof.BridgeFinite.lean ====
/-
  From the certificate's precondition to finiteness of the input: the precondition says that the conjunction of five
  "every entry is below +∞ in absolute value" tests is 1; its first conjunct, read at an entry of the first argument, says
  that the larger of the entry and its negation is below +∞, so the entry is neither infinity: it is a real.
-/
import proofs.«136164_j25769804234_2_alg».proof.Defs
import proofs.«136164_j25769804234_2_alg».proof.Proof.Gen.Pre_finite_inputs
import Idealize.ShloMosaic.Lib.ReduceAll
import Idealize.ShloMosaic.Lib.ValueIdx

noncomputable section

namespace Cert.Bridge

open Idealize.ShloMosaic Idealize.SL.Sem Idealize.ShloMosaic.ValueIdx

/-- The scalar shape has one index. -/
instance : Subsingleton Cert.Pre_finite_inputs.S_.Idx := ⟨fun a b => funext fun d => d.elim0⟩

/-- An extended real whose absolute value (the larger of it and its negation) is below +∞ is a real. -/
theorem real_of_abs_lt_top (a : EReal) (h : max a (-a) < ⊤) : ∃ r : ℝ, a = (r : EReal) := by
  induction a using EReal.rec with
  | bot => simp at h
  | top => simp at h
  | coe r => exact ⟨r, rfl⟩

/-- An extended real whose absolute value compares below the pattern of +∞ is a real. -/
theorem real_of_cmp (a : EReal) (h : Ideal.cmp .olt (max a (-a)) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  refine real_of_abs_lt_top a ?_
  by_contra hn
  have h0 : Ideal.cmp .olt (max a (-a)) ⊤ = 0#1 := by simp [Ideal.cmp, hn]
  rw [h0] at h
  exact absurd h (by decide)

/-- Under the precondition every entry of the first argument is a real. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  have h0 := congrFun (h c) ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := Host.reduce_andi_all _ _ _ _ _ h4 i
  exact real_of_cmp (m ((c.tc : Thread Cert.KernelIdeal.nD Cert.KernelIdeal.τ).loc Cert.KernelIdeal.main_arg0) i) h5

end Cert.Bridge

end
-- ==== Proof.lean ====
/-
  The proof of `Cert.Claim`: SwitchWhiten2d (batch and instance whitening mixed by two softmax weights, the inverse
  square root of the mixed covariance by five Newton-Schulz steps) in two kernel calls with the statistics combined on
  the host between them, against the plain jnp form.
  The three programs run: the two kernel programs by their generated frames, the reference as the straight line of host
  operations it is (Proof/RefRun.lean). The idealized kernel is the kernel's own text read at the extended reals (no
  rewrite was applied), so nothing is owed for that conjunct.
  The values: the reference's result is the specification `RefSpec.outArr` of its arguments, index by index
  (Proof/RefValue.lean). The kernel program's result is the same function (Proof/KernelFinal.lean): its first call leaves
  the row sums and the Gram matrices of the rows centred per sample; the host takes the instance statistics from them, the
  batch mean from the row sums, and the batch covariance by the law of total covariance — the one step that needs the
  inputs to be real numbers, which the precondition gives (Proof/BridgeCov.lean, Proof/BridgeFinite.lean); the mixtures,
  the trace normalization, the Newton-Schulz steps and the final scaling are the specification's own operations per
  (group, sample); and the second call's product with the block-diagonal matrix keeps, of each row's 256 terms, the 16 of
  its own sample.
-/
import proofs.«136164_j25769804234_2_alg».proof.Defs
import proofs.«136164_j25769804234_2_alg».proof.Proof.Gen.Kernel
import proofs.«136164_j25769804234_2_alg».proof.Proof.Gen.Kernel.Skeleton
import proofs.«136164_j25769804234_2_alg».proof.Proof.Gen.Kernel.Launch
import proofs.«136164_j25769804234_2_alg».proof.Proof.Gen.Kernel.Points
import proofs.«136164_j25769804234_2_alg».proof.Proof.Gen.Kernel.Frame
import proofs.«136164_j25769804234_2_alg».proof.Proof.Gen.KernelIdeal
import proofs.«136164_j25769804234_2_alg».proof.Proof.Gen.KernelIdeal.Skeleton
import proofs.«136164_j25769804234_2_alg».proof.Proof.Gen.KernelIdeal.Launch
import proofs.«136164_j25769804234_2_alg».proof.Proof.Gen.KernelIdeal.Points
import proofs.«136164_j25769804234_2_alg».proof.Proof.Gen.KernelIdeal.Frame
import proofs.«136164_j25769804234_2_alg».proof.Proof.Gen.ReferenceIdeal
import proofs.«136164_j25769804234_2_alg».proof.Proof.Gen.Pre_finite_inputs
import proofs.«136164_j25769804234_2_alg».proof.Proof.KernelRun
import proofs.«136164_j25769804234_2_alg».proof.Proof.RefRun
import proofs.«136164_j25769804234_2_alg».proof.Proof.KernelFinal
import proofs.«136164_j25769804234_2_alg».proof.Proof.RefValue
import proofs.«136164_j25769804234_2_alg».proof.Proof.BridgeMean
import proofs.«136164_j25769804234_2_alg».proof.Proof.BridgeCov
import proofs.«136164_j25769804234_2_alg».proof.Proof.BridgeFinite
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Hand.run_result (F := Ideal) m ρ)

theorem preserves : Cert.preserves_Kernel_KernelIdeal := trivial

/-- The two programs spell the softmax of a pair by the same operations. -/
theorem sm_eq (a : FVec Ideal Cert.KernelIdeal.S2 .f32) : Cert.KernelIdeal.Mix.sm a = Cert.RefSpec.softmax2 a := rfl

/-- The kernel program's result is the specification of its own arguments, when the input holds real numbers. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W9 m ρ c (Proc.devRef .tc Cert.KernelIdeal.main_v142)
      = Cert.RefSpec.outArr (m ((c.tc : Thread Cert.KernelIdeal.nD Cert.KernelIdeal.τ).loc Cert.KernelIdeal.main_arg0))
          (fun i => Cert.RefSpec.softmax2 (m ((c.tc : Thread Cert.KernelIdeal.nD Cert.KernelIdeal.τ).loc Cert.KernelIdeal.main_arg1)) (ix1 i))
          (fun i => Cert.RefSpec.softmax2 (m ((c.tc : Thread Cert.KernelIdeal.nD Cert.KernelIdeal.τ).loc Cert.KernelIdeal.main_arg2)) (ix1 i))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  have hfin := Cert.Bridge.finite_of_pre m hpre c
  have hX : ∀ n ch mm, ∃ r : ℝ, Cert.RefSpec.X (Cert.KernelIdeal.Value.xArg m c) n ch mm = (r : EReal) :=
    fun n ch mm => hfin _
  rw [Cert.KernelIdeal.Value.result_W9,
    Cert.KernelIdeal.Value.result_spec m c (fun g n ch => Cert.Bridge.kMeanIn_eq _ g n ch) (fun g ch => Cert.Bridge.kMb_eq _ g ch)
      (fun g n => Cert.Bridge.kCovIn_eq _ g n) (fun g => Cert.Bridge.kCovBn_eq _ hX g)]
  rfl

theorem algebraic : Cert.algebraic_KernelIdeal_ReferenceIdeal := by
  intro m ρ m' ρ' hpre hagree
  refine ⟨fun c => Cert.KernelIdeal.Gen.W9 m ρ c (Proc.devRef .tc Cert.KernelIdeal.main_v142),
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run_result (F := Ideal) m' ρ')
  rw [Cert.ReferenceIdeal.Hand.ref_value]
  show Cert.RefSpec.outArr (m' ((c.tc : Thread Cert.ReferenceIdeal.nD Cert.ReferenceIdeal.τ).loc Cert.ReferenceIdeal.main_arg0))
      (fun i => Cert.RefSpec.softmax2 (m' ((c.tc : Thread Cert.ReferenceIdeal.nD Cert.ReferenceIdeal.τ).loc Cert.ReferenceIdeal.main_arg1)) (ix1 i))
      (fun i => Cert.RefSpec.softmax2 (m' ((c.tc : Thread Cert.ReferenceIdeal.nD Cert.ReferenceIdeal.τ).loc Cert.ReferenceIdeal.main_arg2)) (ix1 i))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]
  exact (kernel_value m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
